-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024x7x7 : Shape := ⟨4, ![512, 1024, 7, 7]⟩
abbrev S1024x50176 : Shape := ⟨2, ![1024, 50176]⟩
abbrev S1024 : Shape := ⟨1, ![1024]⟩
abbrev S1024x1024 : Shape := ⟨2, ![1024, 1024]⟩
abbrev S_ : Shape := ⟨0, ![]⟩

class Facts : Prop where
  bcast_S_S512x1024x7x7 : S_.BroadcastsInDim S512x1024x7x7 (![] : Fin 0 → Fin S512x1024x7x7.rank)
  reducesTo_S512x1024x7x7_S_d0_1_2_3 : S512x1024x7x7.ReducesTo [0, 1, 2, 3] S_
  h_S_ : 0 < S_.numel
  bcast_S_S1024x50176 : S_.BroadcastsInDim S1024x50176 (![] : Fin 0 → Fin S1024x50176.rank)
  reducesTo_S1024x50176_S_d0_1 : S1024x50176.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024 .f32) (main_arg15 : FVec F S1024x1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S512x1024x7x7 .f32) (main_arg1 : FVec F S1024x50176 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) : IVec S_ 1 :=
  let main_v0 : FVec F S512x1024x7x7 .f32 := Host.absf main_arg0
  let main_cst : FVec F S_ .f32 := constant S_ .f32 0x7F800000#32
  let main_v1 : FVec F S512x1024x7x7 .f32 := broadcastInDim S512x1024x7x7 ![] bcast_S_S512x1024x7x7 main_cst
  let main_v2 : IVec S512x1024x7x7 1 := cmpf .olt main_v0 main_v1
  let main_c : IVec S_ 1 := constantI S_ 1 1#1
  let main_v3 : IVec S_ 1 := (fun x v => Host.reduce IntOp.andi x v reducesTo_S512x1024x7x7_S_d0_1_2_3 h_S_) main_v2 main_c
  let main_v4 : FVec F S1024x50176 .f32 := Host.absf main_arg1
  let main_cst_0 : FVec F S_ .f32 := constant S_ .f32 0x7F800000#32
  let main_v5 : FVec F S1024x50176 .f32 := broadcastInDim S1024x50176 ![] bcast_S_S1024x50176 main_cst_0
  let main_v6 : IVec S1024x50176 1 := cmpf .olt main_v4 main_v5
  let main_c_1 : IVec S_ 1 := constantI S_ 1 1#1
  let main_v7 : IVec S_ 1 := (fun x v => Host.reduce IntOp.andi x v reducesTo_S1024x50176_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S512x1024x7x7 : Shape := ⟨4, ![512, 1024, 7, 7]⟩
abbrev S1024x50176 : Shape := ⟨2, ![1024, 50176]⟩
abbrev S1024 : Shape := ⟨1, ![1024]⟩
abbrev S1024x1024 : Shape := ⟨2, ![1024, 1024]⟩
abbrev S512x50176 : Shape := ⟨2, ![512, 50176]⟩
abbrev S512x1024 : Shape := ⟨2, ![512, 1024]⟩
abbrev S512x1792 : Shape := ⟨2, ![512, 1792]⟩
abbrev S512 : Shape := ⟨1, ![512]⟩
abbrev S512x512 : Shape := ⟨2, ![512, 512]⟩
abbrev S1x512 : Shape := ⟨2, ![1, 512]⟩
abbrev S1x1024 : Shape := ⟨2, ![1, 1024]⟩
abbrev S512x1 : Shape := ⟨2, ![512, 1]⟩

abbrev nBuf : Space → Nat
  | .hbm => 27
  | .vmem => 25
  | .smem => 0
  | _ => 0

abbrev bufTy : (tb : Table) → Fin (tcTables nBuf tb) → BufTy
  | .hbm, ⟨0, _⟩ => ⟨S512x1024x7x7, .f32⟩
  | .hbm, ⟨1, _⟩ => ⟨S1024x50176, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S512x50176, .f32⟩
  | .hbm, ⟨18, _⟩ => ⟨S512x1024, .f32⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S512x1024, .f32⟩
  | .local _ .vmem, ⟨0, _⟩ => ⟨S512x1792, .f32⟩
  | .local _ .vmem, ⟨1, _⟩ => ⟨S512x1792, .f32⟩
  | .local _ .vmem, ⟨2, _⟩ => ⟨S512x1792, .f32⟩
  | .local _ .vmem, ⟨3, _⟩ => ⟨S512x1792, .f32⟩
  | .local _ .vmem, ⟨4, _⟩ => ⟨S512, .f32⟩
  | .local _ .vmem, ⟨5, _⟩ => ⟨S512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1024, .f32⟩
  | .local _ .vmem, ⟨10, _⟩ => ⟨S1024x1024, .bf16⟩
  | .local _ .vmem, ⟨11, _⟩ => ⟨S1024, .f32⟩
  | .local _ .vmem, ⟨12, _⟩ => ⟨S1024x1024, .bf16⟩
  | .local _ .vmem, ⟨13, _⟩ => ⟨S1024, .f32⟩
  | .local _ .vmem, ⟨14, _⟩ => ⟨S1024x1024, .bf16⟩
  | .local _ .vmem, ⟨15, _⟩ => ⟨S1024, .f32⟩
  | .local _ .vmem, ⟨16, _⟩ => ⟨S1024x1024, .bf16⟩
  | .local _ .vmem, ⟨17, _⟩ => ⟨S1024, .f32⟩
  | .local _ .vmem, ⟨18, _⟩ => ⟨S1024x1024, .bf16⟩
  | .local _ .vmem, ⟨19, _⟩ => ⟨S1024, .f32⟩
  | .local _ .vmem, ⟨20, _⟩ => ⟨S1024x1024, .bf16⟩
  | .local _ .vmem, ⟨21, _⟩ => ⟨S1024, .f32⟩
  | .local _ .vmem, ⟨22, _⟩ => ⟨S1024x1024, .bf16⟩
  | .local _ .vmem, ⟨23, _⟩ => ⟨S1024, .f32⟩
  | .local _ .vmem, ⟨24, _⟩ => ⟨S512x1024, .f32⟩
  | _, _ => ⟨S512x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23

abbrev nD : Nat := 1
abbrev τ : Topo := Topo.v7x

variable {F : FTy → Type} [FloatOps F]

abbrev grid0 : Pipeline.Grid := ⟨2, ![2, 28], ![false, false]⟩

def k0_cond2 (i : grid0.Coords) : BitVec 1 :=
  let arg1 : BitVec 32 := BitVec.ofNat 32 (i 1).val
  let c27_i32 : BitVec 32 := 27#32
  let v14 : BitVec 1 := Scalar.cmpi .eq arg1 c27_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1024x1024 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S512x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

class Facts₀ : Prop where
  shapeCasts_S512x1024x7x7_S512x50176 : S512x1024x7x7.ShapeCasts S512x50176
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1792_S512x1792_0_0 : ∀ a, (![0, 0] : Fin 2 → Nat) a + S512x1792.size a ≤ S512x1792.size a
  h_S512x1792 : 0 < S512x1792.numel
  shapeCasts_S512x1792_S512x1792 : S512x1792.ShapeCasts S512x1792
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S512x512_S512 : S512x512.Reduces [1] S512
  shapeCasts_S512_S512x1 : S512.ShapeCasts S512x1
  broadcasts_S512x1_S512x512 : S512x1.Broadcasts S512x512
  dot_S512x1792_S512x1792_S512x512_1_1_0_0_n_n_wf : DotDims.WF S512x1792 S512x1792 S512x512 [1] [1] [0] [0] [] []
  dot_S512x1024_S1024x1024_S512x1024_1_1_0_0_n_n_wf : DotDims.WF S512x1024 S1024x1024 S512x1024 [1] [1] [0] [0] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1792.size a ≤ S512x50176.size a
  hwx0_0 : ∀ i : grid0.Coords, EltTy.bits .f32 = 32 ∨ (Rect.block (s := S512x50176) S512x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1792.size a ≤ S1024x50176.size a
  hwx0_1 : ∀ i : grid0.Coords, EltTy.bits .f32 = 32 ∨ (Rect.block (s := S1024x50176) S512x1792.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S1024.size a
  hwx0_2 : ∀ i : grid0.Coords, EltTy.bits .f32 = 32 ∨ (Rect.block (s := S1024) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x1024.size a
  hwx0_3 : ∀ i : grid0.Coords, EltTy.bits .f32 = 32 ∨ (Rect.block (s := S512x1024) S512x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .f32 = 32 ∨ (Rect.block (s := S512x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S1024x1024.size a
  hwx1_7 : ∀ i : grid1.Coords, EltTy.bits .bf16 = 32 ∨ (Rect.block (s := S1024x1024) S1024x1024.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024.size a ≤ S1024.size a
  hwx1_8 : ∀ i : grid1.Coords, EltTy.bits .f32 = 32 ∨ (Rect.block (s := S1024) S1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024x1024.size a ≤ S1024x1024.size a
  hwx1_9 : ∀ i : grid1.Coords, EltTy.bits .bf16 = 32 ∨ (Rect.block (s := S1024x1024) S1024x1024.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1024.size a ≤ S1024.size a
  hwx1_10 : ∀ i : grid1.Coords, EltTy.bits .f32 = 32 ∨ (Rect.block (s := S1024) S1024.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1024x1024.size a ≤ S1024x1024.size a
  hwx1_11 : ∀ i : grid1.Coords, EltTy.bits .bf16 = 32 ∨ (Rect.block (s := S1024x1024) S1024x1024.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1024.size a ≤ S1024.size a
  hwx1_12 : ∀ i : grid1.Coords, EltTy.bits .f32 = 32 ∨ (Rect.block (s := S1024) S1024.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1024x1024.size a ≤ S1024x1024.size a
  hwx1_13 : ∀ i : grid1.Coords, EltTy.bits .bf16 = 32 ∨ (Rect.block (s := S1024x1024) S1024x1024.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1024.size a ≤ S1024.size a
  hwx1_14 : ∀ i : grid1.Coords, EltTy.bits .f32 = 32 ∨ (Rect.block (s := S1024) S1024.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S512x1024.size a ≤ S512x1024.size a
  hwx1_15 : ∀ i : grid1.Coords, EltTy.bits .f32 = 32 ∨ (Rect.block (s := S512x1024) S512x1024.size (cc1_transform_15 i) (hinb1_15 i)).WholeWords (EltTy.packing .f32)

variable [Facts₀]

def dot_S512x1792_S512x1792_S512x512_1_1_0_0_n_n : DotDims S512x1792 S512x1792 S512x512 where
  lhsContracting := [1]
  rhsContracting := [1]
  lhsNonContracting := [0]
  rhsNonContracting := [0]
  lhsBatch := []
  rhsBatch := []
  wf := dot_S512x1792_S512x1792_S512x512_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1024x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v6) S1024x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg12) S1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v7) S1024x1024.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg14) S1024.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v8) S1024x1024.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg16) S1024.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v9) S512x1024.size cc1_transform_15 reads1_15 true true 1 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S512x1024x7x7 : Shape := ⟨4, ![512, 1024, 7, 7]⟩
abbrev S1024x50176 : Shape := ⟨2, ![1024, 50176]⟩
abbrev S1024 : Shape := ⟨1, ![1024]⟩
abbrev S1024x1024 : Shape := ⟨2, ![1024, 1024]⟩
abbrev S512x50176 : Shape := ⟨2, ![512, 50176]⟩
abbrev S50176x1024 : Shape := ⟨2, ![50176, 1024]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S_ : Shape := ⟨0, ![]⟩
abbrev S512 : Shape := ⟨1, ![512]⟩
abbrev S512x1 : Shape := ⟨2, ![512, 1]⟩

abbrev nBuf : Space → Nat
  | .hbm => 107
  | .vmem => 0
  | .smem => 0
  | _ => 0

abbrev bufTy : (tb : Table) → Fin (tcTables nBuf tb) → BufTy
  | .hbm, ⟨0, _⟩ => ⟨S512x1024x7x7, .f32⟩
  | .hbm, ⟨1, _⟩ => ⟨S1024x50176, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S512x50176, .f32⟩
  | .hbm, ⟨18, _⟩ => ⟨S50176x1024, .f32⟩
  | .hbm, ⟨19, _⟩ => ⟨S512x1024, .f32⟩
  | .hbm, ⟨20, _⟩ => ⟨S1x1024, .f32⟩
  | .hbm, ⟨21, _⟩ => ⟨S512x1024, .f32⟩
  | .hbm, ⟨22, _⟩ => ⟨S512x1024, .f32⟩
  | .hbm, ⟨23, _⟩ => ⟨S1024x1024, .f32⟩
  | .hbm, ⟨24, _⟩ => ⟨S512x1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S1024x1024, .f32⟩
  | .hbm, ⟨29, _⟩ => ⟨S512x1024, .f32⟩
  | .hbm, ⟨30, _⟩ => ⟨S1x1024, .f32⟩
  | .hbm, ⟨31, _⟩ => ⟨S512x1024, .f32⟩
  | .hbm, ⟨32, _⟩ => ⟨S512x1024, .f32⟩
  | .hbm, ⟨33, _⟩ => ⟨S1024x512, .f32⟩
  | .hbm, ⟨34, _⟩ => ⟨S512x512, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S512x1, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512, .f32⟩
  | .hbm, ⟨49, _⟩ => ⟨S512x1, .f32⟩
  | .hbm, ⟨50, _⟩ => ⟨S512x512, .f32⟩
  | .hbm, ⟨51, _⟩ => ⟨S512x512, .f32⟩
  | .hbm, ⟨52, _⟩ => ⟨S512x1024, .f32⟩
  | .hbm, ⟨53, _⟩ => ⟨S1024x1024, .f32⟩
  | .hbm, ⟨54, _⟩ => ⟨S512x1024, .f32⟩
  | .hbm, ⟨55, _⟩ => ⟨S1x1024, .f32⟩
  | .hbm, ⟨56, _⟩ => ⟨S512x1024, .f32⟩
  | .hbm, ⟨57, _⟩ => ⟨S512x1024, .f32⟩
  | .hbm, ⟨58, _⟩ => ⟨S512x1024, .f32⟩
  | .hbm, ⟨59, _⟩ => ⟨S_, .f32⟩
  | .hbm, ⟨60, _⟩ => ⟨S512x1024, .f32⟩
  | .hbm, ⟨61, _⟩ => ⟨S512x1024, .f32⟩
  | .hbm, ⟨62, _⟩ => ⟨S1024x1024, .f32⟩
  | .hbm, ⟨63, _⟩ => ⟨S512x1024, .f32⟩
  | .hbm, ⟨64, _⟩ => ⟨S1x1024, .f32⟩
  | .hbm, ⟨65, _⟩ => ⟨S512x1024, .f32⟩
  | .hbm, ⟨66, _⟩ => ⟨S512x1024, .f32⟩
  | .hbm, ⟨67, _⟩ => ⟨S1024x1024, .f32⟩
  | .hbm, ⟨68, _⟩ => ⟨S512x1024, .f32⟩
  | .hbm, ⟨69, _⟩ => ⟨S1x1024, .f32⟩
  | .hbm, ⟨70, _⟩ => ⟨S512x1024, .f32⟩
  | .hbm, ⟨71, _⟩ => ⟨S512x1024, .f32⟩
  | .hbm, ⟨72, _⟩ => ⟨S1024x1024, .f32⟩
  | .hbm, ⟨73, _⟩ => ⟨S512x1024, .f32⟩
  | .hbm, ⟨74, _⟩ => ⟨S1x1024, .f32⟩
  | .hbm, ⟨75, _⟩ => ⟨S512x1024, .f32⟩
  | .hbm, ⟨76, _⟩ => ⟨S512x1024, .f32⟩
  | .hbm, ⟨77, _⟩ => ⟨S1024x512, .f32⟩
  | .hbm, ⟨78, _⟩ => ⟨S512x512, .f32⟩
  | .hbm, ⟨79, _⟩ => ⟨S_, .f32⟩
  | .hbm, ⟨80, _⟩ => ⟨S512x512, .f32⟩
  | .hbm, ⟨81, _⟩ => ⟨S512x512, .f32⟩
  | .hbm, ⟨82, _⟩ => ⟨S_, .f32⟩
  | .hbm, ⟨83, _⟩ => ⟨S512, .f32⟩
  | .hbm, ⟨84, _⟩ => ⟨S_, .f32⟩
  | .hbm, ⟨85, _⟩ => ⟨S512, .f32⟩
  | .hbm, ⟨86, _⟩ => ⟨S512, .f32⟩
  | .hbm, ⟨87, _⟩ => ⟨S512x1, .f32⟩
  | .hbm, ⟨88, _⟩ => ⟨S512x512, .f32⟩
  | .hbm, ⟨89, _⟩ => ⟨S512x512, .f32⟩
  | .hbm, ⟨90, _⟩ => ⟨S512x512, .f32⟩
  | .hbm, ⟨91, _⟩ => ⟨S_, .f32⟩
  | .hbm, ⟨92, _⟩ => ⟨S512, .f32⟩
  | .hbm, ⟨93, _⟩ => ⟨S512x1, .f32⟩
  | .hbm, ⟨94, _⟩ => ⟨S512x512, .f32⟩
  | .hbm, ⟨95, _⟩ => ⟨S512x512, .f32⟩
  | .hbm, ⟨96, _⟩ => ⟨S512x1024, .f32⟩
  | .hbm, ⟨97, _⟩ => ⟨S1024x1024, .f32⟩
  | .hbm, ⟨98, _⟩ => ⟨S512x1024, .f32⟩
  | .hbm, ⟨99, _⟩ => ⟨S1x1024, .f32⟩
  | .hbm, ⟨100, _⟩ => ⟨S512x1024, .f32⟩
  | .hbm, ⟨101, _⟩ => ⟨S512x1024, .f32⟩
  | .hbm, ⟨102, _⟩ => ⟨S512x1024, .f32⟩
  | .hbm, ⟨103, _⟩ => ⟨S512x1024, .f32⟩
  | .hbm, ⟨104, _⟩ => ⟨S_, .f32⟩
  | .hbm, ⟨105, _⟩ => ⟨S512x1024, .f32⟩
  | .hbm, ⟨106, _⟩ => ⟨S512x1024, .f32⟩
  | _, _ => ⟨S512x1024x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call0_cst : Ref sig .tc := ⟨.hbm, 59, rfl⟩
abbrev main_call0_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_3 : Ref sig .tc := ⟨.hbm, 79, rfl⟩
abbrev main_v56 : Ref sig .tc := ⟨.hbm, 80, rfl⟩
abbrev main_v57 : Ref sig .tc := ⟨.hbm, 81, rfl⟩
abbrev main_cst_4 : Ref sig .tc := ⟨.hbm, 82, rfl⟩
abbrev main_v58 : Ref sig .tc := ⟨.hbm, 83, rfl⟩
abbrev main_cst_5 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_6 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call1_cst : Ref sig .tc := ⟨.hbm, 104, rfl⟩
abbrev main_call1_v0 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  shapeCasts_S512x1024x7x7_S512x50176 : S512x1024x7x7.ShapeCasts S512x50176
  transposes_S1024x50176_S50176x1024_1_0 : S1024x50176.Transposes [1, 0] S50176x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  transposes_S1024x1024_S1024x1024_1_0 : S1024x1024.Transposes [1, 0] S1024x1024
  transposes_S512x1024_S1024x512_1_0 : S512x1024.Transposes [1, 0] S1024x512
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S_S512x1024 : S_.BroadcastsInDim S512x1024 (![] : Fin 0 → Fin S512x1024.rank)
  dot_S512x50176_S50176x1024_S512x1024_1_0_0_1_n_n_wf : DotDims.WF S512x50176 S50176x1024 S512x1024 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []

variable [Facts₀]

def dot_S512x50176_S50176x1024_S512x1024_1_0_0_1_n_n : DotDims S512x50176 S50176x1024 S512x1024 where
  lhsContracting := [1]
  rhsContracting := [0]
  lhsNonContracting := [0]
  rhsNonContracting := [1]
  lhsBatch := []
  rhsBatch := []
  wf := dot_S512x50176_S50176x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.K.R0Base.lean ====
/-
  The first region (the blocked matrix product): what its body's runs are stated over.
  The grid is 2 x 28, flattened to 56 points; point t has column block t / 28 and reduction block t % 28.
  The body branches on the reduction block: at block 0 it clears the accumulator first, at block 27 it
  also adds the bias and stores the output block.  So there are three kinds of point: first (t % 28 = 0),
  middle, last (t % 28 = 27).  The output window is idle (neither stored nor written back) except at last points.
-/
import proofs.«157159_j31490700214886_2_alg».proof.Proof.Gen.Kernel.Launch
import proofs.«157159_j31490700214886_2_alg».proof.Proof.Gen.Kernel.Skeleton
import proofs.«157159_j31490700214886_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "this is the first reduction block". -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 28 = 0 :=
  (by decide +kernel : ∀ t : Fin grid0.N, condFirst (grid0.coords t) ↔ t.val % 28 = 0)

/-- "this is the last reduction block". -/
abbrev condLast (i : grid0.Coords) : Prop := k0_cond2 i = 1#1
theorem hcondLast : ∀ t : Fin cfg0.N, condLast (grid0.coords t) ↔ t.val % 28 = 27 :=
  (by decide +kernel : ∀ t : Fin grid0.N, condLast (grid0.coords t) ↔ t.val % 28 = 27)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from last points the output window is idle and not written back. -/
theorem idleAt0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
/-- At last points it is live. -/
theorem liveAt0_3 : ∀ t : Fin cfg0.N, condLast (grid0.coords t) → cfg0.idle 3 (grid0.coords t) = false := by decide +kernel

/-! ## The staging memrefs the body is called with, and the scratch accumulator -/

abbrev VO0_3 : View sig .tc .vmem S512x512 .f32 := (Memref.whole cc0_stg3_0 : Memref sig .tc .vmem S512x512 .f32).view
abbrev ms0_0 (t : Fin cfg0.N) : Memref sig .tc .vmem S512x1792 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1792 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0 : Memref sig .tc .vmem S512x512 .f32 := Memref.whole cc0_scratch0
abbrev VS0 : View sig .tc .vmem S512x512 .f32 := scM0.view

/-- The second region's staging buffers, which this region does not touch: each at some contents. -/
def other0 (c : Dev nD) : sProp 𝕄 :=
  iprop((∃ f, (c : Thread nD τ).loc cc1_stg0_0 ↦{fullShare} f) ∗ (∃ f, (c : Thread nD τ).loc cc1_stg1_0 ↦{fullShare} f) ∗ (∃ f, (c : Thread nD τ).loc cc1_stg2_0 ↦{fullShare} f) ∗ (∃ f, (c : Thread nD τ).loc cc1_stg3_0 ↦{fullShare} f) ∗ (∃ f, (c : Thread nD τ).loc cc1_stg4_0 ↦{fullShare} f) ∗ (∃ f, (c : Thread nD τ).loc cc1_stg5_0 ↦{fullShare} f) ∗ (∃ f, (c : Thread nD τ).loc cc1_stg6_0 ↦{fullShare} f) ∗ (∃ f, (c : Thread nD τ).loc cc1_stg7_0 ↦{fullShare} f) ∗ (∃ f, (c : Thread nD τ).loc cc1_stg8_0 ↦{fullShare} f) ∗ (∃ f, (c : Thread nD τ).loc cc1_stg9_0 ↦{fullShare} f) ∗ (∃ f, (c : Thread nD τ).loc cc1_stg10_0 ↦{fullShare} f) ∗ (∃ f, (c : Thread nD τ).loc cc1_stg11_0 ↦{fullShare} f) ∗ (∃ f, (c : Thread nD τ).loc cc1_stg12_0 ↦{fullShare} f) ∗ (∃ f, (c : Thread nD τ).loc cc1_stg13_0 ↦{fullShare} f) ∗ (∃ f, (c : Thread nD τ).loc cc1_stg14_0 ↦{fullShare} f) ∗ (∃ f, (c : Thread nD τ).loc cc1_stg15_0 ↦{fullShare} f))

/-- What the launch hands a region of this kernel beside the windows: the accumulator at some contents, the
    untouched scoped buffers, and the generator register at some state. -/
theorem PhiA0_eq (c : Dev nD) :
    (Pipeline.ΦA spec0 c : sProp 𝕄)
      = iprop(iprop((∃ d, owns (c : Thread nD τ) scM0 fullShare d) ∗ other0 c) ∗ (∃ r, prngReg c r)) := by
  unfold Pipeline.ΦA other0; rw [scopedRest0_eq]; simp only [scM0, owns_whole]; try rfl

end Cert.Kernel.Fr

end
-- ==== Proof.K.R0RunFirst.lean ====
/-
  The body at a FIRST point (reduction block 0, not the last block): the accumulator is cleared, the first partial product added; nothing is stored into the output block, which comes back untouched.
-/
import proofs.«157159_j31490700214886_2_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores, as lists of pieces (last first) for the output block and for the accumulator, with the proof
    that from whole buffers at the stated contents the body runs to a continuation that gets every buffer back:
    the inputs as they were, the accumulator (and the output block, where stored) with those pieces written. -/
noncomputable def runFirst (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : condFirst i) (hc1 : ¬condLast i)
    (x0 : Vec F S512x1792 .f32) (x1 : Vec F S512x1792 .f32) (x2 : Vec F S512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R0RunMiddle.lean ====
/-
  The body at a MIDDLE point (neither the first nor the last reduction block): one partial product is added to the accumulator the point before left; nothing is stored into the output block, which comes back untouched.
-/
import proofs.«157159_j31490700214886_2_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores, as lists of pieces (last first) for the output block and for the accumulator, with the proof
    that from whole buffers at the stated contents the body runs to a continuation that gets every buffer back:
    the inputs as they were, the accumulator (and the output block, where stored) with those pieces written. -/
noncomputable def runMiddle (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : ¬condLast i)
    (x0 : Vec F S512x1792 .f32) (x1 : Vec F S512x1792 .f32) (x2 : Vec F S512 .f32) (xs0 : Vec F S512x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R0RunLast.lean ====
/-
  The body at a LAST point (reduction block 27): the last partial product is added to the accumulator, and the accumulator plus the bias row is stored into the output block.
-/
import proofs.«157159_j31490700214886_2_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores, as lists of pieces (last first) for the output block and for the accumulator, with the proof
    that from whole buffers at the stated contents the body runs to a continuation that gets every buffer back:
    the inputs as they were, the accumulator (and the output block, where stored) with those pieces written. -/
noncomputable def runLast (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) :
    Σ' (L3 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.R0Data.lean ====
/-
  The first region's proof data and body obligation, at the contents V its arrays are entered with.
  After the body at point t the accumulator holds (defined by recursion on t): at a first point the first partial
  product over zeros; at later points the point before's accumulator plus this point's partial product.  The output
  block's staging buffer is stored only at last points (accumulator + bias row); elsewhere it is idle.
  The region's invariant before point t: before the first point whatever the launch hands over; afterwards the
  accumulator at what the point before left, the untouched scoped buffers, the generator register.
-/
import proofs.«157159_j31490700214886_2_alg».proof.Proof.K.R0RunFirst
import proofs.«157159_j31490700214886_2_alg».proof.Proof.K.R0RunMiddle
import proofs.«157159_j31490700214886_2_alg».proof.Proof.K.R0RunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each kind of point leaves -/

/-- At a first point: the accumulator's pieces read back. -/
def accFirst (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : condFirst i) (hc1 : ¬condLast i)
    (x0 : Vec F S512x1792 .f32) (x1 : Vec F S512x1792 .f32) (x2 : Vec F S512 .f32) : Vec F S512x512 .f32 :=
  VS0.read (Elt F) (VS0.writes (Elt F) VS0.junk (runFirst c i arg2 harg2 arg3 harg3 arg4 harg4 arg5 harg5 arg6 harg6 hc0 hc1 x0 x1 x2).2.1)
theorem coverFirst (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : condFirst i) (hc1 : ¬condLast i)
    (x0 : Vec F S512x1792 .f32) (x1 : Vec F S512x1792 .f32) (x2 : Vec F S512 .f32) (y : S512x512.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S512x512.size (by sl_kernel_rfl) y

/-- At a middle point. -/
def accMiddle (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : ¬condLast i)
    (x0 : Vec F S512x1792 .f32) (x1 : Vec F S512x1792 .f32) (x2 : Vec F S512 .f32) (xs0 : Vec F S512x512 .f32) : Vec F S512x512 .f32 :=
  VS0.read (Elt F) (VS0.writes (Elt F) VS0.junk (runMiddle c i arg2 harg2 arg3 harg3 arg4 harg4 arg5 harg5 arg6 harg6 hc0 hc1 x0 x1 x2 xs0).2.1)
theorem coverMiddle (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : ¬condLast i)
    (x0 : Vec F S512x1792 .f32) (x1 : Vec F S512x1792 .f32) (x2 : Vec F S512 .f32) (xs0 : Vec F S512x512 .f32) (y : S512x512.Idx) :
    ∃ pc ∈ (runMiddle c i arg2 harg2 arg3 harg3 arg4 harg4 arg5 harg5 arg6 harg6 hc0 hc1 x0 x1 x2 xs0).2.1, y ∈ pc.1.set :=
  View.cover_of_tiledL (runMiddle c i arg2 harg2 arg3 harg3 arg4 harg4 arg5 harg5 arg6 harg6 hc0 hc1 x0 x1 x2 xs0).2.1 S512x512.size (by sl_kernel_rfl) y

/-- At a last point: the accumulator and the output block. -/
def accLast (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) : Vec F S512x512 .f32 :=
  VS0.read (Elt F) (VS0.writes (Elt F) VS0.junk (runLast c i arg2 harg2 arg3 harg3 arg4 harg4 arg5 harg5 arg6 harg6 hc0 hc1 x0 x1 x2 xs0).2.1)
theorem coverLastAcc (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) (y : S512x512.Idx) :
    ∃ pc ∈ (runLast c i arg2 harg2 arg3 harg3 arg4 harg4 arg5 harg5 arg6 harg6 hc0 hc1 x0 x1 x2 xs0).2.1, y ∈ pc.1.set :=
  View.cover_of_tiledL (runLast c i arg2 harg2 arg3 harg3 arg4 harg4 arg5 harg5 arg6 harg6 hc0 hc1 x0 x1 x2 xs0).2.1 S512x512.size (by sl_kernel_rfl) y
def outLast (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) : Vec F S512x512 .f32 :=
  VO0_3.read (Elt F) (VO0_3.writes (Elt F) VO0_3.junk (runLast c i arg2 harg2 arg3 harg3 arg4 harg4 arg5 harg5 arg6 harg6 hc0 hc1 x0 x1 x2 xs0).1)
theorem coverLastOut (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) (y : S512x512.Idx) :
    ∃ pc ∈ (runLast c i arg2 harg2 arg3 harg3 arg4 harg4 arg5 harg5 arg6 harg6 hc0 hc1 x0 x1 x2 xs0).1, y ∈ pc.1.set :=
  View.cover_of_tiledL (runLast c i arg2 harg2 arg3 harg3 arg4 harg4 arg5 harg5 arg6 harg6 hc0 hc1 x0 x1 x2 xs0).1 S512x512.size (by sl_kernel_rfl) y

/-! ## Point by point -/

/-- What the output block's staging buffer (first component; a placeholder where the window is idle) and the
    accumulator (second component) hold after the body at position n. -/
def outsAt0 (c : Dev nD) : (n : ℕ) → n < cfg0.N → Vec F S512x512 .f32 × Vec F S512x512 .f32
  | 0, hn => (VO0_3.junk, accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcondFirst ⟨0, hn⟩).mpr (Nat.zero_mod _)) (fun h => (fun h => by (try dsimp only at h); omega) ((hcondLast ⟨0, hn⟩).mp h)) (iblk0 V c 0 ⟨0, hn⟩) (iblk0 V c 1 ⟨0, hn⟩) (iblk0 V c 2 ⟨0, hn⟩))
  | n + 1, hn =>
    if h0 : (n + 1) % 28 = 0 then
      if h1 : (n + 1) % 28 = 27 then
        False.elim (by omega)
      else
        (VO0_3.junk, accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcondFirst ⟨n + 1, hn⟩).mpr h0) (fun h => h1 ((hcondLast ⟨n + 1, hn⟩).mp h)) (iblk0 V c 0 ⟨n + 1, hn⟩) (iblk0 V c 1 ⟨n + 1, hn⟩) (iblk0 V c 2 ⟨n + 1, hn⟩))
    else
      if h1 : (n + 1) % 28 = 27 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (VO0_3.junk, accMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_first (c : Dev nD) (t : Fin cfg0.N) (h0 : t.val % 28 = 0) (h1 : ¬t.val % 28 = 27) :
    outsAt0 V c t.val t.isLt = (VO0_3.junk, accFirst c (grid0.coords t) (ms0_0 t) (hs0_0 t) (ms0_1 t) (hs0_1 t) (ms0_2 t) (hs0_2 t) (ms0_3 t) (hs0_3 t) scM0 (Memref.isWhole_whole _) ((hcondFirst t).mpr h0) (fun h => h1 ((hcondLast t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_middle (c : Dev nD) (t : Fin cfg0.N) (h0 : ¬t.val % 28 = 0) (h1 : ¬t.val % 28 = 27) :
    outsAt0 V c t.val t.isLt = (VO0_3.junk, accMiddle c (grid0.coords t) (ms0_0 t) (hs0_0 t) (ms0_1 t) (hs0_1 t) (ms0_2 t) (hs0_2 t) (ms0_3 t) (hs0_3 t) scM0 (Memref.isWhole_whole _) (fun h => h0 ((hcondFirst t).mp h)) (fun h => h1 ((hcondLast t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 28 = 0) (h1 : t.val % 28 = 27) :
    outsAt0 V c t.val t.isLt = (outLast c (grid0.coords t) (ms0_0 t) (hs0_0 t) (ms0_1 t) (hs0_1 t) (ms0_2 t) (hs0_2 t) (ms0_3 t) (hs0_3 t) scM0 (Memref.isWhole_whole _) (fun h => h0 ((hcondFirst t).mp h)) ((hcondLast t).mpr h1) (iblk0 V c 0 t) (iblk0 V c 1 t) (iblk0 V c 2 t) (outsAt0 V c (t.val - 1) (Nat.lt_of_le_of_lt (Nat.sub_le _ _) t.isLt)).2,
      accLast c (grid0.coords t) (ms0_0 t) (hs0_0 t) (ms0_1 t) (hs0_1 t) (ms0_2 t) (hs0_2 t) (ms0_3 t) (hs0_3 t) scM0 (Memref.isWhole_whole _) (fun h => h0 ((hcondFirst t).mp h)) ((hcondLast t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ other0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ other0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ other0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Fr

end
-- ==== Proof.K.R0Body.lean ====
/-
  The first region's body obligation: at every point the body, called on the windows' current staging buffers and
  handed the invariant, runs and gives back the buffers at what the proof data names, and the invariant of the next point.
  By cases on the kind of point; each case is that kind's run.
-/
import proofs.«157159_j31490700214886_2_alg».proof.Proof.K.R0Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 56 := lt_of_lt_of_eq t.isLt (show cfg0.N = 56 from N_0)
  by_cases h0 : t.val % 28 = 0
  · by_cases h1 : t.val % 28 = 27
    · exfalso; omega
    · -- a first point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcondLast t).mp h))) (noFlush0_3 t (fun h => h1 ((hcondLast t).mp h)))]
      rw [outsAt0_first V c t h0 h1]
      unfold accFirst; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((runFirst c (grid0.coords t) _ _ _ _ _ _ _ _ _ _ ((hcondFirst t).mpr h0) (fun h => h1 ((hcondLast t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (coverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runFirst c (grid0.coords t) _ _ _ _ _ _ _ _ _ _ ((hcondFirst t).mpr h0) (fun h => h1 ((hcondLast t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (coverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 28 = 27
    · -- a last point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcondLast t).mpr h1)], after0_3]
      rw [outsAt0_last V c t h0 h1]
      unfold outLast accLast; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runLast c (grid0.coords t) _ _ _ _ _ _ _ _ _ _ (fun h => h0 ((hcondFirst t).mp h)) ((hcondLast t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (coverLastAcc c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastOut c _ _ _ _ _ _ _ _ _ _ _ _ _ _ _ _ _)
    · -- a middle point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcondLast t).mp h))) (noFlush0_3 t (fun h => h1 ((hcondLast t).mp h)))]
      rw [outsAt0_middle V c t h0 h1]
      unfold accMiddle; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runMiddle c (grid0.coords t) _ _ _ _ _ _ _ _ _ _ (fun h => h0 ((hcondFirst t).mp h)) (fun h => h1 ((hcondLast t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (coverMiddle c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives that back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 56 := N_0; omega), PhiA0_eq]
  iintro ⟨⟨HS0, Hoth⟩, Hg⟩
  isplitl [HS0 Hoth]
  · isplitl [HS0]
    · iexists _; iexact HS0
    iexact Hoth
  iexact Hg

end Cert.Kernel.Fr

end
-- ==== Proof.K.R1.lean ====
/-
  The second region (the attention head): one grid point, sixteen windows, each a whole array held in one staging
  buffer, no scratch memory and no branch.  The body loads its fifteen inputs whole, computes one value from them,
  and stores it whole into the output's buffer.  Here: each window's block, what the body leaves in the output's
  buffer (the stored value as one function of the fifteen loaded blocks), the body's triple, the pipeline's proof
  data at the contents the region is entered with, and the body obligation.  Everything is generic in the number
  format.
-/
import proofs.«157159_j31490700214886_2_alg».proof.Proof.Gen.Kernel.Launch
import proofs.«157159_j31490700214886_2_alg».proof.Proof.Gen.Kernel.Skeleton
import proofs.«157159_j31490700214886_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t: the part of its array, as the region finds it, that the window shows there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's buffer holds its block

For any proof data whose array for the window is the entry contents and whose body leaves the block where it found
it, the window's current buffer holds the block at every point, whether or not it was fetched there: the window is
an input, is never idle and is not cut. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: three whole rectangles at offset zero -/

/-- The whole [512, 1024] rectangle (the activations and the output). -/
abbrev r1_act : Rect S512x1024 := Rect.unit (s := S512x1024) ![0, 0] S512x1024.size inb_S512x1024_S512x1024_0_0
/-- The whole [1024, 1024] rectangle (a weight matrix). -/
abbrev r1_wt : Rect S1024x1024 := Rect.unit (s := S1024x1024) ![0, 0] S1024x1024.size inb_S1024x1024_S1024x1024_0_0
/-- The whole [1024] rectangle (a bias). -/
abbrev r1_bias : Rect S1024 := Rect.unit (s := S1024) ![0] S1024.size inb_S1024_S1024_0

/-- The rectangles' offsets are zero on both axes, -/
theorem r1_hz2 : (![0, 0] : Fin 2 → Nat) = fun _ => 0 := funext fun a => by fin_cases a <;> rfl
/-- and on the one axis. -/
theorem r1_hz1 : (![0] : Fin 1 → Nat) = fun _ => 0 := funext fun a => by fin_cases a; rfl

/-! ## The stored value -/

/-- The one value the body stores, as a function of the fifteen loaded blocks (x0 the activations; then weight and
    bias by turns): the first part's two values from x0 and x3 … x7, the second part's three from those two and
    x8, x1, x2, x9 … x12, and the last stage from all five and x13, x14. -/
def headPay (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) (x11 : Vec F S1024x1024 .bf16) (x12 : Vec F S1024 .f32) (x13 : Vec F S1024x1024 .bf16) (x14 : Vec F S1024 .f32) : FVec F S512x1024 .f32 :=
  k1_pay1 (k1_pay2 x0) (k1_pay4 (k1_pay2 x0) (k1_pay3 x0 x3 x4 x5 x6 x7) x8 x1 x2)
    (k1_pay5 (k1_pay2 x0) (k1_pay3 x0 x3 x4 x5 x6 x7) x8 x1 x2)
    (k1_pay6 (k1_pay2 x0) (k1_pay3 x0 x3 x4 x5 x6 x7) x8 x1 x2 x9 x10 x11 x12) x13 x14

/-! ## What the body leaves in the output's buffer -/

/-- The output's buffer after the body: its one store, through the whole rectangle, of the stored value of the loads. -/
def out1_15 (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) (x11 : Vec F S1024x1024 .bf16) (x12 : Vec F S1024 .f32) (x13 : Vec F S1024x1024 .bf16) (x14 : Vec F S1024 .f32) : Vec F S512x1024 .f32 :=
  View.canon [⟨r1_act, headPay (View.ld x0 r1_act) (View.ld x1 r1_wt) (View.ld x2 r1_bias) (View.ld x3 r1_wt) (View.ld x4 r1_bias) (View.ld x5 r1_wt) (View.ld x6 r1_bias) (View.ld x7 r1_wt) (View.ld x8 r1_bias) (View.ld x9 r1_wt) (View.ld x10 r1_bias) (View.ld x11 r1_wt) (View.ld x12 r1_bias) (View.ld x13 r1_wt) (View.ld x14 r1_bias)⟩]

/-- A store through the whole rectangle at offset zero leaves its payload, and a load through one reads the contents:
    the buffer ends holding the stored value of the blocks themselves. -/
theorem out1_15_eq (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) (x11 : Vec F S1024x1024 .bf16) (x12 : Vec F S1024 .f32) (x13 : Vec F S1024x1024 .bf16) (x14 : Vec F S1024 .f32) :
    out1_15 x0 x1 x2 x3 x4 x5 x6 x7 x8 x9 x10 x11 x12 x13 x14 = headPay x0 x1 x2 x3 x4 x5 x6 x7 x8 x9 x10 x11 x12 x13 x14 := by
  unfold out1_15
  rw [View.canon_unit_zero r1_hz2]
  simp only [View.ld_unit_zero (S := S512x1024) r1_hz2, View.ld_unit_zero (S := S1024x1024) r1_hz2, View.ld_unit_zero (S := S1024) r1_hz1]

/-- The one store's rectangle is the whole buffer, so it covers it. -/
theorem cover1_15 (p0 : Vec F S512x1024 .f32) (y : S512x1024.Idx) :
    ∃ pc ∈ ([⟨r1_act, p0⟩] : List (View.Piece (Elt F) S512x1024 .f32)), y ∈ pc.1.set :=
  View.cover_of_tiled [⟨r1_act, p0⟩] S512x1024.size (by rfl) y

/-! ## The body's triple -/

set_option maxHeartbeats 4000000 in
/-- The body on whole memrefs, the fifteen inputs' holding x0 … x14 and the output's holding anything, runs to the
    continuation with the inputs' as they were and the output's holding the stored value: the printed function and its
    two parts equal their skeletons (fifteen whole loads, one dead load of the output, one whole store), and the triple
    follows that sequence step by step. -/
theorem sound_kernel1 (c : Dev nD) (E : Set ℕ) (i : grid1.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1024x1024 .bf16) (harg12 : arg12.IsWhole) (arg13 : Memref sig .tc .vmem S1024 .f32) (harg13 : arg13.IsWhole) (arg14 : Memref sig .tc .vmem S1024x1024 .bf16) (harg14 : arg14.IsWhole) (arg15 : Memref sig .tc .vmem S1024 .f32) (harg15 : arg15.IsWhole) (arg16 : Memref sig .tc .vmem S512x1024 .f32) (harg16 : arg16.IsWhole)
    (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) (x11 : Vec F S1024x1024 .bf16) (x12 : Vec F S1024 .f32) (x13 : Vec F S1024x1024 .bf16) (x14 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover1_15 _)

/-! ## The pipeline's proof data -/

/-- The proof data on core c: the arrays as the region finds them; after the body at point t each input's buffer
    holds its block and the output's the stored value of the input blocks; the invariant says that the rest of the
    core's memory and its generator register are untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-! Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation, at a generic point -/

/-- What the body is called with at point t: the invariant, what the core owes, and each window's current buffer
    at what the proof data says it holds before the body; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel1 c Set.univ (grid1.coords t) _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/-
  The whole program as four segments — the host operations before the first region, the first region, the host
  operations between the regions, the second region — and its run: every weakly fair execution terminates, and every
  unscoped buffer ends at the contents the fold through the four segments names (U4).  The contents at the segment
  boundaries: U0 the launch memory; U1 after the reshape; U2 with the first region's output array at what its pipeline
  leaves; U3 after the seven weight conversions; U4 with the second region's output array at what its pipeline leaves.
  No segment writes an argument array, so each ends as launched.
-/
import proofs.«157159_j31490700214886_2_alg».proof.Proof.K.R0Body
import proofs.«157159_j31490700214886_2_alg».proof.Proof.K.R1
import proofs.«157159_j31490700214886_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev U0 : Dev nD → Valuation τ sig (Elt F) := fun c b => (s₀ m ρ).mem ((c : Dev nD), b)
abbrev U1 : Dev nD → Valuation τ sig (Elt F) := fun c => StableHlo.after hostOps0 (U0 m ρ c)
abbrev Vr1 : (c : Dev nD) → (b : Ref sig .tc) → Buf (Elt F) ((c : Thread nD τ).loc b) := fun c b => U1 m ρ c b
def U2 (c : Dev nD) : Valuation τ sig (Elt F) :=
  Pipeline.withArrays spec0 c (U1 m ρ c) fun w => (dat0 (Vr1 m ρ) c).arrAt w cfg0.N
theorem U2_arr (c : Dev nD) (w : Fin cfg0.W) :
    U2 m ρ c (Proc.devRef .tc (Pipeline.arrRef spec0 w)) = (dat0 (Vr1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
abbrev Vr2 : (c : Dev nD) → (b : Ref sig .tc) → Buf (Elt F) ((c : Thread nD τ).loc b) := fun c b => U2 m ρ c b
theorem hF0 (c : Dev nD) (w : Fin cfg0.W) : (dat0 (Vr1 m ρ) c).arrAt w cfg0.N = Vr2 m ρ c (Pipeline.arrRef spec0 w) :=
  (U2_arr m ρ c w).symm
theorem hrest0 (c : Dev nD) : ∀ b, b ∉ Finset.univ.image (Pipeline.arrRef spec0) → Vr2 m ρ c b = Vr1 m ρ c b :=
  fun b hb => U2_of_ne m ρ c b fun w e => hb (Finset.mem_image.mpr ⟨w, Finset.mem_univ _, e⟩)

abbrev U3 : Dev nD → Valuation τ sig (Elt F) := fun c => StableHlo.after hostOps1 (U2 m ρ c)
abbrev Vr3 : (c : Dev nD) → (b : Ref sig .tc) → Buf (Elt F) ((c : Thread nD τ).loc b) := fun c b => U3 m ρ c b
def U4 (c : Dev nD) : Valuation τ sig (Elt F) :=
  Pipeline.withArrays spec1 c (U3 m ρ c) fun w => (dat1 (Vr3 m ρ) c).arrAt w cfg1.N
theorem U4_arr (c : Dev nD) (w : Fin cfg1.W) :
    U4 m ρ c (Proc.devRef .tc (Pipeline.arrRef spec1 w)) = (dat1 (Vr3 m ρ) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m ρ c (Proc.devRef .tc b) = U3 m ρ c (Proc.devRef .tc b) := by
  unfold U4; exact Pipeline.withArrays_of_ne spec1 c _ _ b hb
abbrev Vr4 : (c : Dev nD) → (b : Ref sig .tc) → Buf (Elt F) ((c : Thread nD τ).loc b) := fun c b => U4 m ρ c b
theorem hF1 (c : Dev nD) (w : Fin cfg1.W) : (dat1 (Vr3 m ρ) c).arrAt w cfg1.N = Vr4 m ρ c (Pipeline.arrRef spec1 w) :=
  (U4_arr m ρ c w).symm
theorem hrest1 (c : Dev nD) : ∀ b, b ∉ Finset.univ.image (Pipeline.arrRef spec1) → Vr4 m ρ c b = Vr3 m ρ c b :=
  fun b hb => U4_of_ne m ρ c b fun w e => hb (Finset.mem_image.mpr ⟨w, Finset.mem_univ _, e⟩)

/-! ## Every argument array ends as launched -/

theorem U4_main_arg0 (c : Dev nD) : U4 m ρ c (Proc.devRef .tc main_arg0) = m ((c : Thread nD τ).loc main_arg0) :=
  calc U4 m ρ c (Proc.devRef .tc main_arg0)
    _ = U3 m ρ c (Proc.devRef .tc main_arg0) := U4_of_ne m ρ c main_arg0 (by decide)
    _ = U2 m ρ c (Proc.devRef .tc main_arg0) := StableHlo.after_of_writes_sub hostOps1 _ hostOps1_writes (by decide : main_arg0 ∉ hostOps1_W)
    _ = U1 m ρ c (Proc.devRef .tc main_arg0) := U2_of_ne m ρ c main_arg0 (by decide)
    _ = U0 m ρ c (Proc.devRef .tc main_arg0) := StableHlo.after_of_writes_sub hostOps0 _ hostOps0_writes (by decide : main_arg0 ∉ hostOps0_W)
    _ = m ((c : Thread nD τ).loc main_arg0) := rfl

theorem U4_main_arg1 (c : Dev nD) : U4 m ρ c (Proc.devRef .tc main_arg1) = m ((c : Thread nD τ).loc main_arg1) :=
  calc U4 m ρ c (Proc.devRef .tc main_arg1)
    _ = U3 m ρ c (Proc.devRef .tc main_arg1) := U4_of_ne m ρ c main_arg1 (by decide)
    _ = U2 m ρ c (Proc.devRef .tc main_arg1) := StableHlo.after_of_writes_sub hostOps1 _ hostOps1_writes (by decide : main_arg1 ∉ hostOps1_W)
    _ = U1 m ρ c (Proc.devRef .tc main_arg1) := (U2_arr m ρ c 1).trans (((dat0 (Vr1 m ρ) c).arrAt_in 1 rfl _).trans (A_eq0 (Vr1 m ρ) c 1))
    _ = U0 m ρ c (Proc.devRef .tc main_arg1) := StableHlo.after_of_writes_sub hostOps0 _ hostOps0_writes (by decide : main_arg1 ∉ hostOps0_W)
    _ = m ((c : Thread nD τ).loc main_arg1) := rfl

theorem U4_main_arg2 (c : Dev nD) : U4 m ρ c (Proc.devRef .tc main_arg2) = m ((c : Thread nD τ).loc main_arg2) :=
  calc U4 m ρ c (Proc.devRef .tc main_arg2)
    _ = U3 m ρ c (Proc.devRef .tc main_arg2) := U4_of_ne m ρ c main_arg2 (by decide)
    _ = U2 m ρ c (Proc.devRef .tc main_arg2) := StableHlo.after_of_writes_sub hostOps1 _ hostOps1_writes (by decide : main_arg2 ∉ hostOps1_W)
    _ = U1 m ρ c (Proc.devRef .tc main_arg2) := (U2_arr m ρ c 2).trans (((dat0 (Vr1 m ρ) c).arrAt_in 2 rfl _).trans (A_eq0 (Vr1 m ρ) c 2))
    _ = U0 m ρ c (Proc.devRef .tc main_arg2) := StableHlo.after_of_writes_sub hostOps0 _ hostOps0_writes (by decide : main_arg2 ∉ hostOps0_W)
    _ = m ((c : Thread nD τ).loc main_arg2) := rfl

theorem U4_main_arg3 (c : Dev nD) : U4 m ρ c (Proc.devRef .tc main_arg3) = m ((c : Thread nD τ).loc main_arg3) :=
  calc U4 m ρ c (Proc.devRef .tc main_arg3)
    _ = U3 m ρ c (Proc.devRef .tc main_arg3) := U4_of_ne m ρ c main_arg3 (by decide)
    _ = U2 m ρ c (Proc.devRef .tc main_arg3) := StableHlo.after_of_writes_sub hostOps1 _ hostOps1_writes (by decide : main_arg3 ∉ hostOps1_W)
    _ = U1 m ρ c (Proc.devRef .tc main_arg3) := U2_of_ne m ρ c main_arg3 (by decide)
    _ = U0 m ρ c (Proc.devRef .tc main_arg3) := StableHlo.after_of_writes_sub hostOps0 _ hostOps0_writes (by decide : main_arg3 ∉ hostOps0_W)
    _ = m ((c : Thread nD τ).loc main_arg3) := rfl

theorem U4_main_arg4 (c : Dev nD) : U4 m ρ c (Proc.devRef .tc main_arg4) = m ((c : Thread nD τ).loc main_arg4) :=
  calc U4 m ρ c (Proc.devRef .tc main_arg4)
    _ = U3 m ρ c (Proc.devRef .tc main_arg4) := (U4_arr m ρ c 2).trans (((dat1 (Vr3 m ρ) c).arrAt_in 2 rfl _).trans (A_eq1 (Vr3 m ρ) c 2))
    _ = U2 m ρ c (Proc.devRef .tc main_arg4) := StableHlo.after_of_writes_sub hostOps1 _ hostOps1_writes (by decide : main_arg4 ∉ hostOps1_W)
    _ = U1 m ρ c (Proc.devRef .tc main_arg4) := U2_of_ne m ρ c main_arg4 (by decide)
    _ = U0 m ρ c (Proc.devRef .tc main_arg4) := StableHlo.after_of_writes_sub hostOps0 _ hostOps0_writes (by decide : main_arg4 ∉ hostOps0_W)
    _ = m ((c : Thread nD τ).loc main_arg4) := rfl

theorem U4_main_arg5 (c : Dev nD) : U4 m ρ c (Proc.devRef .tc main_arg5) = m ((c : Thread nD τ).loc main_arg5) :=
  calc U4 m ρ c (Proc.devRef .tc main_arg5)
    _ = U3 m ρ c (Proc.devRef .tc main_arg5) := U4_of_ne m ρ c main_arg5 (by decide)
    _ = U2 m ρ c (Proc.devRef .tc main_arg5) := StableHlo.after_of_writes_sub hostOps1 _ hostOps1_writes (by decide : main_arg5 ∉ hostOps1_W)
    _ = U1 m ρ c (Proc.devRef .tc main_arg5) := U2_of_ne m ρ c main_arg5 (by decide)
    _ = U0 m ρ c (Proc.devRef .tc main_arg5) := StableHlo.after_of_writes_sub hostOps0 _ hostOps0_writes (by decide : main_arg5 ∉ hostOps0_W)
    _ = m ((c : Thread nD τ).loc main_arg5) := rfl

theorem U4_main_arg6 (c : Dev nD) : U4 m ρ c (Proc.devRef .tc main_arg6) = m ((c : Thread nD τ).loc main_arg6) :=
  calc U4 m ρ c (Proc.devRef .tc main_arg6)
    _ = U3 m ρ c (Proc.devRef .tc main_arg6) := (U4_arr m ρ c 4).trans (((dat1 (Vr3 m ρ) c).arrAt_in 4 rfl _).trans (A_eq1 (Vr3 m ρ) c 4))
    _ = U2 m ρ c (Proc.devRef .tc main_arg6) := StableHlo.after_of_writes_sub hostOps1 _ hostOps1_writes (by decide : main_arg6 ∉ hostOps1_W)
    _ = U1 m ρ c (Proc.devRef .tc main_arg6) := U2_of_ne m ρ c main_arg6 (by decide)
    _ = U0 m ρ c (Proc.devRef .tc main_arg6) := StableHlo.after_of_writes_sub hostOps0 _ hostOps0_writes (by decide : main_arg6 ∉ hostOps0_W)
    _ = m ((c : Thread nD τ).loc main_arg6) := rfl

theorem U4_main_arg7 (c : Dev nD) : U4 m ρ c (Proc.devRef .tc main_arg7) = m ((c : Thread nD τ).loc main_arg7) :=
  calc U4 m ρ c (Proc.devRef .tc main_arg7)
    _ = U3 m ρ c (Proc.devRef .tc main_arg7) := U4_of_ne m ρ c main_arg7 (by decide)
    _ = U2 m ρ c (Proc.devRef .tc main_arg7) := StableHlo.after_of_writes_sub hostOps1 _ hostOps1_writes (by decide : main_arg7 ∉ hostOps1_W)
    _ = U1 m ρ c (Proc.devRef .tc main_arg7) := U2_of_ne m ρ c main_arg7 (by decide)
    _ = U0 m ρ c (Proc.devRef .tc main_arg7) := StableHlo.after_of_writes_sub hostOps0 _ hostOps0_writes (by decide : main_arg7 ∉ hostOps0_W)
    _ = m ((c : Thread nD τ).loc main_arg7) := rfl

theorem U4_main_arg8 (c : Dev nD) : U4 m ρ c (Proc.devRef .tc main_arg8) = m ((c : Thread nD τ).loc main_arg8) :=
  calc U4 m ρ c (Proc.devRef .tc main_arg8)
    _ = U3 m ρ c (Proc.devRef .tc main_arg8) := (U4_arr m ρ c 6).trans (((dat1 (Vr3 m ρ) c).arrAt_in 6 rfl _).trans (A_eq1 (Vr3 m ρ) c 6))
    _ = U2 m ρ c (Proc.devRef .tc main_arg8) := StableHlo.after_of_writes_sub hostOps1 _ hostOps1_writes (by decide : main_arg8 ∉ hostOps1_W)
    _ = U1 m ρ c (Proc.devRef .tc main_arg8) := U2_of_ne m ρ c main_arg8 (by decide)
    _ = U0 m ρ c (Proc.devRef .tc main_arg8) := StableHlo.after_of_writes_sub hostOps0 _ hostOps0_writes (by decide : main_arg8 ∉ hostOps0_W)
    _ = m ((c : Thread nD τ).loc main_arg8) := rfl

theorem U4_main_arg9 (c : Dev nD) : U4 m ρ c (Proc.devRef .tc main_arg9) = m ((c : Thread nD τ).loc main_arg9) :=
  calc U4 m ρ c (Proc.devRef .tc main_arg9)
    _ = U3 m ρ c (Proc.devRef .tc main_arg9) := U4_of_ne m ρ c main_arg9 (by decide)
    _ = U2 m ρ c (Proc.devRef .tc main_arg9) := StableHlo.after_of_writes_sub hostOps1 _ hostOps1_writes (by decide : main_arg9 ∉ hostOps1_W)
    _ = U1 m ρ c (Proc.devRef .tc main_arg9) := U2_of_ne m ρ c main_arg9 (by decide)
    _ = U0 m ρ c (Proc.devRef .tc main_arg9) := StableHlo.after_of_writes_sub hostOps0 _ hostOps0_writes (by decide : main_arg9 ∉ hostOps0_W)
    _ = m ((c : Thread nD τ).loc main_arg9) := rfl

theorem U4_main_arg10 (c : Dev nD) : U4 m ρ c (Proc.devRef .tc main_arg10) = m ((c : Thread nD τ).loc main_arg10) :=
  calc U4 m ρ c (Proc.devRef .tc main_arg10)
    _ = U3 m ρ c (Proc.devRef .tc main_arg10) := (U4_arr m ρ c 8).trans (((dat1 (Vr3 m ρ) c).arrAt_in 8 rfl _).trans (A_eq1 (Vr3 m ρ) c 8))
    _ = U2 m ρ c (Proc.devRef .tc main_arg10) := StableHlo.after_of_writes_sub hostOps1 _ hostOps1_writes (by decide : main_arg10 ∉ hostOps1_W)
    _ = U1 m ρ c (Proc.devRef .tc main_arg10) := U2_of_ne m ρ c main_arg10 (by decide)
    _ = U0 m ρ c (Proc.devRef .tc main_arg10) := StableHlo.after_of_writes_sub hostOps0 _ hostOps0_writes (by decide : main_arg10 ∉ hostOps0_W)
    _ = m ((c : Thread nD τ).loc main_arg10) := rfl

theorem U4_main_arg11 (c : Dev nD) : U4 m ρ c (Proc.devRef .tc main_arg11) = m ((c : Thread nD τ).loc main_arg11) :=
  calc U4 m ρ c (Proc.devRef .tc main_arg11)
    _ = U3 m ρ c (Proc.devRef .tc main_arg11) := U4_of_ne m ρ c main_arg11 (by decide)
    _ = U2 m ρ c (Proc.devRef .tc main_arg11) := StableHlo.after_of_writes_sub hostOps1 _ hostOps1_writes (by decide : main_arg11 ∉ hostOps1_W)
    _ = U1 m ρ c (Proc.devRef .tc main_arg11) := U2_of_ne m ρ c main_arg11 (by decide)
    _ = U0 m ρ c (Proc.devRef .tc main_arg11) := StableHlo.after_of_writes_sub hostOps0 _ hostOps0_writes (by decide : main_arg11 ∉ hostOps0_W)
    _ = m ((c : Thread nD τ).loc main_arg11) := rfl

theorem U4_main_arg12 (c : Dev nD) : U4 m ρ c (Proc.devRef .tc main_arg12) = m ((c : Thread nD τ).loc main_arg12) :=
  calc U4 m ρ c (Proc.devRef .tc main_arg12)
    _ = U3 m ρ c (Proc.devRef .tc main_arg12) := (U4_arr m ρ c 10).trans (((dat1 (Vr3 m ρ) c).arrAt_in 10 rfl _).trans (A_eq1 (Vr3 m ρ) c 10))
    _ = U2 m ρ c (Proc.devRef .tc main_arg12) := StableHlo.after_of_writes_sub hostOps1 _ hostOps1_writes (by decide : main_arg12 ∉ hostOps1_W)
    _ = U1 m ρ c (Proc.devRef .tc main_arg12) := U2_of_ne m ρ c main_arg12 (by decide)
    _ = U0 m ρ c (Proc.devRef .tc main_arg12) := StableHlo.after_of_writes_sub hostOps0 _ hostOps0_writes (by decide : main_arg12 ∉ hostOps0_W)
    _ = m ((c : Thread nD τ).loc main_arg12) := rfl

theorem U4_main_arg13 (c : Dev nD) : U4 m ρ c (Proc.devRef .tc main_arg13) = m ((c : Thread nD τ).loc main_arg13) :=
  calc U4 m ρ c (Proc.devRef .tc main_arg13)
    _ = U3 m ρ c (Proc.devRef .tc main_arg13) := U4_of_ne m ρ c main_arg13 (by decide)
    _ = U2 m ρ c (Proc.devRef .tc main_arg13) := StableHlo.after_of_writes_sub hostOps1 _ hostOps1_writes (by decide : main_arg13 ∉ hostOps1_W)
    _ = U1 m ρ c (Proc.devRef .tc main_arg13) := U2_of_ne m ρ c main_arg13 (by decide)
    _ = U0 m ρ c (Proc.devRef .tc main_arg13) := StableHlo.after_of_writes_sub hostOps0 _ hostOps0_writes (by decide : main_arg13 ∉ hostOps0_W)
    _ = m ((c : Thread nD τ).loc main_arg13) := rfl

theorem U4_main_arg14 (c : Dev nD) : U4 m ρ c (Proc.devRef .tc main_arg14) = m ((c : Thread nD τ).loc main_arg14) :=
  calc U4 m ρ c (Proc.devRef .tc main_arg14)
    _ = U3 m ρ c (Proc.devRef .tc main_arg14) := (U4_arr m ρ c 12).trans (((dat1 (Vr3 m ρ) c).arrAt_in 12 rfl _).trans (A_eq1 (Vr3 m ρ) c 12))
    _ = U2 m ρ c (Proc.devRef .tc main_arg14) := StableHlo.after_of_writes_sub hostOps1 _ hostOps1_writes (by decide : main_arg14 ∉ hostOps1_W)
    _ = U1 m ρ c (Proc.devRef .tc main_arg14) := U2_of_ne m ρ c main_arg14 (by decide)
    _ = U0 m ρ c (Proc.devRef .tc main_arg14) := StableHlo.after_of_writes_sub hostOps0 _ hostOps0_writes (by decide : main_arg14 ∉ hostOps0_W)
    _ = m ((c : Thread nD τ).loc main_arg14) := rfl

theorem U4_main_arg15 (c : Dev nD) : U4 m ρ c (Proc.devRef .tc main_arg15) = m ((c : Thread nD τ).loc main_arg15) :=
  calc U4 m ρ c (Proc.devRef .tc main_arg15)
    _ = U3 m ρ c (Proc.devRef .tc main_arg15) := U4_of_ne m ρ c main_arg15 (by decide)
    _ = U2 m ρ c (Proc.devRef .tc main_arg15) := StableHlo.after_of_writes_sub hostOps1 _ hostOps1_writes (by decide : main_arg15 ∉ hostOps1_W)
    _ = U1 m ρ c (Proc.devRef .tc main_arg15) := U2_of_ne m ρ c main_arg15 (by decide)
    _ = U0 m ρ c (Proc.devRef .tc main_arg15) := StableHlo.after_of_writes_sub hostOps0 _ hostOps0_writes (by decide : main_arg15 ∉ hostOps0_W)
    _ = m ((c : Thread nD τ).loc main_arg15) := rfl

theorem U4_main_arg16 (c : Dev nD) : U4 m ρ c (Proc.devRef .tc main_arg16) = m ((c : Thread nD τ).loc main_arg16) :=
  calc U4 m ρ c (Proc.devRef .tc main_arg16)
    _ = U3 m ρ c (Proc.devRef .tc main_arg16) := (U4_arr m ρ c 14).trans (((dat1 (Vr3 m ρ) c).arrAt_in 14 rfl _).trans (A_eq1 (Vr3 m ρ) c 14))
    _ = U2 m ρ c (Proc.devRef .tc main_arg16) := StableHlo.after_of_writes_sub hostOps1 _ hostOps1_writes (by decide : main_arg16 ∉ hostOps1_W)
    _ = U1 m ρ c (Proc.devRef .tc main_arg16) := U2_of_ne m ρ c main_arg16 (by decide)
    _ = U0 m ρ c (Proc.devRef .tc main_arg16) := StableHlo.after_of_writes_sub hostOps0 _ hostOps0_writes (by decide : main_arg16 ∉ hostOps0_W)
    _ = m ((c : Thread nD τ).loc main_arg16) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U4 m ρ c) ∗ ∃ r, prngReg c r)

/-! ## The regions as segments -/

set_option backward.isDefEq.respectTransparency.types false in
/-- Region 0 as a segment of the thread state: entered with every unscoped buffer at the contents before it, left with
    them at the contents after it (its arrays at what the pipeline leaves, the rest untouched); the generator register goes
    into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (Vr1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the thread state: entered with every unscoped buffer at the contents before it, left with
    them at the contents after it (its arrays at what the pipeline leaves, the rest untouched); the generator register goes
    into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m ρ) c).loose
  hwaits := Pipeline.hwaits_of_owed_zero _ _ _ _ L lv 1 fun _ _ => rfl
  pre c := iprop(StableHlo.held (c : Thread nD τ) (Pipeline.ucRefs τ sig) (U3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (U0 m ρ)),
    .region (reg0 m ρ),
    .host (hseg hostOps1 hostOps1_sub hostOps1_fresh (U2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    unscoped buffer of every core ends at U4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m ρ c b)
    (hfin := fun c s' => by
      iintro ⟨⟨Hh, -⟩, HSI⟩
      unfold StableHlo.held
      imodintro
      iapply (pointsTo_read_all (Pipeline.ucRefs τ sig) (fun b => (((c : Thread nD τ)).1, b)) (U4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (U4_main_arg0 m ρ c),
    (h c _ (mem_uc main_arg1 (by decide))).trans (U4_main_arg1 m ρ c),
    (h c _ (mem_uc main_arg2 (by decide))).trans (U4_main_arg2 m ρ c),
    (h c _ (mem_uc main_arg3 (by decide))).trans (U4_main_arg3 m ρ c),
    (h c _ (mem_uc main_arg4 (by decide))).trans (U4_main_arg4 m ρ c),
    (h c _ (mem_uc main_arg5 (by decide))).trans (U4_main_arg5 m ρ c),
    (h c _ (mem_uc main_arg6 (by decide))).trans (U4_main_arg6 m ρ c),
    (h c _ (mem_uc main_arg7 (by decide))).trans (U4_main_arg7 m ρ c),
    (h c _ (mem_uc main_arg8 (by decide))).trans (U4_main_arg8 m ρ c),
    (h c _ (mem_uc main_arg9 (by decide))).trans (U4_main_arg9 m ρ c),
    (h c _ (mem_uc main_arg10 (by decide))).trans (U4_main_arg10 m ρ c),
    (h c _ (mem_uc main_arg11 (by decide))).trans (U4_main_arg11 m ρ c),
    (h c _ (mem_uc main_arg12 (by decide))).trans (U4_main_arg12 m ρ c),
    (h c _ (mem_uc main_arg13 (by decide))).trans (U4_main_arg13 m ρ c),
    (h c _ (mem_uc main_arg14 (by decide))).trans (U4_main_arg14 m ρ c),
    (h c _ (mem_uc main_arg15 (by decide))).trans (U4_main_arg15 m ρ c),
    (h c _ (mem_uc main_arg16 (by decide))).trans (U4_main_arg16 m ρ c)⟩) (run_all m ρ)

end Cert.Kernel.Fr

end
-- ==== Proof.KI.R0Base.lean ====
/-
  The first region (the blocked matrix product): what its body's runs are stated over.
  The grid is 2 x 28, flattened to 56 points; point t has column block t / 28 and reduction block t % 28.
  The body branches on the reduction block: at block 0 it clears the accumulator first, at block 27 it
  also adds the bias and stores the output block.  So there are three kinds of point: first (t % 28 = 0),
  middle, last (t % 28 = 27).  The output window is idle (neither stored nor written back) except at last points.
-/
import proofs.«157159_j31490700214886_2_alg».proof.Proof.Gen.KernelIdeal.Launch
import proofs.«157159_j31490700214886_2_alg».proof.Proof.Gen.KernelIdeal.Skeleton
import proofs.«157159_j31490700214886_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "this is the first reduction block". -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 28 = 0 :=
  (by decide +kernel : ∀ t : Fin grid0.N, condFirst (grid0.coords t) ↔ t.val % 28 = 0)

/-- "this is the last reduction block". -/
abbrev condLast (i : grid0.Coords) : Prop := k0_cond2 i = 1#1
theorem hcondLast : ∀ t : Fin cfg0.N, condLast (grid0.coords t) ↔ t.val % 28 = 27 :=
  (by decide +kernel : ∀ t : Fin grid0.N, condLast (grid0.coords t) ↔ t.val % 28 = 27)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from last points the output window is idle and not written back. -/
theorem idleAt0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
/-- At last points it is live. -/
theorem liveAt0_3 : ∀ t : Fin cfg0.N, condLast (grid0.coords t) → cfg0.idle 3 (grid0.coords t) = false := by decide +kernel

/-! ## The staging memrefs the body is called with, and the scratch accumulator -/

abbrev VO0_3 : View sig .tc .vmem S512x512 .f32 := (Memref.whole cc0_stg3_0 : Memref sig .tc .vmem S512x512 .f32).view
abbrev ms0_0 (t : Fin cfg0.N) : Memref sig .tc .vmem S512x1792 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1792 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0 : Memref sig .tc .vmem S512x512 .f32 := Memref.whole cc0_scratch0
abbrev VS0 : View sig .tc .vmem S512x512 .f32 := scM0.view

/-- The second region's staging buffers, which this region does not touch: each at some contents. -/
def other0 (c : Dev nD) : sProp 𝕄 :=
  iprop((∃ f, (c : Thread nD τ).loc cc1_stg0_0 ↦{fullShare} f) ∗ (∃ f, (c : Thread nD τ).loc cc1_stg1_0 ↦{fullShare} f) ∗ (∃ f, (c : Thread nD τ).loc cc1_stg2_0 ↦{fullShare} f) ∗ (∃ f, (c : Thread nD τ).loc cc1_stg3_0 ↦{fullShare} f) ∗ (∃ f, (c : Thread nD τ).loc cc1_stg4_0 ↦{fullShare} f) ∗ (∃ f, (c : Thread nD τ).loc cc1_stg5_0 ↦{fullShare} f) ∗ (∃ f, (c : Thread nD τ).loc cc1_stg6_0 ↦{fullShare} f) ∗ (∃ f, (c : Thread nD τ).loc cc1_stg7_0 ↦{fullShare} f) ∗ (∃ f, (c : Thread nD τ).loc cc1_stg8_0 ↦{fullShare} f) ∗ (∃ f, (c : Thread nD τ).loc cc1_stg9_0 ↦{fullShare} f) ∗ (∃ f, (c : Thread nD τ).loc cc1_stg10_0 ↦{fullShare} f) ∗ (∃ f, (c : Thread nD τ).loc cc1_stg11_0 ↦{fullShare} f) ∗ (∃ f, (c : Thread nD τ).loc cc1_stg12_0 ↦{fullShare} f) ∗ (∃ f, (c : Thread nD τ).loc cc1_stg13_0 ↦{fullShare} f) ∗ (∃ f, (c : Thread nD τ).loc cc1_stg14_0 ↦{fullShare} f) ∗ (∃ f, (c : Thread nD τ).loc cc1_stg15_0 ↦{fullShare} f))

/-- What the launch hands a region of this kernel beside the windows: the accumulator at some contents, the
    untouched scoped buffers, and the generator register at some state. -/
theorem PhiA0_eq (c : Dev nD) :
    (Pipeline.ΦA spec0 c : sProp 𝕄)
      = iprop(iprop((∃ d, owns (c : Thread nD τ) scM0 fullShare d) ∗ other0 c) ∗ (∃ r, prngReg c r)) := by
  unfold Pipeline.ΦA other0; rw [scopedRest0_eq]; simp only [scM0, owns_whole]; try rfl

end Cert.KernelIdeal.Fr

end
-- ==== Proof.KI.R0RunFirst.lean ====
/-
  The body at a FIRST point (reduction block 0, not the last block): the accumulator is cleared, the first partial product added; nothing is stored into the output block, which comes back untouched.
-/
import proofs.«157159_j31490700214886_2_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores, as lists of pieces (last first) for the output block and for the accumulator, with the proof
    that from whole buffers at the stated contents the body runs to a continuation that gets every buffer back:
    the inputs as they were, the accumulator (and the output block, where stored) with those pieces written. -/
noncomputable def runFirst (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : condFirst i) (hc1 : ¬condLast i)
    (x0 : Vec F S512x1792 .f32) (x1 : Vec F S512x1792 .f32) (x2 : Vec F S512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0RunMiddle.lean ====
/-
  The body at a MIDDLE point (neither the first nor the last reduction block): one partial product is added to the accumulator the point before left; nothing is stored into the output block, which comes back untouched.
-/
import proofs.«157159_j31490700214886_2_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores, as lists of pieces (last first) for the output block and for the accumulator, with the proof
    that from whole buffers at the stated contents the body runs to a continuation that gets every buffer back:
    the inputs as they were, the accumulator (and the output block, where stored) with those pieces written. -/
noncomputable def runMiddle (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : ¬condLast i)
    (x0 : Vec F S512x1792 .f32) (x1 : Vec F S512x1792 .f32) (x2 : Vec F S512 .f32) (xs0 : Vec F S512x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0RunLast.lean ====
/-
  The body at a LAST point (reduction block 27): the last partial product is added to the accumulator, and the accumulator plus the bias row is stored into the output block.
-/
import proofs.«157159_j31490700214886_2_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores, as lists of pieces (last first) for the output block and for the accumulator, with the proof
    that from whole buffers at the stated contents the body runs to a continuation that gets every buffer back:
    the inputs as they were, the accumulator (and the output block, where stored) with those pieces written. -/
noncomputable def runLast (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) :
    Σ' (L3 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.R0Data.lean ====
/-
  The first region's proof data and body obligation, at the contents V its arrays are entered with.
  After the body at point t the accumulator holds (defined by recursion on t): at a first point the first partial
  product over zeros; at later points the point before's accumulator plus this point's partial product.  The output
  block's staging buffer is stored only at last points (accumulator + bias row); elsewhere it is idle.
  The region's invariant before point t: before the first point whatever the launch hands over; afterwards the
  accumulator at what the point before left, the untouched scoped buffers, the generator register.
-/
import proofs.«157159_j31490700214886_2_alg».proof.Proof.KI.R0RunFirst
import proofs.«157159_j31490700214886_2_alg».proof.Proof.KI.R0RunMiddle
import proofs.«157159_j31490700214886_2_alg».proof.Proof.KI.R0RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each kind of point leaves -/

/-- At a first point: the accumulator's pieces read back. -/
def accFirst (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : condFirst i) (hc1 : ¬condLast i)
    (x0 : Vec F S512x1792 .f32) (x1 : Vec F S512x1792 .f32) (x2 : Vec F S512 .f32) : Vec F S512x512 .f32 :=
  VS0.read (Elt F) (VS0.writes (Elt F) VS0.junk (runFirst c i arg2 harg2 arg3 harg3 arg4 harg4 arg5 harg5 arg6 harg6 hc0 hc1 x0 x1 x2).2.1)
theorem coverFirst (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : condFirst i) (hc1 : ¬condLast i)
    (x0 : Vec F S512x1792 .f32) (x1 : Vec F S512x1792 .f32) (x2 : Vec F S512 .f32) (y : S512x512.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S512x512.size (by sl_kernel_rfl) y

/-- At a middle point. -/
def accMiddle (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : ¬condLast i)
    (x0 : Vec F S512x1792 .f32) (x1 : Vec F S512x1792 .f32) (x2 : Vec F S512 .f32) (xs0 : Vec F S512x512 .f32) : Vec F S512x512 .f32 :=
  VS0.read (Elt F) (VS0.writes (Elt F) VS0.junk (runMiddle c i arg2 harg2 arg3 harg3 arg4 harg4 arg5 harg5 arg6 harg6 hc0 hc1 x0 x1 x2 xs0).2.1)
theorem coverMiddle (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : ¬condLast i)
    (x0 : Vec F S512x1792 .f32) (x1 : Vec F S512x1792 .f32) (x2 : Vec F S512 .f32) (xs0 : Vec F S512x512 .f32) (y : S512x512.Idx) :
    ∃ pc ∈ (runMiddle c i arg2 harg2 arg3 harg3 arg4 harg4 arg5 harg5 arg6 harg6 hc0 hc1 x0 x1 x2 xs0).2.1, y ∈ pc.1.set :=
  View.cover_of_tiledL (runMiddle c i arg2 harg2 arg3 harg3 arg4 harg4 arg5 harg5 arg6 harg6 hc0 hc1 x0 x1 x2 xs0).2.1 S512x512.size (by sl_kernel_rfl) y

/-- At a last point: the accumulator and the output block. -/
def accLast (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) : Vec F S512x512 .f32 :=
  VS0.read (Elt F) (VS0.writes (Elt F) VS0.junk (runLast c i arg2 harg2 arg3 harg3 arg4 harg4 arg5 harg5 arg6 harg6 hc0 hc1 x0 x1 x2 xs0).2.1)
theorem coverLastAcc (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) (y : S512x512.Idx) :
    ∃ pc ∈ (runLast c i arg2 harg2 arg3 harg3 arg4 harg4 arg5 harg5 arg6 harg6 hc0 hc1 x0 x1 x2 xs0).2.1, y ∈ pc.1.set :=
  View.cover_of_tiledL (runLast c i arg2 harg2 arg3 harg3 arg4 harg4 arg5 harg5 arg6 harg6 hc0 hc1 x0 x1 x2 xs0).2.1 S512x512.size (by sl_kernel_rfl) y
def outLast (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) : Vec F S512x512 .f32 :=
  VO0_3.read (Elt F) (VO0_3.writes (Elt F) VO0_3.junk (runLast c i arg2 harg2 arg3 harg3 arg4 harg4 arg5 harg5 arg6 harg6 hc0 hc1 x0 x1 x2 xs0).1)
theorem coverLastOut (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) (y : S512x512.Idx) :
    ∃ pc ∈ (runLast c i arg2 harg2 arg3 harg3 arg4 harg4 arg5 harg5 arg6 harg6 hc0 hc1 x0 x1 x2 xs0).1, y ∈ pc.1.set :=
  View.cover_of_tiledL (runLast c i arg2 harg2 arg3 harg3 arg4 harg4 arg5 harg5 arg6 harg6 hc0 hc1 x0 x1 x2 xs0).1 S512x512.size (by sl_kernel_rfl) y

/-! ## Point by point -/

/-- What the output block's staging buffer (first component; a placeholder where the window is idle) and the
    accumulator (second component) hold after the body at position n. -/
def outsAt0 (c : Dev nD) : (n : ℕ) → n < cfg0.N → Vec F S512x512 .f32 × Vec F S512x512 .f32
  | 0, hn => (VO0_3.junk, accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcondFirst ⟨0, hn⟩).mpr (Nat.zero_mod _)) (fun h => (fun h => by (try dsimp only at h); omega) ((hcondLast ⟨0, hn⟩).mp h)) (iblk0 V c 0 ⟨0, hn⟩) (iblk0 V c 1 ⟨0, hn⟩) (iblk0 V c 2 ⟨0, hn⟩))
  | n + 1, hn =>
    if h0 : (n + 1) % 28 = 0 then
      if h1 : (n + 1) % 28 = 27 then
        False.elim (by omega)
      else
        (VO0_3.junk, accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcondFirst ⟨n + 1, hn⟩).mpr h0) (fun h => h1 ((hcondLast ⟨n + 1, hn⟩).mp h)) (iblk0 V c 0 ⟨n + 1, hn⟩) (iblk0 V c 1 ⟨n + 1, hn⟩) (iblk0 V c 2 ⟨n + 1, hn⟩))
    else
      if h1 : (n + 1) % 28 = 27 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (VO0_3.junk, accMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_first (c : Dev nD) (t : Fin cfg0.N) (h0 : t.val % 28 = 0) (h1 : ¬t.val % 28 = 27) :
    outsAt0 V c t.val t.isLt = (VO0_3.junk, accFirst c (grid0.coords t) (ms0_0 t) (hs0_0 t) (ms0_1 t) (hs0_1 t) (ms0_2 t) (hs0_2 t) (ms0_3 t) (hs0_3 t) scM0 (Memref.isWhole_whole _) ((hcondFirst t).mpr h0) (fun h => h1 ((hcondLast t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_middle (c : Dev nD) (t : Fin cfg0.N) (h0 : ¬t.val % 28 = 0) (h1 : ¬t.val % 28 = 27) :
    outsAt0 V c t.val t.isLt = (VO0_3.junk, accMiddle c (grid0.coords t) (ms0_0 t) (hs0_0 t) (ms0_1 t) (hs0_1 t) (ms0_2 t) (hs0_2 t) (ms0_3 t) (hs0_3 t) scM0 (Memref.isWhole_whole _) (fun h => h0 ((hcondFirst t).mp h)) (fun h => h1 ((hcondLast t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 28 = 0) (h1 : t.val % 28 = 27) :
    outsAt0 V c t.val t.isLt = (outLast c (grid0.coords t) (ms0_0 t) (hs0_0 t) (ms0_1 t) (hs0_1 t) (ms0_2 t) (hs0_2 t) (ms0_3 t) (hs0_3 t) scM0 (Memref.isWhole_whole _) (fun h => h0 ((hcondFirst t).mp h)) ((hcondLast t).mpr h1) (iblk0 V c 0 t) (iblk0 V c 1 t) (iblk0 V c 2 t) (outsAt0 V c (t.val - 1) (Nat.lt_of_le_of_lt (Nat.sub_le _ _) t.isLt)).2,
      accLast c (grid0.coords t) (ms0_0 t) (hs0_0 t) (ms0_1 t) (hs0_1 t) (ms0_2 t) (hs0_2 t) (ms0_3 t) (hs0_3 t) scM0 (Memref.isWhole_whole _) (fun h => h0 ((hcondFirst t).mp h)) ((hcondLast t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ other0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ other0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ other0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Fr

end
-- ==== Proof.KI.R0Body.lean ====
/-
  The first region's body obligation: at every point the body, called on the windows' current staging buffers and
  handed the invariant, runs and gives back the buffers at what the proof data names, and the invariant of the next point.
  By cases on the kind of point; each case is that kind's run.
-/
import proofs.«157159_j31490700214886_2_alg».proof.Proof.KI.R0Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 56 := lt_of_lt_of_eq t.isLt (show cfg0.N = 56 from N_0)
  by_cases h0 : t.val % 28 = 0
  · by_cases h1 : t.val % 28 = 27
    · exfalso; omega
    · -- a first point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcondLast t).mp h))) (noFlush0_3 t (fun h => h1 ((hcondLast t).mp h)))]
      rw [outsAt0_first V c t h0 h1]
      unfold accFirst; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((runFirst c (grid0.coords t) _ _ _ _ _ _ _ _ _ _ ((hcondFirst t).mpr h0) (fun h => h1 ((hcondLast t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (coverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runFirst c (grid0.coords t) _ _ _ _ _ _ _ _ _ _ ((hcondFirst t).mpr h0) (fun h => h1 ((hcondLast t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (coverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 28 = 27
    · -- a last point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcondLast t).mpr h1)], after0_3]
      rw [outsAt0_last V c t h0 h1]
      unfold outLast accLast; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runLast c (grid0.coords t) _ _ _ _ _ _ _ _ _ _ (fun h => h0 ((hcondFirst t).mp h)) ((hcondLast t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (coverLastAcc c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastOut c _ _ _ _ _ _ _ _ _ _ _ _ _ _ _ _ _)
    · -- a middle point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcondLast t).mp h))) (noFlush0_3 t (fun h => h1 ((hcondLast t).mp h)))]
      rw [outsAt0_middle V c t h0 h1]
      unfold accMiddle; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runMiddle c (grid0.coords t) _ _ _ _ _ _ _ _ _ _ (fun h => h0 ((hcondFirst t).mp h)) (fun h => h1 ((hcondLast t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (coverMiddle c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives that back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 56 := N_0; omega), PhiA0_eq]
  iintro ⟨⟨HS0, Hoth⟩, Hg⟩
  isplitl [HS0 Hoth]
  · isplitl [HS0]
    · iexists _; iexact HS0
    iexact Hoth
  iexact Hg

end Cert.KernelIdeal.Fr

end
-- ==== Proof.KI.R1.lean ====
/-
  The second region (the attention head): one grid point, sixteen windows, each a whole array held in one staging
  buffer, no scratch memory and no branch.  The body loads its fifteen inputs whole, computes one value from them,
  and stores it whole into the output's buffer.  Here: each window's block, what the body leaves in the output's
  buffer (the stored value as one function of the fifteen loaded blocks), the body's triple, the pipeline's proof
  data at the contents the region is entered with, and the body obligation.  Everything is generic in the number
  format.
-/
import proofs.«157159_j31490700214886_2_alg».proof.Proof.Gen.KernelIdeal.Launch
import proofs.«157159_j31490700214886_2_alg».proof.Proof.Gen.KernelIdeal.Skeleton
import proofs.«157159_j31490700214886_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t: the part of its array, as the region finds it, that the window shows there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's buffer holds its block

For any proof data whose array for the window is the entry contents and whose body leaves the block where it found
it, the window's current buffer holds the block at every point, whether or not it was fetched there: the window is
an input, is never idle and is not cut. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: three whole rectangles at offset zero -/

/-- The whole [512, 1024] rectangle (the activations and the output). -/
abbrev r1_act : Rect S512x1024 := Rect.unit (s := S512x1024) ![0, 0] S512x1024.size inb_S512x1024_S512x1024_0_0
/-- The whole [1024, 1024] rectangle (a weight matrix). -/
abbrev r1_wt : Rect S1024x1024 := Rect.unit (s := S1024x1024) ![0, 0] S1024x1024.size inb_S1024x1024_S1024x1024_0_0
/-- The whole [1024] rectangle (a bias). -/
abbrev r1_bias : Rect S1024 := Rect.unit (s := S1024) ![0] S1024.size inb_S1024_S1024_0

/-- The rectangles' offsets are zero on both axes, -/
theorem r1_hz2 : (![0, 0] : Fin 2 → Nat) = fun _ => 0 := funext fun a => by fin_cases a <;> rfl
/-- and on the one axis. -/
theorem r1_hz1 : (![0] : Fin 1 → Nat) = fun _ => 0 := funext fun a => by fin_cases a; rfl

/-! ## The stored value -/

/-- The one value the body stores, as a function of the fifteen loaded blocks (x0 the activations; then weight and
    bias by turns): the first part's two values from x0 and x3 … x7, the second part's three from those two and
    x8, x1, x2, x9 … x12, and the last stage from all five and x13, x14. -/
def headPay (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) (x11 : Vec F S1024x1024 .bf16) (x12 : Vec F S1024 .f32) (x13 : Vec F S1024x1024 .bf16) (x14 : Vec F S1024 .f32) : FVec F S512x1024 .f32 :=
  k1_pay1 (k1_pay2 x0) (k1_pay4 (k1_pay2 x0) (k1_pay3 x0 x3 x4 x5 x6 x7) x8 x1 x2)
    (k1_pay5 (k1_pay2 x0) (k1_pay3 x0 x3 x4 x5 x6 x7) x8 x1 x2)
    (k1_pay6 (k1_pay2 x0) (k1_pay3 x0 x3 x4 x5 x6 x7) x8 x1 x2 x9 x10 x11 x12) x13 x14

/-! ## What the body leaves in the output's buffer -/

/-- The output's buffer after the body: its one store, through the whole rectangle, of the stored value of the loads. -/
def out1_15 (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) (x11 : Vec F S1024x1024 .bf16) (x12 : Vec F S1024 .f32) (x13 : Vec F S1024x1024 .bf16) (x14 : Vec F S1024 .f32) : Vec F S512x1024 .f32 :=
  View.canon [⟨r1_act, headPay (View.ld x0 r1_act) (View.ld x1 r1_wt) (View.ld x2 r1_bias) (View.ld x3 r1_wt) (View.ld x4 r1_bias) (View.ld x5 r1_wt) (View.ld x6 r1_bias) (View.ld x7 r1_wt) (View.ld x8 r1_bias) (View.ld x9 r1_wt) (View.ld x10 r1_bias) (View.ld x11 r1_wt) (View.ld x12 r1_bias) (View.ld x13 r1_wt) (View.ld x14 r1_bias)⟩]

/-- A store through the whole rectangle at offset zero leaves its payload, and a load through one reads the contents:
    the buffer ends holding the stored value of the blocks themselves. -/
theorem out1_15_eq (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) (x11 : Vec F S1024x1024 .bf16) (x12 : Vec F S1024 .f32) (x13 : Vec F S1024x1024 .bf16) (x14 : Vec F S1024 .f32) :
    out1_15 x0 x1 x2 x3 x4 x5 x6 x7 x8 x9 x10 x11 x12 x13 x14 = headPay x0 x1 x2 x3 x4 x5 x6 x7 x8 x9 x10 x11 x12 x13 x14 := by
  unfold out1_15
  rw [View.canon_unit_zero r1_hz2]
  simp only [View.ld_unit_zero (S := S512x1024) r1_hz2, View.ld_unit_zero (S := S1024x1024) r1_hz2, View.ld_unit_zero (S := S1024) r1_hz1]

/-- The one store's rectangle is the whole buffer, so it covers it. -/
theorem cover1_15 (p0 : Vec F S512x1024 .f32) (y : S512x1024.Idx) :
    ∃ pc ∈ ([⟨r1_act, p0⟩] : List (View.Piece (Elt F) S512x1024 .f32)), y ∈ pc.1.set :=
  View.cover_of_tiled [⟨r1_act, p0⟩] S512x1024.size (by rfl) y

/-! ## The body's triple -/

set_option maxHeartbeats 4000000 in
/-- The body on whole memrefs, the fifteen inputs' holding x0 … x14 and the output's holding anything, runs to the
    continuation with the inputs' as they were and the output's holding the stored value: the printed function and its
    two parts equal their skeletons (fifteen whole loads, one dead load of the output, one whole store), and the triple
    follows that sequence step by step. -/
theorem sound_kernel1 (c : Dev nD) (E : Set ℕ) (i : grid1.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1024x1024 .bf16) (harg12 : arg12.IsWhole) (arg13 : Memref sig .tc .vmem S1024 .f32) (harg13 : arg13.IsWhole) (arg14 : Memref sig .tc .vmem S1024x1024 .bf16) (harg14 : arg14.IsWhole) (arg15 : Memref sig .tc .vmem S1024 .f32) (harg15 : arg15.IsWhole) (arg16 : Memref sig .tc .vmem S512x1024 .f32) (harg16 : arg16.IsWhole)
    (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (x9 : Vec F S1024x1024 .bf16) (x10 : Vec F S1024 .f32) (x11 : Vec F S1024x1024 .bf16) (x12 : Vec F S1024 .f32) (x13 : Vec F S1024x1024 .bf16) (x14 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover1_15 _)

/-! ## The pipeline's proof data -/

/-- The proof data on core c: the arrays as the region finds them; after the body at point t each input's buffer
    holds its block and the output's the stored value of the input blocks; the invariant says that the rest of the
    core's memory and its generator register are untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-! Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation, at a generic point -/

/-- What the body is called with at point t: the invariant, what the core owes, and each window's current buffer
    at what the proof data says it holds before the body; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel1 c Set.univ (grid1.coords t) _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/-
  The whole program as four segments — the host operations before the first region, the first region, the host
  operations between the regions, the second region — and its run: every weakly fair execution terminates, and every
  unscoped buffer ends at the contents the fold through the four segments names (U4).  The contents at the segment
  boundaries: U0 the launch memory; U1 after the reshape; U2 with the first region's output array at what its pipeline
  leaves; U3 after the seven weight conversions; U4 with the second region's output array at what its pipeline leaves.
  No segment writes an argument array, so each ends as launched.
-/
import proofs.«157159_j31490700214886_2_alg».proof.Proof.KI.R0Body
import proofs.«157159_j31490700214886_2_alg».proof.Proof.KI.R1
import proofs.«157159_j31490700214886_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev U0 : Dev nD → Valuation τ sig (Elt F) := fun c b => (s₀ m ρ).mem ((c : Dev nD), b)
abbrev U1 : Dev nD → Valuation τ sig (Elt F) := fun c => StableHlo.after hostOps0 (U0 m ρ c)
abbrev Vr1 : (c : Dev nD) → (b : Ref sig .tc) → Buf (Elt F) ((c : Thread nD τ).loc b) := fun c b => U1 m ρ c b
def U2 (c : Dev nD) : Valuation τ sig (Elt F) :=
  Pipeline.withArrays spec0 c (U1 m ρ c) fun w => (dat0 (Vr1 m ρ) c).arrAt w cfg0.N
theorem U2_arr (c : Dev nD) (w : Fin cfg0.W) :
    U2 m ρ c (Proc.devRef .tc (Pipeline.arrRef spec0 w)) = (dat0 (Vr1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
abbrev Vr2 : (c : Dev nD) → (b : Ref sig .tc) → Buf (Elt F) ((c : Thread nD τ).loc b) := fun c b => U2 m ρ c b
theorem hF0 (c : Dev nD) (w : Fin cfg0.W) : (dat0 (Vr1 m ρ) c).arrAt w cfg0.N = Vr2 m ρ c (Pipeline.arrRef spec0 w) :=
  (U2_arr m ρ c w).symm
theorem hrest0 (c : Dev nD) : ∀ b, b ∉ Finset.univ.image (Pipeline.arrRef spec0) → Vr2 m ρ c b = Vr1 m ρ c b :=
  fun b hb => U2_of_ne m ρ c b fun w e => hb (Finset.mem_image.mpr ⟨w, Finset.mem_univ _, e⟩)

abbrev U3 : Dev nD → Valuation τ sig (Elt F) := fun c => StableHlo.after hostOps1 (U2 m ρ c)
abbrev Vr3 : (c : Dev nD) → (b : Ref sig .tc) → Buf (Elt F) ((c : Thread nD τ).loc b) := fun c b => U3 m ρ c b
def U4 (c : Dev nD) : Valuation τ sig (Elt F) :=
  Pipeline.withArrays spec1 c (U3 m ρ c) fun w => (dat1 (Vr3 m ρ) c).arrAt w cfg1.N
theorem U4_arr (c : Dev nD) (w : Fin cfg1.W) :
    U4 m ρ c (Proc.devRef .tc (Pipeline.arrRef spec1 w)) = (dat1 (Vr3 m ρ) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m ρ c (Proc.devRef .tc b) = U3 m ρ c (Proc.devRef .tc b) := by
  unfold U4; exact Pipeline.withArrays_of_ne spec1 c _ _ b hb
abbrev Vr4 : (c : Dev nD) → (b : Ref sig .tc) → Buf (Elt F) ((c : Thread nD τ).loc b) := fun c b => U4 m ρ c b
theorem hF1 (c : Dev nD) (w : Fin cfg1.W) : (dat1 (Vr3 m ρ) c).arrAt w cfg1.N = Vr4 m ρ c (Pipeline.arrRef spec1 w) :=
  (U4_arr m ρ c w).symm
theorem hrest1 (c : Dev nD) : ∀ b, b ∉ Finset.univ.image (Pipeline.arrRef spec1) → Vr4 m ρ c b = Vr3 m ρ c b :=
  fun b hb => U4_of_ne m ρ c b fun w e => hb (Finset.mem_image.mpr ⟨w, Finset.mem_univ _, e⟩)

/-! ## Every argument array ends as launched -/

theorem U4_main_arg0 (c : Dev nD) : U4 m ρ c (Proc.devRef .tc main_arg0) = m ((c : Thread nD τ).loc main_arg0) :=
  calc U4 m ρ c (Proc.devRef .tc main_arg0)
    _ = U3 m ρ c (Proc.devRef .tc main_arg0) := U4_of_ne m ρ c main_arg0 (by decide)
    _ = U2 m ρ c (Proc.devRef .tc main_arg0) := StableHlo.after_of_writes_sub hostOps1 _ hostOps1_writes (by decide : main_arg0 ∉ hostOps1_W)
    _ = U1 m ρ c (Proc.devRef .tc main_arg0) := U2_of_ne m ρ c main_arg0 (by decide)
    _ = U0 m ρ c (Proc.devRef .tc main_arg0) := StableHlo.after_of_writes_sub hostOps0 _ hostOps0_writes (by decide : main_arg0 ∉ hostOps0_W)
    _ = m ((c : Thread nD τ).loc main_arg0) := rfl

theorem U4_main_arg1 (c : Dev nD) : U4 m ρ c (Proc.devRef .tc main_arg1) = m ((c : Thread nD τ).loc main_arg1) :=
  calc U4 m ρ c (Proc.devRef .tc main_arg1)
    _ = U3 m ρ c (Proc.devRef .tc main_arg1) := U4_of_ne m ρ c main_arg1 (by decide)
    _ = U2 m ρ c (Proc.devRef .tc main_arg1) := StableHlo.after_of_writes_sub hostOps1 _ hostOps1_writes (by decide : main_arg1 ∉ hostOps1_W)
    _ = U1 m ρ c (Proc.devRef .tc main_arg1) := (U2_arr m ρ c 1).trans (((dat0 (Vr1 m ρ) c).arrAt_in 1 rfl _).trans (A_eq0 (Vr1 m ρ) c 1))
    _ = U0 m ρ c (Proc.devRef .tc main_arg1) := StableHlo.after_of_writes_sub hostOps0 _ hostOps0_writes (by decide : main_arg1 ∉ hostOps0_W)
    _ = m ((c : Thread nD τ).loc main_arg1) := rfl

theorem U4_main_arg2 (c : Dev nD) : U4 m ρ c (Proc.devRef .tc main_arg2) = m ((c : Thread nD τ).loc main_arg2) :=
  calc U4 m ρ c (Proc.devRef .tc main_arg2)
    _ = U3 m ρ c (Proc.devRef .tc main_arg2) := U4_of_ne m ρ c main_arg2 (by decide)
    _ = U2 m ρ c (Proc.devRef .tc main_arg2) := StableHlo.after_of_writes_sub hostOps1 _ hostOps1_writes (by decide : main_arg2 ∉ hostOps1_W)
    _ = U1 m ρ c (Proc.devRef .tc main_arg2) := (U2_arr m ρ c 2).trans (((dat0 (Vr1 m ρ) c).arrAt_in 2 rfl _).trans (A_eq0 (Vr1 m ρ) c 2))
    _ = U0 m ρ c (Proc.devRef .tc main_arg2) := StableHlo.after_of_writes_sub hostOps0 _ hostOps0_writes (by decide : main_arg2 ∉ hostOps0_W)
    _ = m ((c : Thread nD τ).loc main_arg2) := rfl

theorem U4_main_arg3 (c : Dev nD) : U4 m ρ c (Proc.devRef .tc main_arg3) = m ((c : Thread nD τ).loc main_arg3) :=
  calc U4 m ρ c (Proc.devRef .tc main_arg3)
    _ = U3 m ρ c (Proc.devRef .tc main_arg3) := U4_of_ne m ρ c main_arg3 (by decide)
    _ = U2 m ρ c (Proc.devRef .tc main_arg3) := StableHlo.after_of_writes_sub hostOps1 _ hostOps1_writes (by decide : main_arg3 ∉ hostOps1_W)
    _ = U1 m ρ c (Proc.devRef .tc main_arg3) := U2_of_ne m ρ c main_arg3 (by decide)
    _ = U0 m ρ c (Proc.devRef .tc main_arg3) := StableHlo.after_of_writes_sub hostOps0 _ hostOps0_writes (by decide : main_arg3 ∉ hostOps0_W)
    _ = m ((c : Thread nD τ).loc main_arg3) := rfl

theorem U4_main_arg4 (c : Dev nD) : U4 m ρ c (Proc.devRef .tc main_arg4) = m ((c : Thread nD τ).loc main_arg4) :=
  calc U4 m ρ c (Proc.devRef .tc main_arg4)
    _ = U3 m ρ c (Proc.devRef .tc main_arg4) := (U4_arr m ρ c 2).trans (((dat1 (Vr3 m ρ) c).arrAt_in 2 rfl _).trans (A_eq1 (Vr3 m ρ) c 2))
    _ = U2 m ρ c (Proc.devRef .tc main_arg4) := StableHlo.after_of_writes_sub hostOps1 _ hostOps1_writes (by decide : main_arg4 ∉ hostOps1_W)
    _ = U1 m ρ c (Proc.devRef .tc main_arg4) := U2_of_ne m ρ c main_arg4 (by decide)
    _ = U0 m ρ c (Proc.devRef .tc main_arg4) := StableHlo.after_of_writes_sub hostOps0 _ hostOps0_writes (by decide : main_arg4 ∉ hostOps0_W)
    _ = m ((c : Thread nD τ).loc main_arg4) := rfl

theorem U4_main_arg5 (c : Dev nD) : U4 m ρ c (Proc.devRef .tc main_arg5) = m ((c : Thread nD τ).loc main_arg5) :=
  calc U4 m ρ c (Proc.devRef .tc main_arg5)
    _ = U3 m ρ c (Proc.devRef .tc main_arg5) := U4_of_ne m ρ c main_arg5 (by decide)
    _ = U2 m ρ c (Proc.devRef .tc main_arg5) := StableHlo.after_of_writes_sub hostOps1 _ hostOps1_writes (by decide : main_arg5 ∉ hostOps1_W)
    _ = U1 m ρ c (Proc.devRef .tc main_arg5) := U2_of_ne m ρ c main_arg5 (by decide)
    _ = U0 m ρ c (Proc.devRef .tc main_arg5) := StableHlo.after_of_writes_sub hostOps0 _ hostOps0_writes (by decide : main_arg5 ∉ hostOps0_W)
    _ = m ((c : Thread nD τ).loc main_arg5) := rfl

theorem U4_main_arg6 (c : Dev nD) : U4 m ρ c (Proc.devRef .tc main_arg6) = m ((c : Thread nD τ).loc main_arg6) :=
  calc U4 m ρ c (Proc.devRef .tc main_arg6)
    _ = U3 m ρ c (Proc.devRef .tc main_arg6) := (U4_arr m ρ c 4).trans (((dat1 (Vr3 m ρ) c).arrAt_in 4 rfl _).trans (A_eq1 (Vr3 m ρ) c 4))
    _ = U2 m ρ c (Proc.devRef .tc main_arg6) := StableHlo.after_of_writes_sub hostOps1 _ hostOps1_writes (by decide : main_arg6 ∉ hostOps1_W)
    _ = U1 m ρ c (Proc.devRef .tc main_arg6) := U2_of_ne m ρ c main_arg6 (by decide)
    _ = U0 m ρ c (Proc.devRef .tc main_arg6) := StableHlo.after_of_writes_sub hostOps0 _ hostOps0_writes (by decide : main_arg6 ∉ hostOps0_W)
    _ = m ((c : Thread nD τ).loc main_arg6) := rfl

theorem U4_main_arg7 (c : Dev nD) : U4 m ρ c (Proc.devRef .tc main_arg7) = m ((c : Thread nD τ).loc main_arg7) :=
  calc U4 m ρ c (Proc.devRef .tc main_arg7)
    _ = U3 m ρ c (Proc.devRef .tc main_arg7) := U4_of_ne m ρ c main_arg7 (by decide)
    _ = U2 m ρ c (Proc.devRef .tc main_arg7) := StableHlo.after_of_writes_sub hostOps1 _ hostOps1_writes (by decide : main_arg7 ∉ hostOps1_W)
    _ = U1 m ρ c (Proc.devRef .tc main_arg7) := U2_of_ne m ρ c main_arg7 (by decide)
    _ = U0 m ρ c (Proc.devRef .tc main_arg7) := StableHlo.after_of_writes_sub hostOps0 _ hostOps0_writes (by decide : main_arg7 ∉ hostOps0_W)
    _ = m ((c : Thread nD τ).loc main_arg7) := rfl

theorem U4_main_arg8 (c : Dev nD) : U4 m ρ c (Proc.devRef .tc main_arg8) = m ((c : Thread nD τ).loc main_arg8) :=
  calc U4 m ρ c (Proc.devRef .tc main_arg8)
    _ = U3 m ρ c (Proc.devRef .tc main_arg8) := (U4_arr m ρ c 6).trans (((dat1 (Vr3 m ρ) c).arrAt_in 6 rfl _).trans (A_eq1 (Vr3 m ρ) c 6))
    _ = U2 m ρ c (Proc.devRef .tc main_arg8) := StableHlo.after_of_writes_sub hostOps1 _ hostOps1_writes (by decide : main_arg8 ∉ hostOps1_W)
    _ = U1 m ρ c (Proc.devRef .tc main_arg8) := U2_of_ne m ρ c main_arg8 (by decide)
    _ = U0 m ρ c (Proc.devRef .tc main_arg8) := StableHlo.after_of_writes_sub hostOps0 _ hostOps0_writes (by decide : main_arg8 ∉ hostOps0_W)
    _ = m ((c : Thread nD τ).loc main_arg8) := rfl

theorem U4_main_arg9 (c : Dev nD) : U4 m ρ c (Proc.devRef .tc main_arg9) = m ((c : Thread nD τ).loc main_arg9) :=
  calc U4 m ρ c (Proc.devRef .tc main_arg9)
    _ = U3 m ρ c (Proc.devRef .tc main_arg9) := U4_of_ne m ρ c main_arg9 (by decide)
    _ = U2 m ρ c (Proc.devRef .tc main_arg9) := StableHlo.after_of_writes_sub hostOps1 _ hostOps1_writes (by decide : main_arg9 ∉ hostOps1_W)
    _ = U1 m ρ c (Proc.devRef .tc main_arg9) := U2_of_ne m ρ c main_arg9 (by decide)
    _ = U0 m ρ c (Proc.devRef .tc main_arg9) := StableHlo.after_of_writes_sub hostOps0 _ hostOps0_writes (by decide : main_arg9 ∉ hostOps0_W)
    _ = m ((c : Thread nD τ).loc main_arg9) := rfl

theorem U4_main_arg10 (c : Dev nD) : U4 m ρ c (Proc.devRef .tc main_arg10) = m ((c : Thread nD τ).loc main_arg10) :=
  calc U4 m ρ c (Proc.devRef .tc main_arg10)
    _ = U3 m ρ c (Proc.devRef .tc main_arg10) := (U4_arr m ρ c 8).trans (((dat1 (Vr3 m ρ) c).arrAt_in 8 rfl _).trans (A_eq1 (Vr3 m ρ) c 8))
    _ = U2 m ρ c (Proc.devRef .tc main_arg10) := StableHlo.after_of_writes_sub hostOps1 _ hostOps1_writes (by decide : main_arg10 ∉ hostOps1_W)
    _ = U1 m ρ c (Proc.devRef .tc main_arg10) := U2_of_ne m ρ c main_arg10 (by decide)
    _ = U0 m ρ c (Proc.devRef .tc main_arg10) := StableHlo.after_of_writes_sub hostOps0 _ hostOps0_writes (by decide : main_arg10 ∉ hostOps0_W)
    _ = m ((c : Thread nD τ).loc main_arg10) := rfl

theorem U4_main_arg11 (c : Dev nD) : U4 m ρ c (Proc.devRef .tc main_arg11) = m ((c : Thread nD τ).loc main_arg11) :=
  calc U4 m ρ c (Proc.devRef .tc main_arg11)
    _ = U3 m ρ c (Proc.devRef .tc main_arg11) := U4_of_ne m ρ c main_arg11 (by decide)
    _ = U2 m ρ c (Proc.devRef .tc main_arg11) := StableHlo.after_of_writes_sub hostOps1 _ hostOps1_writes (by decide : main_arg11 ∉ hostOps1_W)
    _ = U1 m ρ c (Proc.devRef .tc main_arg11) := U2_of_ne m ρ c main_arg11 (by decide)
    _ = U0 m ρ c (Proc.devRef .tc main_arg11) := StableHlo.after_of_writes_sub hostOps0 _ hostOps0_writes (by decide : main_arg11 ∉ hostOps0_W)
    _ = m ((c : Thread nD τ).loc main_arg11) := rfl

theorem U4_main_arg12 (c : Dev nD) : U4 m ρ c (Proc.devRef .tc main_arg12) = m ((c : Thread nD τ).loc main_arg12) :=
  calc U4 m ρ c (Proc.devRef .tc main_arg12)
    _ = U3 m ρ c (Proc.devRef .tc main_arg12) := (U4_arr m ρ c 10).trans (((dat1 (Vr3 m ρ) c).arrAt_in 10 rfl _).trans (A_eq1 (Vr3 m ρ) c 10))
    _ = U2 m ρ c (Proc.devRef .tc main_arg12) := StableHlo.after_of_writes_sub hostOps1 _ hostOps1_writes (by decide : main_arg12 ∉ hostOps1_W)
    _ = U1 m ρ c (Proc.devRef .tc main_arg12) := U2_of_ne m ρ c main_arg12 (by decide)
    _ = U0 m ρ c (Proc.devRef .tc main_arg12) := StableHlo.after_of_writes_sub hostOps0 _ hostOps0_writes (by decide : main_arg12 ∉ hostOps0_W)
    _ = m ((c : Thread nD τ).loc main_arg12) := rfl

theorem U4_main_arg13 (c : Dev nD) : U4 m ρ c (Proc.devRef .tc main_arg13) = m ((c : Thread nD τ).loc main_arg13) :=
  calc U4 m ρ c (Proc.devRef .tc main_arg13)
    _ = U3 m ρ c (Proc.devRef .tc main_arg13) := U4_of_ne m ρ c main_arg13 (by decide)
    _ = U2 m ρ c (Proc.devRef .tc main_arg13) := StableHlo.after_of_writes_sub hostOps1 _ hostOps1_writes (by decide : main_arg13 ∉ hostOps1_W)
    _ = U1 m ρ c (Proc.devRef .tc main_arg13) := U2_of_ne m ρ c main_arg13 (by decide)
    _ = U0 m ρ c (Proc.devRef .tc main_arg13) := StableHlo.after_of_writes_sub hostOps0 _ hostOps0_writes (by decide : main_arg13 ∉ hostOps0_W)
    _ = m ((c : Thread nD τ).loc main_arg13) := rfl

theorem U4_main_arg14 (c : Dev nD) : U4 m ρ c (Proc.devRef .tc main_arg14) = m ((c : Thread nD τ).loc main_arg14) :=
  calc U4 m ρ c (Proc.devRef .tc main_arg14)
    _ = U3 m ρ c (Proc.devRef .tc main_arg14) := (U4_arr m ρ c 12).trans (((dat1 (Vr3 m ρ) c).arrAt_in 12 rfl _).trans (A_eq1 (Vr3 m ρ) c 12))
    _ = U2 m ρ c (Proc.devRef .tc main_arg14) := StableHlo.after_of_writes_sub hostOps1 _ hostOps1_writes (by decide : main_arg14 ∉ hostOps1_W)
    _ = U1 m ρ c (Proc.devRef .tc main_arg14) := U2_of_ne m ρ c main_arg14 (by decide)
    _ = U0 m ρ c (Proc.devRef .tc main_arg14) := StableHlo.after_of_writes_sub hostOps0 _ hostOps0_writes (by decide : main_arg14 ∉ hostOps0_W)
    _ = m ((c : Thread nD τ).loc main_arg14) := rfl

theorem U4_main_arg15 (c : Dev nD) : U4 m ρ c (Proc.devRef .tc main_arg15) = m ((c : Thread nD τ).loc main_arg15) :=
  calc U4 m ρ c (Proc.devRef .tc main_arg15)
    _ = U3 m ρ c (Proc.devRef .tc main_arg15) := U4_of_ne m ρ c main_arg15 (by decide)
    _ = U2 m ρ c (Proc.devRef .tc main_arg15) := StableHlo.after_of_writes_sub hostOps1 _ hostOps1_writes (by decide : main_arg15 ∉ hostOps1_W)
    _ = U1 m ρ c (Proc.devRef .tc main_arg15) := U2_of_ne m ρ c main_arg15 (by decide)
    _ = U0 m ρ c (Proc.devRef .tc main_arg15) := StableHlo.after_of_writes_sub hostOps0 _ hostOps0_writes (by decide : main_arg15 ∉ hostOps0_W)
    _ = m ((c : Thread nD τ).loc main_arg15) := rfl

theorem U4_main_arg16 (c : Dev nD) : U4 m ρ c (Proc.devRef .tc main_arg16) = m ((c : Thread nD τ).loc main_arg16) :=
  calc U4 m ρ c (Proc.devRef .tc main_arg16)
    _ = U3 m ρ c (Proc.devRef .tc main_arg16) := (U4_arr m ρ c 14).trans (((dat1 (Vr3 m ρ) c).arrAt_in 14 rfl _).trans (A_eq1 (Vr3 m ρ) c 14))
    _ = U2 m ρ c (Proc.devRef .tc main_arg16) := StableHlo.after_of_writes_sub hostOps1 _ hostOps1_writes (by decide : main_arg16 ∉ hostOps1_W)
    _ = U1 m ρ c (Proc.devRef .tc main_arg16) := U2_of_ne m ρ c main_arg16 (by decide)
    _ = U0 m ρ c (Proc.devRef .tc main_arg16) := StableHlo.after_of_writes_sub hostOps0 _ hostOps0_writes (by decide : main_arg16 ∉ hostOps0_W)
    _ = m ((c : Thread nD τ).loc main_arg16) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U4 m ρ c) ∗ ∃ r, prngReg c r)

/-! ## The regions as segments -/

set_option backward.isDefEq.respectTransparency.types false in
/-- Region 0 as a segment of the thread state: entered with every unscoped buffer at the contents before it, left with
    them at the contents after it (its arrays at what the pipeline leaves, the rest untouched); the generator register goes
    into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (Vr1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the thread state: entered with every unscoped buffer at the contents before it, left with
    them at the contents after it (its arrays at what the pipeline leaves, the rest untouched); the generator register goes
    into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m ρ) c).loose
  hwaits := Pipeline.hwaits_of_owed_zero _ _ _ _ L lv 1 fun _ _ => rfl
  pre c := iprop(StableHlo.held (c : Thread nD τ) (Pipeline.ucRefs τ sig) (U3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (U0 m ρ)),
    .region (reg0 m ρ),
    .host (hseg hostOps1 hostOps1_sub hostOps1_fresh (U2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    unscoped buffer of every core ends at U4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m ρ c b)
    (hfin := fun c s' => by
      iintro ⟨⟨Hh, -⟩, HSI⟩
      unfold StableHlo.held
      imodintro
      iapply (pointsTo_read_all (Pipeline.ucRefs τ sig) (fun b => (((c : Thread nD τ)).1, b)) (U4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (U4_main_arg0 m ρ c),
    (h c _ (mem_uc main_arg1 (by decide))).trans (U4_main_arg1 m ρ c),
    (h c _ (mem_uc main_arg2 (by decide))).trans (U4_main_arg2 m ρ c),
    (h c _ (mem_uc main_arg3 (by decide))).trans (U4_main_arg3 m ρ c),
    (h c _ (mem_uc main_arg4 (by decide))).trans (U4_main_arg4 m ρ c),
    (h c _ (mem_uc main_arg5 (by decide))).trans (U4_main_arg5 m ρ c),
    (h c _ (mem_uc main_arg6 (by decide))).trans (U4_main_arg6 m ρ c),
    (h c _ (mem_uc main_arg7 (by decide))).trans (U4_main_arg7 m ρ c),
    (h c _ (mem_uc main_arg8 (by decide))).trans (U4_main_arg8 m ρ c),
    (h c _ (mem_uc main_arg9 (by decide))).trans (U4_main_arg9 m ρ c),
    (h c _ (mem_uc main_arg10 (by decide))).trans (U4_main_arg10 m ρ c),
    (h c _ (mem_uc main_arg11 (by decide))).trans (U4_main_arg11 m ρ c),
    (h c _ (mem_uc main_arg12 (by decide))).trans (U4_main_arg12 m ρ c),
    (h c _ (mem_uc main_arg13 (by decide))).trans (U4_main_arg13 m ρ c),
    (h c _ (mem_uc main_arg14 (by decide))).trans (U4_main_arg14 m ρ c),
    (h c _ (mem_uc main_arg15 (by decide))).trans (U4_main_arg15 m ρ c),
    (h c _ (mem_uc main_arg16 (by decide))).trans (U4_main_arg16 m ρ c)⟩) (run_all m ρ)

end Cert.KernelIdeal.Fr

end
-- ==== Proof.Spec.lean ====
/-
  The result both programs compute, as one function of the argument arrays over the extended reals, written over plain
  coordinates (row, column) so that neither program's index encoding enters it.

  * `lin x w b`: a linear layer, `(x · wᵀ) + b`: entry (i, o) is `(∑ k, x i k * w o k) + b o`.
  * `attn`: single-head attention over the 512 rows with the rows themselves as values: queries and keys are two linear
    layers of `x`; the logits `(q · kᵀ) * c`; each row's softmax taken as `exp (s - rowmax) / rowsum` with the row maximum
    started from `ninf`; the attention-weighted sum of the rows of `x`; a last linear layer.
  * `head`: residual + relu, a linear layer, a second attention block, residual with both earlier values, relu.
  * `flat`: row i of the [512, 1024, 7, 7] input read as a vector of 1024·7·7 entries, row-major.
  The three literals (the logit scale, the maximum's start value, the relu's zero) are parameters: both programs
  print the same words for them and nothing here depends on their values.
-/
import Idealize.ShloMosaic.PureOps.Ideal

noncomputable section

namespace Cert.Spec

open Idealize.ShloMosaic

/-- A linear layer: `(x · wᵀ) + b`. -/
def lin {K N : ℕ} (x : Fin 512 → Fin K → EReal) (w : Fin N → Fin K → EReal) (b : Fin N → EReal) :
    Fin 512 → Fin N → EReal :=
  fun i o => (∑ k : Fin K, x i k * w o k) + b o

/-- Scaled logits `(q · kᵀ) * c`. -/
def logits (q k : Fin 512 → Fin 1024 → EReal) (c : EReal) : Fin 512 → Fin 512 → EReal :=
  fun i j => (∑ d : Fin 1024, q i d * k j d) * c

/-- A row's maximum, folded from `ninf` and joined with `ninf` once more (as both programs do). -/
def rowMax (s : Fin 512 → Fin 512 → EReal) (ninf : EReal) : Fin 512 → EReal :=
  fun i => max ninf ((Finset.univ : Finset (Fin 512)).fold max ninf (fun j => s i j))

/-- The shifted exponentials of a row. -/
def expRow (s : Fin 512 → Fin 512 → EReal) (ninf : EReal) : Fin 512 → Fin 512 → EReal :=
  fun i j => Ideal.exp (s i j - rowMax s ninf i)

/-- The softmax of each row: the shifted exponentials over their sum. -/
def softmax (s : Fin 512 → Fin 512 → EReal) (ninf : EReal) : Fin 512 → Fin 512 → EReal :=
  fun i j => Ideal.div (expRow s ninf i j) (∑ j' : Fin 512, expRow s ninf i j')

/-- The attention-weighted sum of the rows of `x`. -/
def mix (p : Fin 512 → Fin 512 → EReal) (x : Fin 512 → Fin 1024 → EReal) : Fin 512 → Fin 1024 → EReal :=
  fun i d => ∑ j : Fin 512, p i j * x j d

/-- One attention block. -/
def attn (x : Fin 512 → Fin 1024 → EReal)
    (w1 : Fin 1024 → Fin 1024 → EReal) (b1 : Fin 1024 → EReal)
    (w2 : Fin 1024 → Fin 1024 → EReal) (b2 : Fin 1024 → EReal)
    (cw : Fin 1024 → Fin 1024 → EReal) (cb : Fin 1024 → EReal) (c ninf : EReal) :
    Fin 512 → Fin 1024 → EReal :=
  lin (mix (softmax (logits (lin x w1 b1) (lin x w2 b2) c) ninf) x) cw cb

/-- Everything after the first projection. -/
def head (x : Fin 512 → Fin 1024 → EReal)
    (fc2w : Fin 1024 → Fin 1024 → EReal) (fc2b : Fin 1024 → EReal)
    (a1w1 : Fin 1024 → Fin 1024 → EReal) (a1b1 : Fin 1024 → EReal)
    (a1w2 : Fin 1024 → Fin 1024 → EReal) (a1b2 : Fin 1024 → EReal)
    (a1cw : Fin 1024 → Fin 1024 → EReal) (a1cb : Fin 1024 → EReal)
    (a2w1 : Fin 1024 → Fin 1024 → EReal) (a2b1 : Fin 1024 → EReal)
    (a2w2 : Fin 1024 → Fin 1024 → EReal) (a2b2 : Fin 1024 → EReal)
    (a2cw : Fin 1024 → Fin 1024 → EReal) (a2cb : Fin 1024 → EReal) (c ninf zero : EReal) :
    Fin 512 → Fin 1024 → EReal :=
  let r1 := attn x a1w1 a1b1 a1w2 a1b2 a1cw a1cb c ninf
  let h : Fin 512 → Fin 1024 → EReal := fun i o => max (x i o + r1 i o) zero
  let h2 := lin h fc2w fc2b
  let r2 := attn h2 a2w1 a2b1 a2w2 a2b2 a2cw a2cb c ninf
  fun i o => max ((h2 i o + r2 i o) + x i o) zero

end Cert.Spec

end
-- ==== Proof.KI.KerOut.lean ====
/-
  The kernel program's result on a core, as the specification of the launch memory's argument arrays: the first
  projection of the flattened input (the [512, 1024, 7, 7] array read as [512, 50176], row-major) followed by the head.
-/
import proofs.«157159_j31490700214886_2_alg».proof.KernelIdeal
import proofs.«157159_j31490700214886_2_alg».proof.Proof.Gen.KernelIdeal
import proofs.«157159_j31490700214886_2_alg».proof.Proof.Spec
import Idealize.ShloMosaic.Lib.ValueIdx

noncomputable section

namespace Cert.KernelIdeal.Fr

open Cert.KernelIdeal Cert.KernelIdeal.Gen Cert.KernelIdeal.Facts₀ Cert.KernelIdeal.Facts
open Idealize.ShloMosaic Idealize.ShloMosaic.TcCoe Idealize.ShloMosaic.ValueIdx Idealize.SL.Sem

/-- The flattened input on core c. -/
abbrev xFlat (m : (ℓ : Loc nD τ sig) → Buf (Elt Ideal) ℓ) (c : Dev nD) : Vec Ideal S512x50176 .f32 :=
  shapeCast S512x50176 (m ((c : Thread nD τ).loc main_arg0)) Facts₀.shapeCasts_S512x1024x7x7_S512x50176

def kerOut (m : (ℓ : Loc nD τ sig) → Buf (Elt Ideal) ℓ) (c : Dev nD) : Buf (Elt Ideal) ((c : Thread nD τ).loc main_v9) :=
  fun y => Cert.Spec.head
      (Cert.Spec.lin (fun r k => xFlat m c (ix2 r k))
        (fun r k => (m ((c : Thread nD τ).loc main_arg1)) (ix2 r k)) (fun r => (m ((c : Thread nD τ).loc main_arg2)) (ix1 r)))
      (fun r k => (m ((c : Thread nD τ).loc main_arg3)) (ix2 r k)) (fun r => (m ((c : Thread nD τ).loc main_arg4)) (ix1 r))
      (fun r k => (m ((c : Thread nD τ).loc main_arg5)) (ix2 r k)) (fun r => (m ((c : Thread nD τ).loc main_arg6)) (ix1 r))
      (fun r k => (m ((c : Thread nD τ).loc main_arg7)) (ix2 r k)) (fun r => (m ((c : Thread nD τ).loc main_arg8)) (ix1 r))
      (fun r k => (m ((c : Thread nD τ).loc main_arg9)) (ix2 r k)) (fun r => (m ((c : Thread nD τ).loc main_arg10)) (ix1 r))
      (fun r k => (m ((c : Thread nD τ).loc main_arg11)) (ix2 r k)) (fun r => (m ((c : Thread nD τ).loc main_arg12)) (ix1 r))
      (fun r k => (m ((c : Thread nD τ).loc main_arg13)) (ix2 r k)) (fun r => (m ((c : Thread nD τ).loc main_arg14)) (ix1 r))
      (fun r k => (m ((c : Thread nD τ).loc main_arg15)) (ix2 r k)) (fun r => (m ((c : Thread nD τ).loc main_arg16)) (ix1 r))
      (Ideal.ofBits .f32 0x3D000000#32) (Ideal.ofBits .f32 0xFF800000#32) (Ideal.ofBits .f32 0x00000000#32) (y 0) (y 1)

end Cert.KernelIdeal.Fr

end
-- ==== Proof.KI.R0Pieces.lean ====
/-
  What the first region's points leave, as values: the accumulator after a first point is the first partial product
  over the zero block; after a later point it is the accumulator before plus that point's partial product; at a last
  point the output block gets that sum plus the bias row.
-/
import proofs.«157159_j31490700214886_2_alg».proof.Proof.KI.R0Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a <;> rfl

theorem accMiddle_eq (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : ¬condLast i)
    (x0 : Vec F S512x1792 .f32) (x1 : Vec F S512x1792 .f32) (x2 : Vec F S512 .f32) (xs0 : Vec F S512x512 .f32) :
    accMiddle c i arg2 harg2 arg3 harg3 arg4 harg4 arg5 harg5 arg6 harg6 hc0 hc1 x0 x1 x2 xs0 = k0_pay2 x0 x1 xs0 := by
  unfold accMiddle
  rw [View.read_writes_eq_canon _ _ _ (coverMiddle c i arg2 harg2 arg3 harg3 arg4 harg4 arg5 harg5 arg6 harg6 hc0 hc1 x0 x1 x2 xs0)]
  unfold runMiddle
  dsimp only
  sl_unfold_words
  rw [View.canon_unit_zero hz2]
  simp only [View.readAt_eq_ld, harg2.read_unread, harg3.read_unread, harg6.read_unread, View.ld_unit_zero (S := S512x1792) hz2, View.ld_unit_zero (S := S512x512) hz2]

theorem accLast_eq (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) :
    accLast c i arg2 harg2 arg3 harg3 arg4 harg4 arg5 harg5 arg6 harg6 hc0 hc1 x0 x1 x2 xs0 = k0_pay2 x0 x1 xs0 := by
  unfold accLast
  rw [View.read_writes_eq_canon _ _ _ (coverLastAcc c i arg2 harg2 arg3 harg3 arg4 harg4 arg5 harg5 arg6 harg6 hc0 hc1 x0 x1 x2 xs0)]
  unfold runLast
  dsimp only
  sl_unfold_words
  rw [View.canon_unit_zero hz2]
  simp only [View.readAt_eq_ld, harg2.read_unread, harg3.read_unread, harg6.read_unread, View.ld_unit_zero (S := S512x1792) hz2, View.ld_unit_zero (S := S512x512) hz2]

theorem outLast_eq (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : ¬condFirst i) (hc1 : condLast i)
    (x0 : Vec F S512x1792 .f32) (x1 : Vec F S512x1792 .f32) (x2 : Vec F S512 .f32) (xs0 : Vec F S512x512 .f32) :
    outLast c i arg2 harg2 arg3 harg3 arg4 harg4 arg5 harg5 arg6 harg6 hc0 hc1 x0 x1 x2 xs0 = k0_pay3 (k0_pay2 x0 x1 xs0) x2 := by
  unfold outLast
  rw [View.read_writes_eq_canon _ _ _ (coverLastOut c i arg2 harg2 arg3 harg3 arg4 harg4 arg5 harg5 arg6 harg6 hc0 hc1 x0 x1 x2 xs0)]
  unfold runLast
  dsimp only
  sl_unfold_words
  rw [View.canon_unit_zero hz2]
  simp only [View.readCov_unit_zero (S := S512x512) _ hz2, View.readAt_eq_ld, harg2.read_unread, harg3.read_unread, harg4.read_unread, harg6.read_unread, View.ld_unit_zero (S := S512x1792) hz2, View.ld_unit_zero (S := S512x512) hz2, View.ld_unit_zero (S := S512) hz1]

theorem accFirst_eq (c : Dev nD) (i : grid0.Coords) (arg2 : Memref sig .tc .vmem S512x1792 .f32) (harg2 : arg2.IsWhole) (arg3 : Memref sig .tc .vmem S512x1792 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512x512 .f32) (harg6 : arg6.IsWhole) (hc0 : condFirst i) (hc1 : ¬condLast i)
    (x0 : Vec F S512x1792 .f32) (x1 : Vec F S512x1792 .f32) (x2 : Vec F S512 .f32) :
    accFirst c i arg2 harg2 arg3 harg3 arg4 harg4 arg5 harg5 arg6 harg6 hc0 hc1 x0 x1 x2 = k0_pay2 x0 x1 (k0_pay1 (F := F)) := by
  unfold accFirst
  rw [View.read_writes_eq_canon _ _ _ (coverFirst c i arg2 harg2 arg3 harg3 arg4 harg4 arg5 harg5 arg6 harg6 hc0 hc1 x0 x1 x2)]
  unfold runFirst
  dsimp only
  sl_unfold_words
  rw [View.canon_cons_unit_zero (S := S512x512) hz2]
  simp only [View.readCov_unit_zero (S := S512x512) _ hz2, View.readAt_eq_ld, harg2.read_unread, harg3.read_unread, View.ld_unit_zero (S := S512x1792) hz2, View.ld_unit_zero (S := S512x512) hz2]

end Cert.KernelIdeal.Fr

end
-- ==== Proof.KI.R0Blocks.lean ====
/-
  The first region's blocks, as index arithmetic.  The region is a blocked matrix product on a 2 x 28 grid run
  row-major: point t has column block t / 28 and reduction block t % 28.  On every axis a block's element sits in its
  array at (block index) x (block size) + (its coordinate inside the block).  So: the left operand's block at t reads
  the array at (p, (t % 28) * 1792 + kk); the right operand's at ((t / 28) * 512 + q, (t % 28) * 1792 + kk); the bias
  block at (t / 28) * 512 + q; the output block at (p, (t / 28) * 512 + q).  The output blocks written back (at the
  last reduction block of each column block) cover the output array.
-/
import proofs.«157159_j31490700214886_2_alg».proof.Proof.KI.R0Data
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block indices at a point, decided once over the grid -/

/-- The left operand's block index at point t is (0, t % 28). -/
theorem idx0_0 : ∀ t : Fin cfg0.N, win0_0.index t 0 = 0 ∧ win0_0.index t 1 = t.val % 28 :=
  (by decide +kernel : ∀ t : Fin grid0.N, win0_0.index t 0 = 0 ∧ win0_0.index t 1 = t.val % 28)

/-- The right operand's block index at point t is (t / 28, t % 28). -/
theorem idx0_1 : ∀ t : Fin cfg0.N, win0_1.index t 0 = t.val / 28 ∧ win0_1.index t 1 = t.val % 28 :=
  (by decide +kernel : ∀ t : Fin grid0.N, win0_1.index t 0 = t.val / 28 ∧ win0_1.index t 1 = t.val % 28)

/-- The bias's block index at point t is t / 28. -/
theorem idx0_2 : ∀ t : Fin cfg0.N, win0_2.index t 0 = t.val / 28 :=
  (by decide +kernel : ∀ t : Fin grid0.N, win0_2.index t 0 = t.val / 28)

/-- The output's block index at point t is (0, t / 28). -/
theorem idx0_3 : ∀ t : Fin cfg0.N, win0_3.index t 0 = 0 ∧ win0_3.index t 1 = t.val / 28 :=
  (by decide +kernel : ∀ t : Fin grid0.N, win0_3.index t 0 = 0 ∧ win0_3.index t 1 = t.val / 28)

/-! ## The input blocks read at an index -/

/-- The left operand's block at point t reads, at (p, kk), the array at (p, (t % 28) * 1792 + kk). -/
theorem iblk0_0_apply (c : Dev nD) (t : Fin cfg0.N) (p : Fin 512) (kk : Fin 1792) (h : t.val % 28 * 1792 + kk.val < 50176) :
    iblk0 V c 0 t (ValueIdx.ix2 p kk) = V c main_v0 (ValueIdx.ix2 p ⟨t.val % 28 * 1792 + kk.val, h⟩) := by
  unfold iblk0
  rw [View.read_apply]
  show V c main_v0 _ = V c main_v0 _
  refine congrArg (V c main_v0) (funext fun a => Fin.ext ?_)
  match a with
  | ⟨0, _⟩ =>
    show win0_0.index t 0 * 512 + 1 * p.val = p.val
    rw [(idx0_0 t).1]; omega
  | ⟨1, _⟩ =>
    show win0_0.index t 1 * 1792 + 1 * kk.val = t.val % 28 * 1792 + kk.val
    rw [(idx0_0 t).2]; omega

/-- The right operand's block at point t reads, at (q, kk), the array at ((t / 28) * 512 + q, (t % 28) * 1792 + kk). -/
theorem iblk0_1_apply (c : Dev nD) (t : Fin cfg0.N) (q : Fin 512) (kk : Fin 1792) (h1 : t.val / 28 * 512 + q.val < 1024)
    (h2 : t.val % 28 * 1792 + kk.val < 50176) :
    iblk0 V c 1 t (ValueIdx.ix2 q kk)
      = V c main_arg1 (ValueIdx.ix2 ⟨t.val / 28 * 512 + q.val, h1⟩ ⟨t.val % 28 * 1792 + kk.val, h2⟩) := by
  unfold iblk0
  rw [View.read_apply]
  show V c main_arg1 _ = V c main_arg1 _
  refine congrArg (V c main_arg1) (funext fun a => Fin.ext ?_)
  match a with
  | ⟨0, _⟩ =>
    show win0_1.index t 0 * 512 + 1 * q.val = t.val / 28 * 512 + q.val
    rw [(idx0_1 t).1]; omega
  | ⟨1, _⟩ =>
    show win0_1.index t 1 * 1792 + 1 * kk.val = t.val % 28 * 1792 + kk.val
    rw [(idx0_1 t).2]; omega

/-- The bias's block at point t reads, at q, the array at (t / 28) * 512 + q. -/
theorem iblk0_2_apply (c : Dev nD) (t : Fin cfg0.N) (q : Fin 512) (h1 : t.val / 28 * 512 + q.val < 1024) :
    iblk0 V c 2 t (ValueIdx.ix1 q) = V c main_arg2 (ValueIdx.ix1 ⟨t.val / 28 * 512 + q.val, h1⟩) := by
  unfold iblk0
  rw [View.read_apply]
  show V c main_arg2 _ = V c main_arg2 _
  refine congrArg (V c main_arg2) (funext fun a => Fin.ext ?_)
  match a with
  | ⟨0, _⟩ =>
    show win0_2.index t 0 * 512 + 1 * q.val = t.val / 28 * 512 + q.val
    rw [idx0_2 t]; omega

/-! ## The output block -/

/-- The output's block at point t reads, at (p, q), contents of the output array at (p, (t / 28) * 512 + q). -/
theorem blk3_read_apply (c : Dev nD) (G : Buf (Elt F) ((c : Thread nD τ).loc main_v1)) (t : Fin cfg0.N) (p q : Fin 512)
    (h1 : t.val / 28 * 512 + q.val < 1024) :
    ((cfg0.win 3).blk t).view.read (Elt F) G (ValueIdx.ix2 p q) = G (ValueIdx.ix2 p ⟨t.val / 28 * 512 + q.val, h1⟩) := by
  rw [View.read_apply]
  show G _ = G _
  refine congrArg G (funext fun a => Fin.ext ?_)
  match a with
  | ⟨0, _⟩ =>
    show win0_3.index t 0 * 512 + 1 * p.val = p.val
    rw [(idx0_3 t).1]; omega
  | ⟨1, _⟩ =>
    show win0_3.index t 1 * 512 + 1 * q.val = t.val / 28 * 512 + q.val
    rw [(idx0_3 t).2]; omega

/-- The output block is moved whole: nothing is cut off it. -/
theorem cut3_id (t : Fin cfg0.N) (x : Vec F S512x512 .f32) : (cfg0.win 3).cut (grid0.coords t) x = x := rfl

/-- Every index of the output array lies in the block written back at the last reduction block of its column block:
    the point (i 1 / 512) * 28 + 27. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 56 := N_0
  have h0 : (i 0 : Nat) < 512 := (i 0).isLt
  have h1 : (i 1 : Nat) < 1024 := (i 1).isLt
  have ht : (i 1 : Nat) / 512 * 28 + 27 < cfg0.N := by rw [hN]; omega
  refine ⟨⟨(i 1 : Nat) / 512 * 28 + 27, ht⟩, (flush0_3 _).mpr (by show ((i 1 : Nat) / 512 * 28 + 27) % 28 = 27; omega), ?_⟩
  show i ∈ ((View.whole main_v1).slice (win0_3.rect ⟨(i 1 : Nat) / 512 * 28 + 27, ht⟩)).set
  rw [View.set_slice_whole, Rect.mem_set_unit]
  intro a
  match a with
  | ⟨0, _⟩ =>
    show win0_3.index ⟨(i 1 : Nat) / 512 * 28 + 27, ht⟩ 0 * 512 ≤ (i 0 : Nat)
      ∧ (i 0 : Nat) < win0_3.index ⟨(i 1 : Nat) / 512 * 28 + 27, ht⟩ 0 * 512 + 512
    rw [(idx0_3 _).1]; omega
  | ⟨1, _⟩ =>
    show win0_3.index ⟨(i 1 : Nat) / 512 * 28 + 27, ht⟩ 1 * 512 ≤ (i 1 : Nat)
      ∧ (i 1 : Nat) < win0_3.index ⟨(i 1 : Nat) / 512 * 28 + 27, ht⟩ 1 * 512 + 512
    rw [(idx0_3 _).2]
    show ((i 1 : Nat) / 512 * 28 + 27) / 28 * 512 ≤ (i 1 : Nat) ∧ (i 1 : Nat) < ((i 1 : Nat) / 512 * 28 + 27) / 28 * 512 + 512
    omega

end Cert.KernelIdeal.Fr

end
-- ==== Proof.Fc1Value.lean ====
/-
  The first region of the kernel — a blocked matrix product with a carried accumulator — read index by index over the
  extended reals, and the law that regroups a sum of 28 · 1792 consecutive terms into 28 blocks of 1792.

  * the accumulator's start block is zero everywhere;
  * one step adds to the accumulator, at (p, q), the block's inner product ∑ₖ a p k * b q k (both operands are
    contracted along their second axis; narrowing a value's format is the identity over the extended reals, and a
    reshape to the same shape is the identity);
  * the last step adds the bias row, the same at every row p;
  * a sum over the first (n + 1) · 1792 naturals is the sum over the first n · 1792 plus the next block's sum: only
    associativity and commutativity of + enter.
-/
import proofs.«157159_j31490700214886_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Fc1Value

open Idealize.ShloMosaic Idealize.SL.Sem Idealize.ShloMosaic.ValueIdx

/-! ## The accumulator's start block -/

/-- The start block is the zero word at every index, and the zero word is the number 0. -/
theorem pay1_apply (p q : Fin 512) : Gen.k0_pay1 (F := Ideal) (ValueIdx.ix2 p q) = 0 := by
  unfold Gen.k0_pay1
  simp only [shapeCast_self]
  exact Ideal.ofBits_zero_f32

/-! ## One accumulation step -/

/-- The left operand's row coordinate is the output's row. -/
theorem lhs_0 (i : S512x512.Idx) (k : dot_S512x1792_S512x1792_S512x512_1_1_0_0_n_n.contr.Idx) :
    (dot_S512x1792_S512x1792_S512x512_1_1_0_0_n_n.lhsIdx i k 0).val = (i 0).val := by
  unfold DotDims.lhsIdx
  rw [dif_neg (show ¬(0 : Fin S512x1792.rank) ∈ dot_S512x1792_S512x1792_S512x512_1_1_0_0_n_n.lhsBatch by decide),
    dif_pos (show (0 : Fin S512x1792.rank) ∈ dot_S512x1792_S512x1792_S512x512_1_1_0_0_n_n.lhsNonContracting by decide)]
  rfl

/-- The left operand's column coordinate is the contraction coordinate. -/
theorem lhs_1 (i : S512x512.Idx) (k : dot_S512x1792_S512x1792_S512x512_1_1_0_0_n_n.contr.Idx) :
    (dot_S512x1792_S512x1792_S512x512_1_1_0_0_n_n.lhsIdx i k 1).val = (k ⟨0, by decide⟩).val :=
  dot_S512x1792_S512x1792_S512x512_1_1_0_0_n_n.lhsIdx_val_of_single rfl i k

/-- The right operand's row coordinate is the output's column. -/
theorem rhs_0 (i : S512x512.Idx) (k : dot_S512x1792_S512x1792_S512x512_1_1_0_0_n_n.contr.Idx) :
    (dot_S512x1792_S512x1792_S512x512_1_1_0_0_n_n.rhsIdx i k 0).val = (i 1).val := by
  unfold DotDims.rhsIdx
  rw [dif_neg (show ¬(0 : Fin S512x1792.rank) ∈ dot_S512x1792_S512x1792_S512x512_1_1_0_0_n_n.rhsBatch by decide),
    dif_pos (show (0 : Fin S512x1792.rank) ∈ dot_S512x1792_S512x1792_S512x512_1_1_0_0_n_n.rhsNonContracting by decide)]
  rfl

/-- The right operand's column coordinate is the contraction coordinate. -/
theorem rhs_1 (i : S512x512.Idx) (k : dot_S512x1792_S512x1792_S512x512_1_1_0_0_n_n.contr.Idx) :
    (dot_S512x1792_S512x1792_S512x512_1_1_0_0_n_n.rhsIdx i k 1).val = (k ⟨0, by decide⟩).val :=
  dot_S512x1792_S512x1792_S512x512_1_1_0_0_n_n.rhsIdx_val_of_single rfl i k

/-- The block product with a zero accumulator, at (p, q): the inner product of row p of the left block with row q of
    the right block, the contraction index carried to the 1792 plain coordinates by the bijection of a one-axis
    contraction. -/
theorem block_product_apply (a b : FVec Ideal S512x1792 .bf16) (p q : Fin 512) :
    FloatOps.matmul dot_S512x1792_S512x1792_S512x512_1_1_0_0_n_n none a b (constant (F := Ideal) S512x512 .f32 0x00000000#32)
        (ValueIdx.ix2 p q)
      = ∑ k : Fin 1792, a (ValueIdx.ix2 p k) * b (ValueIdx.ix2 q k) := by
  rw [Ideal.matmul_constant_zero_apply,
    ← Equiv.sum_comp (ValueIdx.contrEquiv1 dot_S512x1792_S512x1792_S512x512_1_1_0_0_n_n 1792 rfl rfl).symm]
  refine Finset.sum_congr rfl fun k _ => ?_
  have hk := ValueIdx.contrEquiv1_symm_val dot_S512x1792_S512x1792_S512x512_1_1_0_0_n_n 1792 rfl rfl k
  have el : dot_S512x1792_S512x1792_S512x512_1_1_0_0_n_n.lhsIdx (ValueIdx.ix2 p q)
      ((ValueIdx.contrEquiv1 dot_S512x1792_S512x1792_S512x512_1_1_0_0_n_n 1792 rfl rfl).symm k) = ValueIdx.ix2 p k :=
    funext fun ax => Fin.ext (by
      match ax with
      | ⟨0, _⟩ => exact lhs_0 _ _
      | ⟨1, _⟩ => exact (lhs_1 _ _).trans hk)
  have er : dot_S512x1792_S512x1792_S512x512_1_1_0_0_n_n.rhsIdx (ValueIdx.ix2 p q)
      ((ValueIdx.contrEquiv1 dot_S512x1792_S512x1792_S512x512_1_1_0_0_n_n 1792 rfl rfl).symm k) = ValueIdx.ix2 q k :=
    funext fun ax => Fin.ext (by
      match ax with
      | ⟨0, _⟩ => exact rhs_0 _ _
      | ⟨1, _⟩ => exact (rhs_1 _ _).trans hk)
  rw [el, er]

/-- One step: the carried accumulator plus the block's inner product. Narrowing to the 16-bit format and the reshapes to
    the same shape are the identity here. -/
theorem pay2_apply (v3 v6 : Vec Ideal S512x1792 .f32) (v8 : Vec Ideal S512x512 .f32) (p q : Fin 512) :
    Gen.k0_pay2 (F := Ideal) v3 v6 v8 (ValueIdx.ix2 p q)
      = v8 (ValueIdx.ix2 p q) + ∑ k : Fin 1792, v3 (ValueIdx.ix2 p k) * v6 (ValueIdx.ix2 q k) := by
  unfold Gen.k0_pay2
  simp only [shapeCast_self]
  rw [addf_apply]
  refine congrArg (v8 (ValueIdx.ix2 p q) + ·) ?_
  exact block_product_apply _ _ p q

/-! ## The bias row -/

/-- The last step adds the bias, read at the column: the [512] row is reshaped to [1, 512] and repeated down the rows. -/
theorem pay3_apply (v17 : Vec Ideal S512x512 .f32) (v18 : Vec Ideal S512 .f32) (p q : Fin 512) :
    Gen.k0_pay3 (F := Ideal) v17 v18 (ValueIdx.ix2 p q) = v17 (ValueIdx.ix2 p q) + v18 (ValueIdx.ix1 q) := by
  unfold Gen.k0_pay3
  rw [addf_apply]
  refine congrArg (v17 (ValueIdx.ix2 p q) + ·) ?_
  exact (broadcastTo_1b_ab_apply _ _ p q).trans (shapeCast_a_1a_apply v18 _ 0 q)

/-! ## Regrouping a long sum into blocks -/

/-- The first n blocks of 1792 consecutive terms. -/
def «partial» {M : Type*} [AddCommMonoid M] (f : ℕ → M) (n : ℕ) : M := ∑ k ∈ Finset.range (n * 1792), f k

/-- No blocks: the empty sum. -/
theorem partial_zero {M : Type*} [AddCommMonoid M] (f : ℕ → M) : «partial» f 0 = 0 := by
  unfold «partial»
  rw [Nat.zero_mul, Finset.range_zero, Finset.sum_empty]

/-- One more block: a sum over the first a + b naturals splits at a, and the tail is indexed from 0. -/
theorem partial_succ {M : Type*} [AddCommMonoid M] (f : ℕ → M) (n : ℕ) :
    «partial» f (n + 1) = «partial» f n + ∑ j : Fin 1792, f (n * 1792 + j.val) := by
  unfold «partial»
  rw [Nat.add_mul, Nat.one_mul, Finset.sum_range_add, Fin.sum_univ_eq_sum_range (fun j => f (n * 1792 + j)) 1792]

/-- All 28 blocks are the whole sum over the 50176 coordinates, since 28 · 1792 = 50176. -/
theorem partial_all {M : Type*} [AddCommMonoid M] (g : Fin 50176 → M) (f : ℕ → M) (hf : ∀ k : Fin 50176, f k.val = g k) :
    «partial» f 28 = ∑ k : Fin 50176, g k := by
  unfold «partial»
  rw [show 28 * 1792 = 50176 from rfl, ← Fin.sum_univ_eq_sum_range]
  exact Finset.sum_congr rfl fun k _ => hf k

end Cert.KernelIdeal.Fc1Value

end
-- ==== Proof.KI.R0Value.lean ====
/-
  The first region's result array.  With X the [512, 50176] activations, W the [1024, 50176] weights and b the bias as the
  region finds them: the accumulator after point t (column block j = t / 28, reduction block k = t % 28) holds, at (p, q),
  the sum of the first (k + 1) · 1792 products X(p, n) · W(512 j + q, n); the block written back at a last point is that sum
  over all 50176 n plus b(512 j + q); the 2 written-back blocks tile the [512, 1024] result.  Only the associativity
  and commutativity of + on the extended reals are used.
-/
import proofs.«157159_j31490700214886_2_alg».proof.Proof.KI.R0Pieces
import proofs.«157159_j31490700214886_2_alg».proof.Proof.KI.R0Blocks
import proofs.«157159_j31490700214886_2_alg».proof.Proof.Fc1Value
import proofs.«157159_j31490700214886_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Fc1Value

variable (V : (c : Dev nD) → (b : Ref sig .tc) → Buf (Elt Ideal) ((c : Thread nD τ).loc b))

/-- The arrays the region finds, and a point's input blocks, as vectors over the extended reals. -/
abbrev Xa (c : Dev nD) : Vec Ideal S512x50176 .f32 := V c main_v0
abbrev Wa (c : Dev nD) : Vec Ideal S1024x50176 .f32 := V c main_arg1
abbrev Ba (c : Dev nD) : Vec Ideal S1024 .f32 := V c main_arg2
abbrev b0 (c : Dev nD) (t : Fin cfg0.N) : Vec Ideal S512x1792 .f32 := iblk0 V c 0 t
abbrev b1 (c : Dev nD) (t : Fin cfg0.N) : Vec Ideal S512x1792 .f32 := iblk0 V c 1 t
abbrev b2 (c : Dev nD) (t : Fin cfg0.N) : Vec Ideal S512 .f32 := iblk0 V c 2 t

/-- The n-th product of row p of X with row o of W (zero past the row's end). -/
def term (c : Dev nD) (p : Fin 512) (o : Fin 1024) (n : ℕ) : EReal :=
  if h : n < 50176 then Xa V c (ix2 p ⟨n, h⟩) * Wa V c (ix2 o ⟨n, h⟩) else 0

/-- One point's partial product, as the next 1792 terms. -/
theorem prod_block (c : Dev nD) (t : Fin cfg0.N) (p q : Fin 512) (o : Fin 1024) (ho : o.val = t.val / 28 * 512 + q.val) :
    (∑ kk : Fin 1792, b0 V c t (ix2 p kk) * b1 V c t (ix2 q kk))
      = ∑ j : Fin 1792, term V c p o (t.val % 28 * 1792 + j.val) :=
  Finset.sum_congr rfl fun kk _ => by
    have h2 : t.val % 28 * 1792 + kk.val < 50176 := by have := kk.isLt; have := Nat.mod_lt t.val (by norm_num : 28 > 0); omega
    have h1 : t.val / 28 * 512 + q.val < 1024 := by rw [← ho]; exact o.isLt
    have e : (⟨t.val / 28 * 512 + q.val, h1⟩ : Fin 1024) = o := Fin.ext ho.symm
    have e0 : b0 V c t (ix2 p kk) = Xa V c (ix2 p ⟨t.val % 28 * 1792 + kk.val, h2⟩) := iblk0_0_apply V c t p kk h2
    have e1 : b1 V c t (ix2 q kk) = Wa V c (ix2 ⟨t.val / 28 * 512 + q.val, h1⟩ ⟨t.val % 28 * 1792 + kk.val, h2⟩) := iblk0_1_apply V c t q kk h1 h2
    rw [e0, e1, e]
    unfold term; rw [dif_pos h2]

/-- The accumulator after point n. -/
theorem acc_eq (c : Dev nD) : ∀ (n : ℕ) (hn : n < cfg0.N) (p q : Fin 512) (o : Fin 1024), o.val = n / 28 * 512 + q.val →
    (outsAt0 V c n hn).2 (ix2 p q) = Fc1Value.partial (term V c p o) (n % 28 + 1)
  | 0, hn, p, q, o, ho => by
    have h1 : ¬(⟨0, hn⟩ : Fin cfg0.N).val % 28 = 27 := by dsimp only; omega
    rw [outsAt0_first V c ⟨0, hn⟩ rfl h1]
    dsimp only
    rw [accFirst_eq, pay2_apply, pay1_apply, prod_block V c ⟨0, hn⟩ p q o ho, partial_succ, partial_zero]
  | n + 1, hn, p, q, o, ho => by
    by_cases h0 : (n + 1) % 28 = 0
    · have h1 : ¬(⟨n + 1, hn⟩ : Fin cfg0.N).val % 28 = 27 := by dsimp only; omega
      rw [outsAt0_first V c ⟨n + 1, hn⟩ h0 h1]
      dsimp only
      rw [accFirst_eq, pay2_apply, pay1_apply, prod_block V c ⟨n + 1, hn⟩ p q o ho]
      dsimp only
      rw [h0, partial_succ, partial_zero]
    · have hdiv : (n + 1) / 28 = n / 28 := by omega
      have hmod : (n + 1) % 28 = n % 28 + 1 := by omega
      have ih := acc_eq c n (Nat.lt_of_succ_lt hn) p q o (by rw [← hdiv]; exact ho)
      have ih' : (outsAt0 V c (n + 1 - 1) (Nat.lt_of_le_of_lt (Nat.sub_le _ _) hn)).2 (ix2 p q)
          = Fc1Value.partial (term V c p o) (n % 28 + 1) := ih
      by_cases h1 : (n + 1) % 28 = 27
      · rw [outsAt0_last V c ⟨n + 1, hn⟩ h0 h1]
        dsimp only
        rw [accLast_eq, pay2_apply, prod_block V c ⟨n + 1, hn⟩ p q o ho]
        dsimp only
        rw [ih', hmod]
        exact (partial_succ (term V c p o) (n % 28 + 1)).symm
      · rw [outsAt0_middle V c ⟨n + 1, hn⟩ h0 h1]
        dsimp only
        rw [accMiddle_eq, pay2_apply, prod_block V c ⟨n + 1, hn⟩ p q o ho]
        dsimp only
        rw [ih', hmod]
        exact (partial_succ (term V c p o) (n % 28 + 1)).symm

/-- The first projection, as the specification states it, of the arrays the region finds. -/
def fc1 (c : Dev nD) : Fin 512 → Fin 1024 → EReal :=
  Cert.Spec.lin (fun r k => Xa V c (ix2 r k)) (fun r k => Wa V c (ix2 r k)) (fun r => Ba V c (ix1 r))

/-- The block written back at a last point. -/
theorem out_last_apply (c : Dev nD) (t : Fin cfg0.N) (h1 : t.val % 28 = 27) (p q : Fin 512) (o : Fin 1024)
    (ho : o.val = t.val / 28 * 512 + q.val) :
    (outsAt0 V c t.val t.isLt).1 (ix2 p q) = fc1 V c p o := by
  have hN : cfg0.N = 56 := N_0
  have h0 : ¬t.val % 28 = 0 := by omega
  have hlt : t.val - 1 < cfg0.N := Nat.lt_of_le_of_lt (Nat.sub_le _ _) t.isLt
  have ih := acc_eq V c (t.val - 1) hlt p q o (by have : (t.val - 1) / 28 = t.val / 28 := by omega
                                                  rw [this]; exact ho)
  have hb : t.val / 28 * 512 + q.val < 1024 := by rw [← ho]; exact o.isLt
  have eo : (⟨t.val / 28 * 512 + q.val, hb⟩ : Fin 1024) = o := Fin.ext ho.symm
  rw [outsAt0_last V c t h0 h1]
  dsimp only
  rw [outLast_eq, pay3_apply, pay2_apply, prod_block V c t p q o ho]
  rw [ih, show (t.val - 1) % 28 + 1 = t.val % 28 from by omega, ← partial_succ, h1,
    partial_all (fun k : Fin 50176 => Xa V c (ix2 p k) * Wa V c (ix2 o k))
      (term V c p o) (fun k => by unfold term; rw [dif_pos k.isLt]),
    iblk0_2_apply V c t q hb, eo]
  rfl

/-- The [512, 1024] result array the region leaves. -/
def G0 (c : Dev nD) : Buf (Elt Ideal) ((c : Thread nD τ).loc main_v1) :=
  fun y => fc1 V c (y 0) (y 1)

theorem flushed0_eq (c : Dev nD) (t : Fin cfg0.N) (hf : (cfg0.win 3).flush t = true) :
    (dat0 V c).flushed 3 t = ((cfg0.win 3).blk t).view.read (Elt Ideal) (G0 V c) := by
  have h1 : t.val % 28 = 27 := (flush0_3 t).mp hf
  have hN : cfg0.N = 56 := N_0
  show (cfg0.win 3).cut (grid0.coords t) ((dat0 V c).after 3 t) = _
  rw [after0_3, cut3_id]
  funext y
  obtain ⟨p, q, rfl⟩ : ∃ (p q : Fin 512), y = ix2 p q := ⟨y 0, y 1, eq_ix2 y⟩
  have hb : t.val / 28 * 512 + q.val < 1024 := by have := q.isLt; have := t.isLt; omega
  rw [blk3_read_apply c (G0 V c) t p q hb]
  exact out_last_apply V c t h1 p q ⟨t.val / 28 * 512 + q.val, hb⟩ rfl

theorem final0 (c : Dev nD) : (dat0 V c).arrAt 3 cfg0.N = G0 V c :=
  (dat0 V c).arrAt_eq_of_cover 3 (G0 V c) (flushed0_eq V c) (cover3 c)

end Cert.KernelIdeal.Fr

end
-- ==== Proof.HeadValue.lean ====
/-
  The attention head's pure payloads, read index by index at the extended reals, equal the specification `Cert.Spec.head`.

  The chain: a bias row broadcast over the rows reads the bias at the column; each of the three matrix products into a
  zero accumulator is a plain finite sum over the contracted coordinate; a kept column (a vector cast to one column
  and broadcast along the rows) reads the vector at the row; the row maximum is a fold of `max`; the row sum is a finite
  sum; format changes are the identity on the extended reals. From these: a linear layer, the logits, the softmax, the
  attention-weighted mix, one attention block (used twice), and the head.
-/
import proofs.«157159_j31490700214886_2_alg».proof.Proof.Gen.KernelIdeal.Skeleton
import proofs.«157159_j31490700214886_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadValue

open Idealize.ShloMosaic Idealize.ShloMosaic.ValueIdx Cert.KernelIdeal Cert.KernelIdeal.Gen

/-! ## Layout operations at an index -/

/-- A bias vector cast to one row and broadcast over the rows reads, at (p, q), the bias at q. -/
theorem bias_apply (b : FVec Ideal S1024 .f32) (h₁ : S1024.ShapeCasts S1x1024) (h₂ : S1x1024.Broadcasts S512x1024)
    (p : Fin 512) (q : Fin 1024) :
    broadcastTo S512x1024 (shapeCast S1x1024 b h₁) h₂ (ix2 p q) = b (ix1 q) :=
  (broadcastTo_1b_ab_apply _ h₂ p q).trans (shapeCast_a_1a_apply b h₁ 0 q)

/-- A vector cast to one column reads, at (p, u), the vector at p. -/
theorem col_cast_apply (v : FVec Ideal S512 .f32) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- One column broadcast along the rows reads, at (p, q), the column at p. -/
theorem col_bcast_apply (v : FVec Ideal S512x1 .f32) (h : S512x1.Broadcasts S512x512) (p q : Fin 512) :
    broadcastTo S512x512 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A kept column: a vector cast to one column and broadcast along the rows reads, at (p, q), the vector at p. -/
theorem kept_col_apply (v : FVec Ideal S512 .f32) (h₁ : S512.ShapeCasts S512x1) (h₂ : S512x1.Broadcasts S512x512)
    (p q : Fin 512) :
    broadcastTo S512x512 (shapeCast S512x1 v h₁) h₂ (ix2 p q) = v (ix1 p) :=
  (col_bcast_apply _ h₂ p q).trans (col_cast_apply v h₁ p 0)

/-! ## The three matrix products into a zero accumulator, as plain sums

For each product: the operand indices at an output index and a contraction coordinate, axis by axis (a free axis reads
the output index, the contracted axis reads the contraction coordinate), then the sum re-indexed over the contracted
coordinate. -/

theorem mmA_lhs0 (i : S512x1024.Idx) (c : dot_S512x1024_S1024x1024_S512x1024_1_1_0_0_n_n.contr.Idx) :
    (dot_S512x1024_S1024x1024_S512x1024_1_1_0_0_n_n.lhsIdx i c 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mmA_lhs1 (i : S512x1024.Idx) (c : dot_S512x1024_S1024x1024_S512x1024_1_1_0_0_n_n.contr.Idx) :
    (dot_S512x1024_S1024x1024_S512x1024_1_1_0_0_n_n.lhsIdx i c 1).val = (c ⟨0, by decide⟩).val :=
  dot_S512x1024_S1024x1024_S512x1024_1_1_0_0_n_n.lhsIdx_val_of_single rfl i c
theorem mmA_rhs0 (i : S512x1024.Idx) (c : dot_S512x1024_S1024x1024_S512x1024_1_1_0_0_n_n.contr.Idx) :
    (dot_S512x1024_S1024x1024_S512x1024_1_1_0_0_n_n.rhsIdx i c 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem mmA_rhs1 (i : S512x1024.Idx) (c : dot_S512x1024_S1024x1024_S512x1024_1_1_0_0_n_n.contr.Idx) :
    (dot_S512x1024_S1024x1024_S512x1024_1_1_0_0_n_n.rhsIdx i c 1).val = (c ⟨0, by decide⟩).val :=
  dot_S512x1024_S1024x1024_S512x1024_1_1_0_0_n_n.rhsIdx_val_of_single rfl i c
/-- Rows times rows over 1024 columns: entry (p, q) of `l · rᵀ` is `∑ k, l (p, k) * r (q, k)`. -/
theorem mmA_apply (l : FVec Ideal S512x1024 .bf16) (r : FVec Ideal S1024x1024 .bf16) (p : Fin 512) (q : Fin 1024) :
    matmul (F := Ideal) dot_S512x1024_S1024x1024_S512x1024_1_1_0_0_n_n none l r (constant (F := Ideal) S512x1024 .f32 0x00000000#32) (ix2 p q)
      = ∑ k : Fin 1024, l (ix2 p k) * r (ix2 q k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact mmA_lhs0 _ _
    | ⟨1, _⟩ => exact (mmA_lhs1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact mmA_rhs0 _ _
    | ⟨1, _⟩ => exact (mmA_rhs1 _ _).trans hk)
  rw [el, er]

theorem mmB_lhs0 (i : S512x512.Idx) (c : dot_S512x1024_S512x1024_S512x512_1_1_0_0_n_n.contr.Idx) :
    (dot_S512x1024_S512x1024_S512x512_1_1_0_0_n_n.lhsIdx i c 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem mmB_lhs1 (i : S512x512.Idx) (c : dot_S512x1024_S512x1024_S512x512_1_1_0_0_n_n.contr.Idx) :
    (dot_S512x1024_S512x1024_S512x512_1_1_0_0_n_n.lhsIdx i c 1).val = (c ⟨0, by decide⟩).val :=
  dot_S512x1024_S512x1024_S512x512_1_1_0_0_n_n.lhsIdx_val_of_single rfl i c
theorem mmB_rhs0 (i : S512x512.Idx) (c : dot_S512x1024_S512x1024_S512x512_1_1_0_0_n_n.contr.Idx) :
    (dot_S512x1024_S512x1024_S512x512_1_1_0_0_n_n.rhsIdx i c 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem mmB_rhs1 (i : S512x512.Idx) (c : dot_S512x1024_S512x1024_S512x512_1_1_0_0_n_n.contr.Idx) :
    (dot_S512x1024_S512x1024_S512x512_1_1_0_0_n_n.rhsIdx i c 1).val = (c ⟨0, by decide⟩).val :=
  dot_S512x1024_S512x1024_S512x512_1_1_0_0_n_n.rhsIdx_val_of_single rfl i c
/-- Rows times rows, both of 512 rows: entry (p, q) of `l · rᵀ` is `∑ k, l (p, k) * r (q, k)`. -/
theorem mmB_apply (l : FVec Ideal S512x1024 .bf16) (r : FVec Ideal S512x1024 .bf16) (p : Fin 512) (q : Fin 512) :
    matmul (F := Ideal) dot_S512x1024_S512x1024_S512x512_1_1_0_0_n_n none l r (constant (F := Ideal) S512x512 .f32 0x00000000#32) (ix2 p q)
      = ∑ k : Fin 1024, l (ix2 p k) * r (ix2 q k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact mmB_lhs0 _ _
    | ⟨1, _⟩ => exact (mmB_lhs1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact mmB_rhs0 _ _
    | ⟨1, _⟩ => exact (mmB_rhs1 _ _).trans hk)
  rw [el, er]

theorem mmC_lhs0 (i : S512x1024.Idx) (c : dot_S512x512_S512x1024_S512x1024_1_0_0_1_n_n.contr.Idx) :
    (dot_S512x512_S512x1024_S512x1024_1_0_0_1_n_n.lhsIdx i c 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mmC_lhs1 (i : S512x1024.Idx) (c : dot_S512x512_S512x1024_S512x1024_1_0_0_1_n_n.contr.Idx) :
    (dot_S512x512_S512x1024_S512x1024_1_0_0_1_n_n.lhsIdx i c 1).val = (c ⟨0, by decide⟩).val :=
  dot_S512x512_S512x1024_S512x1024_1_0_0_1_n_n.lhsIdx_val_of_single rfl i c
theorem mmC_rhs1 (i : S512x1024.Idx) (c : dot_S512x512_S512x1024_S512x1024_1_0_0_1_n_n.contr.Idx) :
    (dot_S512x512_S512x1024_S512x1024_1_0_0_1_n_n.rhsIdx i c 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl
theorem mmC_rhs0 (i : S512x1024.Idx) (c : dot_S512x512_S512x1024_S512x1024_1_0_0_1_n_n.contr.Idx) :
    (dot_S512x512_S512x1024_S512x1024_1_0_0_1_n_n.rhsIdx i c 0).val = (c ⟨0, by decide⟩).val :=
  dot_S512x512_S512x1024_S512x1024_1_0_0_1_n_n.rhsIdx_val_of_single rfl i c
/-- Rows times columns over 512 rows: entry (p, q) of `l · r` is `∑ k, l (p, k) * r (k, q)`. -/
theorem mmC_apply (l : FVec Ideal S512x512 .bf16) (r : FVec Ideal S512x1024 .bf16) (p : Fin 512) (q : Fin 1024) :
    matmul (F := Ideal) dot_S512x512_S512x1024_S512x1024_1_0_0_1_n_n none l r (constant (F := Ideal) S512x1024 .f32 0x00000000#32) (ix2 p q)
      = ∑ k : Fin 512, l (ix2 p k) * r (ix2 k q) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p q) ((contrEquiv1 dot_S512x512_S512x1024_S512x1024_1_0_0_1_n_n 512 rfl rfl).symm k) = ix2 p k := funext fun a => Fin.ext (by
    match a with
    | ⟨0, _⟩ => exact mmC_lhs0 _ _
    | ⟨1, _⟩ => exact (mmC_lhs1 _ _).trans hk)
  have er : dot_S512x512_S512x1024_S512x1024_1_0_0_1_n_n.rhsIdx (ix2 p q) ((contrEquiv1 dot_S512x512_S512x1024_S512x1024_1_0_0_1_n_n 512 rfl rfl).symm k) = ix2 k q := funext fun a => Fin.ext (by
    match a with
    | ⟨0, _⟩ => exact (mmC_rhs0 _ _).trans hk
    | ⟨1, _⟩ => exact mmC_rhs1 _ _)
  rw [el, er]

/-! ## The stages of the kernel's arithmetic, named, and each read at an index

Each stage is the kernel's own operations on vectors; its lemma says what it reads at an index given what its inputs
read at theirs. -/

/-- A row reduction's source index over (p) with coordinate k on the reduced axis is (p, k). -/
theorem lift_row (h : S512x512.Reduces [1] S512) (p k : Fin 512) : h.lift (ix1 p) k = ix2 p k :=
  funext fun a => Fin.ext (by
    match a with
    | ⟨0, _⟩ => rfl
    | ⟨1, _⟩ => rfl)

/-- The kernel's linear layer: a product with the weight's rows, plus the bias row. -/
def kLin (X : FVec Ideal S512x1024 .bf16) (W : FVec Ideal S1024x1024 .bf16) (b : FVec Ideal S1024 .f32) : FVec Ideal S512x1024 .f32 :=
  addf (matmul dot_S512x1024_S1024x1024_S512x1024_1_1_0_0_n_n none X (shapeCast S1024x1024 W shapeCasts_S1024x1024_S1024x1024)
      (constant S512x1024 .f32 0x00000000#32))
    (broadcastTo S512x1024 (shapeCast S1x1024 b shapeCasts_S1024_S1x1024) broadcasts_S1x1024_S512x1024)

/-- The linear layer at (p, o) is `(∑ k, x p k * w o k) + b o`. -/
theorem kLin_apply (X : FVec Ideal S512x1024 .bf16) (W : FVec Ideal S1024x1024 .bf16) (b : FVec Ideal S1024 .f32)
    (x : Fin 512 → Fin 1024 → EReal) (hx : ∀ r k, X (ix2 r k) = x r k) (p : Fin 512) (o : Fin 1024) :
    kLin X W b (ix2 p o) = Cert.Spec.lin x (fun r k => W (ix2 r k)) (fun r => b (ix1 r)) p o := by
  unfold kLin Cert.Spec.lin
  rw [addf_apply, mmA_apply, bias_apply, shapeCast_self]
  exact congrArg (· + b (ix1 o)) (Finset.sum_congr rfl fun k _ => by rw [hx])

/-- The kernel's scaled logits: the product of the queries with the keys' rows, times the scale. -/
def kLogits (Q K : FVec Ideal S512x1024 .f32) : FVec Ideal S512x512 .f32 :=
  mulf (matmul dot_S512x1024_S512x1024_S512x512_1_1_0_0_n_n none (truncf .bf16 Q bitsLt_bf16_f32) (truncf .bf16 K bitsLt_bf16_f32)
      (constant S512x512 .f32 0x00000000#32))
    (broadcast S512x512 (Scalar.ofBits (F := Ideal) .f32 0x3D000000#32))

/-- The logits at (p, j) are `(∑ d, q p d * k j d) * c`. -/
theorem kLogits_apply (Q K : FVec Ideal S512x1024 .f32) (q k : Fin 512 → Fin 1024 → EReal)
    (hq : ∀ r d, Q (ix2 r d) = q r d) (hk : ∀ r d, K (ix2 r d) = k r d) (p j : Fin 512) :
    kLogits Q K (ix2 p j) = Cert.Spec.logits q k (Ideal.ofBits .f32 0x3D000000#32) p j := by
  unfold kLogits Cert.Spec.logits
  rw [mulf_apply, mmB_apply, broadcast_apply]
  exact congrArg (· * Ideal.ofBits .f32 0x3D000000#32) (Finset.sum_congr rfl fun d _ => by rw [truncf_apply, truncf_apply, hq, hk])

/-- The kernel's row maximum: the fold of the maximum from the start value, joined with the start value once more. -/
def kRowMax (s : FVec Ideal S512x512 .f32) : FVec Ideal S512 .f32 :=
  maximumf (broadcast S512 (Scalar.ofBits (F := Ideal) .f32 0xFF800000#32))
    (multiReduction .maximumf [1] S512 s 0xFF800000#32 reduces_S512x512_S512 (.inl rfl) rfl)

/-- The row maximum at p. -/
theorem kRowMax_apply (s : FVec Ideal S512x512 .f32) (ss : Fin 512 → Fin 512 → EReal)
    (hs : ∀ r j, s (ix2 r j) = ss r j) (p : Fin 512) :
    kRowMax s (ix1 p) = Cert.Spec.rowMax ss (Ideal.ofBits .f32 0xFF800000#32) p := by
  unfold kRowMax Cert.Spec.rowMax
  rw [maximumf_apply, broadcast_apply]
  refine congrArg (max (Ideal.ofBits .f32 0xFF800000#32)) ?_
  refine (Ideal.multiReduction_maximumf_single s 0xFF800000#32 reduces_S512x512_S512 (.inl rfl) rfl (ix1 p)).trans ?_
  refine congrArg (Finset.fold max (Ideal.ofBits .f32 0xFF800000#32) · Finset.univ) ?_
  funext j
  exact (congrArg s (lift_row reduces_S512x512_S512 p j)).trans (hs p j)

/-- The kernel's shifted exponentials: each entry minus its row's maximum, exponentiated. -/
def kExp (s : FVec Ideal S512x512 .f32) : FVec Ideal S512x512 .f32 :=
  exp (subf s (broadcastTo S512x512 (shapeCast S512x1 (kRowMax s) shapeCasts_S512_S512x1) broadcasts_S512x1_S512x512))

/-- The shifted exponential at (p, j). -/
theorem kExp_apply (s : FVec Ideal S512x512 .f32) (ss : Fin 512 → Fin 512 → EReal)
    (hs : ∀ r j, s (ix2 r j) = ss r j) (p j : Fin 512) :
    kExp s (ix2 p j) = Cert.Spec.expRow ss (Ideal.ofBits .f32 0xFF800000#32) p j := by
  unfold kExp Cert.Spec.expRow
  show Ideal.exp (s (ix2 p j) - _) = _
  rw [kept_col_apply, kRowMax_apply s ss hs, hs]

/-- The kernel's normalization: each entry over its row's sum. -/
def kNorm (e : FVec Ideal S512x512 .f32) : FVec Ideal S512x512 .f32 :=
  divf e (broadcastTo S512x512 (shapeCast S512x1
    (multiReduction .add [1] S512 e 0x00000000#32 reduces_S512x512_S512 (.inl rfl) rfl) shapeCasts_S512_S512x1) broadcasts_S512x1_S512x512)

/-- The normalized entry at (p, j): the entry over the sum of its row. -/
theorem kNorm_apply (e : FVec Ideal S512x512 .f32) (es : Fin 512 → Fin 512 → EReal)
    (he : ∀ r j, e (ix2 r j) = es r j) (p j : Fin 512) :
    kNorm e (ix2 p j) = Ideal.div (es p j) (∑ j' : Fin 512, es p j') := by
  unfold kNorm
  rw [divf_apply, kept_col_apply, he]
  refine congrArg (Ideal.div (es p j)) ?_
  refine (Ideal.multiReduction_add_single e 0x00000000#32 reduces_S512x512_S512 (.inl rfl) rfl (ix1 p)).trans ?_
  refine Finset.sum_congr rfl fun k _ => ?_
  exact (congrArg e (lift_row reduces_S512x512_S512 p k)).trans (he p k)

/-- The kernel's mix: the weights times the rows. -/
def kMix (P : FVec Ideal S512x512 .f32) (X : FVec Ideal S512x1024 .bf16) : FVec Ideal S512x1024 .f32 :=
  matmul dot_S512x512_S512x1024_S512x1024_1_0_0_1_n_n none (truncf .bf16 P bitsLt_bf16_f32) X (constant S512x1024 .f32 0x00000000#32)

/-- The mix at (p, d) is `∑ j, w p j * x j d`. -/
theorem kMix_apply (P : FVec Ideal S512x512 .f32) (X : FVec Ideal S512x1024 .bf16)
    (w : Fin 512 → Fin 512 → EReal) (x : Fin 512 → Fin 1024 → EReal)
    (hw : ∀ r j, P (ix2 r j) = w r j) (hx : ∀ r d, X (ix2 r d) = x r d) (p : Fin 512) (d : Fin 1024) :
    kMix P X (ix2 p d) = Cert.Spec.mix w x p d := by
  unfold kMix Cert.Spec.mix
  rw [mmC_apply]
  exact Finset.sum_congr rfl fun j _ => by rw [truncf_apply, hw, hx]

/-- The kernel's last projection of an attention block, before its bias. -/
def kProj (M : FVec Ideal S512x1024 .f32) (W : FVec Ideal S1024x1024 .bf16) : FVec Ideal S512x1024 .f32 :=
  matmul dot_S512x1024_S1024x1024_S512x1024_1_1_0_0_n_n none (truncf .bf16 M bitsLt_bf16_f32)
    (shapeCast S1024x1024 W shapeCasts_S1024x1024_S1024x1024) (constant S512x1024 .f32 0x00000000#32)

/-- The projection at (p, o) is `∑ k, m p k * w o k`. -/
theorem kProj_apply (M : FVec Ideal S512x1024 .f32) (W : FVec Ideal S1024x1024 .bf16)
    (m : Fin 512 → Fin 1024 → EReal) (hm : ∀ r k, M (ix2 r k) = m r k) (p : Fin 512) (o : Fin 1024) :
    kProj M W (ix2 p o) = ∑ k : Fin 1024, m p k * W (ix2 o k) := by
  unfold kProj
  rw [mmA_apply, shapeCast_self]
  exact Finset.sum_congr rfl fun k _ => by rw [truncf_apply, hm]

/-! ## One attention block, before its last bias -/

/-- The kernel's attention block before its last bias: queries and keys from two linear layers, scaled logits, shifted
    exponentials normalized by their row sums, the mix of the rows, the last projection. -/
def kAttn (X : FVec Ideal S512x1024 .bf16) (W1 : FVec Ideal S1024x1024 .bf16) (b1 : FVec Ideal S1024 .f32)
    (W2 : FVec Ideal S1024x1024 .bf16) (b2 : FVec Ideal S1024 .f32) (CW : FVec Ideal S1024x1024 .bf16) : FVec Ideal S512x1024 .f32 :=
  kProj (kMix (kNorm (kExp (kLogits (kLin X W1 b1) (kLin X W2 b2)))) X) CW

/-- With its last bias added, the block at (p, o) is the specification's attention block. -/
theorem kAttn_apply (X : FVec Ideal S512x1024 .bf16) (W1 : FVec Ideal S1024x1024 .bf16) (b1 : FVec Ideal S1024 .f32)
    (W2 : FVec Ideal S1024x1024 .bf16) (b2 : FVec Ideal S1024 .f32) (CW : FVec Ideal S1024x1024 .bf16)
    (x : Fin 512 → Fin 1024 → EReal) (hx : ∀ r k, X (ix2 r k) = x r k) (cb : FVec Ideal S1024 .f32) (p : Fin 512) (o : Fin 1024) :
    kAttn X W1 b1 W2 b2 CW (ix2 p o) + cb (ix1 o)
      = Cert.Spec.attn x (fun r k => W1 (ix2 r k)) (fun r => b1 (ix1 r)) (fun r k => W2 (ix2 r k)) (fun r => b2 (ix1 r))
          (fun r k => CW (ix2 r k)) (fun r => cb (ix1 r)) (Ideal.ofBits .f32 0x3D000000#32) (Ideal.ofBits .f32 0xFF800000#32) p o := by
  have hq := kLin_apply X W1 b1 x hx
  have hk := kLin_apply X W2 b2 x hx
  have hs := kLogits_apply _ _ _ _ hq hk
  have he := kExp_apply _ _ hs
  have hn := kNorm_apply _ _ he
  have hm := kMix_apply _ _ _ _ hn hx
  exact congrArg (· + cb (ix1 o)) (kProj_apply _ CW _ hm p o)

/-! ## The payloads as compositions of the stages -/

/-- The first residual and relu: the input plus the first attention block with its bias, joined with zero. -/
def kRes (X A : FVec Ideal S512x1024 .f32) (cb : FVec Ideal S1024 .f32) : FVec Ideal S512x1024 .f32 :=
  maximumf (addf X (addf A (broadcastTo S512x1024 (shapeCast S1x1024 cb shapeCasts_S1024_S1x1024) broadcasts_S1x1024_S512x1024)))
    (broadcast S512x1024 (Scalar.ofBits (F := Ideal) .f32 0x00000000#32))

/-- The first residual at (p, o). -/
theorem kRes_apply (X A : FVec Ideal S512x1024 .f32) (cb : FVec Ideal S1024 .f32) (p : Fin 512) (o : Fin 1024) :
    kRes X A cb (ix2 p o) = max (X (ix2 p o) + (A (ix2 p o) + cb (ix1 o))) (Ideal.ofBits .f32 0x00000000#32) := by
  unfold kRes
  rw [maximumf_apply, addf_apply, addf_apply, bias_apply, broadcast_apply]
  rfl

/-- The last residual and relu: the second linear layer's value plus the second attention block with its bias, plus
    the input, joined with zero. The second block's exponentials come in unnormalized. -/
def kOut (X H : FVec Ideal S512x1024 .f32) (H16 : FVec Ideal S512x1024 .bf16) (E : FVec Ideal S512x512 .f32)
    (CW : FVec Ideal S1024x1024 .bf16) (cb : FVec Ideal S1024 .f32) : FVec Ideal S512x1024 .f32 :=
  maximumf (addf (addf H (addf (kProj (kMix (kNorm E) H16) CW)
      (broadcastTo S512x1024 (shapeCast S1x1024 cb shapeCasts_S1024_S1x1024) broadcasts_S1x1024_S512x1024))) X)
    (broadcast S512x1024 (Scalar.ofBits (F := Ideal) .f32 0x00000000#32))

/-- The last residual at (p, o), given what its inputs read. -/
theorem kOut_apply (X H : FVec Ideal S512x1024 .f32) (H16 : FVec Ideal S512x1024 .bf16) (E : FVec Ideal S512x512 .f32)
    (CW : FVec Ideal S1024x1024 .bf16) (cb : FVec Ideal S1024 .f32)
    (h : Fin 512 → Fin 1024 → EReal) (s : Fin 512 → Fin 512 → EReal) (ninf : EReal)
    (hH : ∀ r k, H (ix2 r k) = h r k) (hH16 : ∀ r k, H16 (ix2 r k) = h r k)
    (hE : ∀ r j, E (ix2 r j) = Cert.Spec.expRow s ninf r j) (p : Fin 512) (o : Fin 1024) :
    kOut X H H16 E CW cb (ix2 p o)
      = max ((h p o + Cert.Spec.lin (Cert.Spec.mix (Cert.Spec.softmax s ninf) h) (fun r k => CW (ix2 r k)) (fun r => cb (ix1 r)) p o)
          + X (ix2 p o)) (Ideal.ofBits .f32 0x00000000#32) := by
  have hn := kNorm_apply E _ hE
  have hm := kMix_apply _ H16 (Cert.Spec.softmax s ninf) h hn hH16
  unfold kOut
  rw [maximumf_apply, addf_apply, addf_apply, addf_apply, bias_apply, broadcast_apply, hH, kProj_apply _ CW _ hm]
  rfl

/-- The first attention block's payload is the block on the input's 16-bit copy. -/
theorem pay3_eq (v0 : Vec Ideal S512x1024 .f32) (v3 : Vec Ideal S1024x1024 .bf16) (v6 : Vec Ideal S1024 .f32)
    (v10 : Vec Ideal S1024x1024 .bf16) (v13 : Vec Ideal S1024 .f32) (v36 : Vec Ideal S1024x1024 .bf16) :
    k1_pay3 (F := Ideal) v0 v3 v6 v10 v13 v36 = kAttn (truncf .bf16 (k1_pay2 (F := Ideal) v0) bitsLt_bf16_f32) v3 v6 v10 v13 v36 := rfl

/-- The second linear layer's payload is the layer on the first residual's 16-bit copy. -/
theorem pay4_eq (v1 v38 : FVec Ideal S512x1024 .f32) (v39 : Vec Ideal S1024 .f32) (v47 : Vec Ideal S1024x1024 .bf16)
    (v50 : Vec Ideal S1024 .f32) :
    k1_pay4 (F := Ideal) v1 v38 v39 v47 v50 = kLin (truncf .bf16 (kRes v1 v38 v39) bitsLt_bf16_f32) v47 v50 := rfl

/-- Its 16-bit copy. -/
theorem pay5_eq (v1 v38 : FVec Ideal S512x1024 .f32) (v39 : Vec Ideal S1024 .f32) (v47 : Vec Ideal S1024x1024 .bf16)
    (v50 : Vec Ideal S1024 .f32) :
    k1_pay5 (F := Ideal) v1 v38 v39 v47 v50 = truncf .bf16 (k1_pay4 (F := Ideal) v1 v38 v39 v47 v50) bitsLt_bf16_f32 := rfl

/-- The second block's exponentials are the shifted exponentials of its logits. -/
theorem pay6_eq (v1 v38 : FVec Ideal S512x1024 .f32) (v39 : Vec Ideal S1024 .f32) (v47 : Vec Ideal S1024x1024 .bf16)
    (v50 : Vec Ideal S1024 .f32) (v55 : Vec Ideal S1024x1024 .bf16) (v58 : Vec Ideal S1024 .f32)
    (v62 : Vec Ideal S1024x1024 .bf16) (v65 : Vec Ideal S1024 .f32) :
    k1_pay6 (F := Ideal) v1 v38 v39 v47 v50 v55 v58 v62 v65
      = kExp (kLogits (kLin (k1_pay5 (F := Ideal) v1 v38 v39 v47 v50) v55 v58) (kLin (k1_pay5 (F := Ideal) v1 v38 v39 v47 v50) v62 v65)) := rfl

/-- The stored payload is the last residual. -/
theorem pay1_eq (v1 v53 : FVec Ideal S512x1024 .f32) (v54 : FVec Ideal S512x1024 .bf16) (v80 : FVec Ideal S512x512 .f32)
    (v88 : Vec Ideal S1024x1024 .bf16) (v91 : Vec Ideal S1024 .f32) :
    k1_pay1 (F := Ideal) v1 v53 v54 v80 v88 v91 = kOut v1 v53 v54 v80 v88 v91 := rfl

/-- The 16-bit copy of a vector reads the vector. -/
theorem trunc16_apply {s : Shape} (a : FVec Ideal s .f32) (j : s.Idx) :
    (truncf .bf16 a bitsLt_bf16_f32 : FVec Ideal s .bf16) j = a j := rfl

/-! ## The head -/

/-- The stored payload of the attention head, at (i, o), is the specification's head of the loaded arrays. -/
theorem head_eq (v0 : Vec Ideal S512x1024 .f32) (v3 : Vec Ideal S1024x1024 .bf16) (v6 : Vec Ideal S1024 .f32) (v10 : Vec Ideal S1024x1024 .bf16) (v13 : Vec Ideal S1024 .f32) (v36 : Vec Ideal S1024x1024 .bf16) (v39 : Vec Ideal S1024 .f32) (v47 : Vec Ideal S1024x1024 .bf16) (v50 : Vec Ideal S1024 .f32) (v55 : Vec Ideal S1024x1024 .bf16) (v58 : Vec Ideal S1024 .f32) (v62 : Vec Ideal S1024x1024 .bf16) (v65 : Vec Ideal S1024 .f32) (v88 : Vec Ideal S1024x1024 .bf16) (v91 : Vec Ideal S1024 .f32) (i : Fin 512) (o : Fin 1024) :
    Gen.k1_pay1 (F := Ideal) (Gen.k1_pay2 v0)
        (Gen.k1_pay4 (Gen.k1_pay2 v0) (Gen.k1_pay3 v0 v3 v6 v10 v13 v36) v39 v47 v50)
        (Gen.k1_pay5 (Gen.k1_pay2 v0) (Gen.k1_pay3 v0 v3 v6 v10 v13 v36) v39 v47 v50)
        (Gen.k1_pay6 (Gen.k1_pay2 v0) (Gen.k1_pay3 v0 v3 v6 v10 v13 v36) v39 v47 v50 v55 v58 v62 v65) v88 v91 (ValueIdx.ix2 i o)
      = Cert.Spec.head (fun r k => v0 (ValueIdx.ix2 r k))
          (fun r k => v47 (ValueIdx.ix2 r k)) (fun r => v50 (ValueIdx.ix1 r))
          (fun r k => v3 (ValueIdx.ix2 r k)) (fun r => v6 (ValueIdx.ix1 r))
          (fun r k => v10 (ValueIdx.ix2 r k)) (fun r => v13 (ValueIdx.ix1 r))
          (fun r k => v36 (ValueIdx.ix2 r k)) (fun r => v39 (ValueIdx.ix1 r))
          (fun r k => v55 (ValueIdx.ix2 r k)) (fun r => v58 (ValueIdx.ix1 r))
          (fun r k => v62 (ValueIdx.ix2 r k)) (fun r => v65 (ValueIdx.ix1 r))
          (fun r k => v88 (ValueIdx.ix2 r k)) (fun r => v91 (ValueIdx.ix1 r))
          (Ideal.ofBits .f32 0x3D000000#32) (Ideal.ofBits .f32 0xFF800000#32) (Ideal.ofBits .f32 0x00000000#32) i o := by
  -- the input, and its 16-bit copy, read the loaded array
  have hX : ∀ r k, k1_pay2 (F := Ideal) v0 (ix2 r k) = v0 (ix2 r k) := fun r k => by
    unfold k1_pay2; rw [shapeCast_self]
  have hX16 : ∀ r k, (truncf .bf16 (k1_pay2 (F := Ideal) v0) bitsLt_bf16_f32 : FVec Ideal S512x1024 .bf16) (ix2 r k) = v0 (ix2 r k) :=
    fun r k => (trunc16_apply (k1_pay2 (F := Ideal) v0) (ix2 r k)).trans (hX r k)
  -- the first attention block with its bias
  have hr1 := fun r c => kAttn_apply (truncf .bf16 (k1_pay2 (F := Ideal) v0) bitsLt_bf16_f32) v3 v6 v10 v13 v36
    (fun r k => v0 (ix2 r k)) hX16 v39 r c
  -- the first residual
  have hh : ∀ r c, kRes (k1_pay2 (F := Ideal) v0) (k1_pay3 (F := Ideal) v0 v3 v6 v10 v13 v36) v39 (ix2 r c)
      = max (v0 (ix2 r c) + Cert.Spec.attn (fun r k => v0 (ix2 r k)) (fun r k => v3 (ix2 r k)) (fun r => v6 (ix1 r))
          (fun r k => v10 (ix2 r k)) (fun r => v13 (ix1 r)) (fun r k => v36 (ix2 r k)) (fun r => v39 (ix1 r))
          (Ideal.ofBits .f32 0x3D000000#32) (Ideal.ofBits .f32 0xFF800000#32) r c) (Ideal.ofBits .f32 0x00000000#32) :=
    fun r c => by rw [kRes_apply, hX, pay3_eq, hr1]
  -- the second linear layer, and its 16-bit copy
  have hh2 := fun r c => (congrFun (pay4_eq (k1_pay2 (F := Ideal) v0) (k1_pay3 (F := Ideal) v0 v3 v6 v10 v13 v36) v39 v47 v50) (ix2 r c)).trans
    (kLin_apply _ v47 v50 _ (fun r k => (trunc16_apply (kRes (k1_pay2 (F := Ideal) v0) (k1_pay3 (F := Ideal) v0 v3 v6 v10 v13 v36) v39) (ix2 r k)).trans (hh r k)) r c)
  have hh16 := fun r c => (congrFun (pay5_eq (k1_pay2 (F := Ideal) v0) (k1_pay3 (F := Ideal) v0 v3 v6 v10 v13 v36) v39 v47 v50) (ix2 r c)).trans
    ((trunc16_apply (k1_pay4 (F := Ideal) (k1_pay2 (F := Ideal) v0) (k1_pay3 (F := Ideal) v0 v3 v6 v10 v13 v36) v39 v47 v50) (ix2 r c)).trans (hh2 r c))
  -- the second block's exponentials
  have hE := fun r j => (congrFun (pay6_eq (k1_pay2 (F := Ideal) v0) (k1_pay3 (F := Ideal) v0 v3 v6 v10 v13 v36) v39 v47 v50 v55 v58 v62 v65) (ix2 r j)).trans
    (kExp_apply _ _ (kLogits_apply _ _ _ _ (kLin_apply _ v55 v58 _ hh16) (kLin_apply _ v62 v65 _ hh16)) r j)
  -- the last residual
  rw [pay1_eq]
  refine (kOut_apply _ _ _ _ v88 v91 _ _ _ hh2 hh16 hE i o).trans ?_
  rw [hX]
  rfl

end Cert.KernelIdeal.HeadValue

end
-- ==== Proof.KI.R1Value.lean ====
/-
  The second region's result array as a value over the extended reals.  The grid has one point and every window's
  one block is its whole array, so the output's buffer after the body is the stored value of the fifteen argument
  arrays themselves; the stored value at (i, o) is the specification's head of those arrays; and the one write-back
  covers the result array, which therefore ends holding that function.
-/
import proofs.«157159_j31490700214886_2_alg».proof.Proof.KI.R1
import proofs.«157159_j31490700214886_2_alg».proof.Proof.HeadValue
import proofs.«157159_j31490700214886_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Each input's one block is its whole array

The grid's one point has block index 0 on every axis, and a window's block size is its array's size: the block is
the array read through its whole rectangle at offset zero. -/

theorem iblk1_0_eq (c : Dev nD) (t : Fin cfg1.N) : (iblk1 V c 0 t : Vec Ideal S512x1024 .f32) = V c main_v1 := by
  obtain rfl : t = t1_0 := fin_N1 t
  have hz : (fun a => win1_0.index t1_0 a * main_v1.ty.shape.size a) = fun _ => 0 := funext fun a => by fin_cases a <;> decide +kernel
  exact Memref.read_access_unit_zero (Elt Ideal) main_v1 hz (fun a => by rw [congrFun hz a]; simp) (V c main_v1)

theorem iblk1_1_eq (c : Dev nD) (t : Fin cfg1.N) : (iblk1 V c 1 t : Vec Ideal S1024x1024 .bf16) = V c main_v2 := by
  obtain rfl : t = t1_0 := fin_N1 t
  have hz : (fun a => win1_1.index t1_0 a * main_v2.ty.shape.size a) = fun _ => 0 := funext fun a => by fin_cases a <;> decide +kernel
  exact Memref.read_access_unit_zero (Elt Ideal) main_v2 hz (fun a => by rw [congrFun hz a]; simp) (V c main_v2)

theorem iblk1_2_eq (c : Dev nD) (t : Fin cfg1.N) : (iblk1 V c 2 t : Vec Ideal S1024 .f32) = V c main_arg4 := by
  obtain rfl : t = t1_0 := fin_N1 t
  have hz : (fun a => win1_2.index t1_0 a * main_arg4.ty.shape.size a) = fun _ => 0 := funext fun a => by fin_cases a; decide +kernel
  exact Memref.read_access_unit_zero (Elt Ideal) main_arg4 hz (fun a => by rw [congrFun hz a]; simp) (V c main_arg4)

theorem iblk1_3_eq (c : Dev nD) (t : Fin cfg1.N) : (iblk1 V c 3 t : Vec Ideal S1024x1024 .bf16) = V c main_v3 := by
  obtain rfl : t = t1_0 := fin_N1 t
  have hz : (fun a => win1_3.index t1_0 a * main_v3.ty.shape.size a) = fun _ => 0 := funext fun a => by fin_cases a <;> decide +kernel
  exact Memref.read_access_unit_zero (Elt Ideal) main_v3 hz (fun a => by rw [congrFun hz a]; simp) (V c main_v3)

theorem iblk1_4_eq (c : Dev nD) (t : Fin cfg1.N) : (iblk1 V c 4 t : Vec Ideal S1024 .f32) = V c main_arg6 := by
  obtain rfl : t = t1_0 := fin_N1 t
  have hz : (fun a => win1_4.index t1_0 a * main_arg6.ty.shape.size a) = fun _ => 0 := funext fun a => by fin_cases a; decide +kernel
  exact Memref.read_access_unit_zero (Elt Ideal) main_arg6 hz (fun a => by rw [congrFun hz a]; simp) (V c main_arg6)

theorem iblk1_5_eq (c : Dev nD) (t : Fin cfg1.N) : (iblk1 V c 5 t : Vec Ideal S1024x1024 .bf16) = V c main_v4 := by
  obtain rfl : t = t1_0 := fin_N1 t
  have hz : (fun a => win1_5.index t1_0 a * main_v4.ty.shape.size a) = fun _ => 0 := funext fun a => by fin_cases a <;> decide +kernel
  exact Memref.read_access_unit_zero (Elt Ideal) main_v4 hz (fun a => by rw [congrFun hz a]; simp) (V c main_v4)

theorem iblk1_6_eq (c : Dev nD) (t : Fin cfg1.N) : (iblk1 V c 6 t : Vec Ideal S1024 .f32) = V c main_arg8 := by
  obtain rfl : t = t1_0 := fin_N1 t
  have hz : (fun a => win1_6.index t1_0 a * main_arg8.ty.shape.size a) = fun _ => 0 := funext fun a => by fin_cases a; decide +kernel
  exact Memref.read_access_unit_zero (Elt Ideal) main_arg8 hz (fun a => by rw [congrFun hz a]; simp) (V c main_arg8)

theorem iblk1_7_eq (c : Dev nD) (t : Fin cfg1.N) : (iblk1 V c 7 t : Vec Ideal S1024x1024 .bf16) = V c main_v5 := by
  obtain rfl : t = t1_0 := fin_N1 t
  have hz : (fun a => win1_7.index t1_0 a * main_v5.ty.shape.size a) = fun _ => 0 := funext fun a => by fin_cases a <;> decide +kernel
  exact Memref.read_access_unit_zero (Elt Ideal) main_v5 hz (fun a => by rw [congrFun hz a]; simp) (V c main_v5)

theorem iblk1_8_eq (c : Dev nD) (t : Fin cfg1.N) : (iblk1 V c 8 t : Vec Ideal S1024 .f32) = V c main_arg10 := by
  obtain rfl : t = t1_0 := fin_N1 t
  have hz : (fun a => win1_8.index t1_0 a * main_arg10.ty.shape.size a) = fun _ => 0 := funext fun a => by fin_cases a; decide +kernel
  exact Memref.read_access_unit_zero (Elt Ideal) main_arg10 hz (fun a => by rw [congrFun hz a]; simp) (V c main_arg10)

theorem iblk1_9_eq (c : Dev nD) (t : Fin cfg1.N) : (iblk1 V c 9 t : Vec Ideal S1024x1024 .bf16) = V c main_v6 := by
  obtain rfl : t = t1_0 := fin_N1 t
  have hz : (fun a => win1_9.index t1_0 a * main_v6.ty.shape.size a) = fun _ => 0 := funext fun a => by fin_cases a <;> decide +kernel
  exact Memref.read_access_unit_zero (Elt Ideal) main_v6 hz (fun a => by rw [congrFun hz a]; simp) (V c main_v6)

theorem iblk1_10_eq (c : Dev nD) (t : Fin cfg1.N) : (iblk1 V c 10 t : Vec Ideal S1024 .f32) = V c main_arg12 := by
  obtain rfl : t = t1_0 := fin_N1 t
  have hz : (fun a => win1_10.index t1_0 a * main_arg12.ty.shape.size a) = fun _ => 0 := funext fun a => by fin_cases a; decide +kernel
  exact Memref.read_access_unit_zero (Elt Ideal) main_arg12 hz (fun a => by rw [congrFun hz a]; simp) (V c main_arg12)

theorem iblk1_11_eq (c : Dev nD) (t : Fin cfg1.N) : (iblk1 V c 11 t : Vec Ideal S1024x1024 .bf16) = V c main_v7 := by
  obtain rfl : t = t1_0 := fin_N1 t
  have hz : (fun a => win1_11.index t1_0 a * main_v7.ty.shape.size a) = fun _ => 0 := funext fun a => by fin_cases a <;> decide +kernel
  exact Memref.read_access_unit_zero (Elt Ideal) main_v7 hz (fun a => by rw [congrFun hz a]; simp) (V c main_v7)

theorem iblk1_12_eq (c : Dev nD) (t : Fin cfg1.N) : (iblk1 V c 12 t : Vec Ideal S1024 .f32) = V c main_arg14 := by
  obtain rfl : t = t1_0 := fin_N1 t
  have hz : (fun a => win1_12.index t1_0 a * main_arg14.ty.shape.size a) = fun _ => 0 := funext fun a => by fin_cases a; decide +kernel
  exact Memref.read_access_unit_zero (Elt Ideal) main_arg14 hz (fun a => by rw [congrFun hz a]; simp) (V c main_arg14)

theorem iblk1_13_eq (c : Dev nD) (t : Fin cfg1.N) : (iblk1 V c 13 t : Vec Ideal S1024x1024 .bf16) = V c main_v8 := by
  obtain rfl : t = t1_0 := fin_N1 t
  have hz : (fun a => win1_13.index t1_0 a * main_v8.ty.shape.size a) = fun _ => 0 := funext fun a => by fin_cases a <;> decide +kernel
  exact Memref.read_access_unit_zero (Elt Ideal) main_v8 hz (fun a => by rw [congrFun hz a]; simp) (V c main_v8)

theorem iblk1_14_eq (c : Dev nD) (t : Fin cfg1.N) : (iblk1 V c 14 t : Vec Ideal S1024 .f32) = V c main_arg16 := by
  obtain rfl : t = t1_0 := fin_N1 t
  have hz : (fun a => win1_14.index t1_0 a * main_arg16.ty.shape.size a) = fun _ => 0 := funext fun a => by fin_cases a; decide +kernel
  exact Memref.read_access_unit_zero (Elt Ideal) main_arg16 hz (fun a => by rw [congrFun hz a]; simp) (V c main_arg16)

/-! The same, at an index. -/
theorem iblk1_0_apply (c : Dev nD) (t : Fin cfg1.N) (r : Fin 512) (k : Fin 1024) :
    (iblk1 V c 0 t : Vec Ideal S512x1024 .f32) (ix2 r k) = (V c main_v1 : Vec Ideal S512x1024 .f32) (ix2 r k) :=
  congrFun (iblk1_0_eq V c t) (ix2 r k)
theorem iblk1_1_apply (c : Dev nD) (t : Fin cfg1.N) (r : Fin 1024) (k : Fin 1024) :
    (iblk1 V c 1 t : Vec Ideal S1024x1024 .bf16) (ix2 r k) = (V c main_v2 : Vec Ideal S1024x1024 .bf16) (ix2 r k) :=
  congrFun (iblk1_1_eq V c t) (ix2 r k)
theorem iblk1_2_apply (c : Dev nD) (t : Fin cfg1.N) (r : Fin 1024) :
    (iblk1 V c 2 t : Vec Ideal S1024 .f32) (ix1 r) = (V c main_arg4 : Vec Ideal S1024 .f32) (ix1 r) :=
  congrFun (iblk1_2_eq V c t) (ix1 r)
theorem iblk1_3_apply (c : Dev nD) (t : Fin cfg1.N) (r : Fin 1024) (k : Fin 1024) :
    (iblk1 V c 3 t : Vec Ideal S1024x1024 .bf16) (ix2 r k) = (V c main_v3 : Vec Ideal S1024x1024 .bf16) (ix2 r k) :=
  congrFun (iblk1_3_eq V c t) (ix2 r k)
theorem iblk1_4_apply (c : Dev nD) (t : Fin cfg1.N) (r : Fin 1024) :
    (iblk1 V c 4 t : Vec Ideal S1024 .f32) (ix1 r) = (V c main_arg6 : Vec Ideal S1024 .f32) (ix1 r) :=
  congrFun (iblk1_4_eq V c t) (ix1 r)
theorem iblk1_5_apply (c : Dev nD) (t : Fin cfg1.N) (r : Fin 1024) (k : Fin 1024) :
    (iblk1 V c 5 t : Vec Ideal S1024x1024 .bf16) (ix2 r k) = (V c main_v4 : Vec Ideal S1024x1024 .bf16) (ix2 r k) :=
  congrFun (iblk1_5_eq V c t) (ix2 r k)
theorem iblk1_6_apply (c : Dev nD) (t : Fin cfg1.N) (r : Fin 1024) :
    (iblk1 V c 6 t : Vec Ideal S1024 .f32) (ix1 r) = (V c main_arg8 : Vec Ideal S1024 .f32) (ix1 r) :=
  congrFun (iblk1_6_eq V c t) (ix1 r)
theorem iblk1_7_apply (c : Dev nD) (t : Fin cfg1.N) (r : Fin 1024) (k : Fin 1024) :
    (iblk1 V c 7 t : Vec Ideal S1024x1024 .bf16) (ix2 r k) = (V c main_v5 : Vec Ideal S1024x1024 .bf16) (ix2 r k) :=
  congrFun (iblk1_7_eq V c t) (ix2 r k)
theorem iblk1_8_apply (c : Dev nD) (t : Fin cfg1.N) (r : Fin 1024) :
    (iblk1 V c 8 t : Vec Ideal S1024 .f32) (ix1 r) = (V c main_arg10 : Vec Ideal S1024 .f32) (ix1 r) :=
  congrFun (iblk1_8_eq V c t) (ix1 r)
theorem iblk1_9_apply (c : Dev nD) (t : Fin cfg1.N) (r : Fin 1024) (k : Fin 1024) :
    (iblk1 V c 9 t : Vec Ideal S1024x1024 .bf16) (ix2 r k) = (V c main_v6 : Vec Ideal S1024x1024 .bf16) (ix2 r k) :=
  congrFun (iblk1_9_eq V c t) (ix2 r k)
theorem iblk1_10_apply (c : Dev nD) (t : Fin cfg1.N) (r : Fin 1024) :
    (iblk1 V c 10 t : Vec Ideal S1024 .f32) (ix1 r) = (V c main_arg12 : Vec Ideal S1024 .f32) (ix1 r) :=
  congrFun (iblk1_10_eq V c t) (ix1 r)
theorem iblk1_11_apply (c : Dev nD) (t : Fin cfg1.N) (r : Fin 1024) (k : Fin 1024) :
    (iblk1 V c 11 t : Vec Ideal S1024x1024 .bf16) (ix2 r k) = (V c main_v7 : Vec Ideal S1024x1024 .bf16) (ix2 r k) :=
  congrFun (iblk1_11_eq V c t) (ix2 r k)
theorem iblk1_12_apply (c : Dev nD) (t : Fin cfg1.N) (r : Fin 1024) :
    (iblk1 V c 12 t : Vec Ideal S1024 .f32) (ix1 r) = (V c main_arg14 : Vec Ideal S1024 .f32) (ix1 r) :=
  congrFun (iblk1_12_eq V c t) (ix1 r)
theorem iblk1_13_apply (c : Dev nD) (t : Fin cfg1.N) (r : Fin 1024) (k : Fin 1024) :
    (iblk1 V c 13 t : Vec Ideal S1024x1024 .bf16) (ix2 r k) = (V c main_v8 : Vec Ideal S1024x1024 .bf16) (ix2 r k) :=
  congrFun (iblk1_13_eq V c t) (ix2 r k)
theorem iblk1_14_apply (c : Dev nD) (t : Fin cfg1.N) (r : Fin 1024) :
    (iblk1 V c 14 t : Vec Ideal S1024 .f32) (ix1 r) = (V c main_arg16 : Vec Ideal S1024 .f32) (ix1 r) :=
  congrFun (iblk1_14_eq V c t) (ix1 r)

/-! ## The result as one function -/

/-- The specification's head of the fifteen argument arrays as the region finds them, over plain coordinates: the
    activations, then weight and bias by turns (the second linear layer; the first attention block's query, key and
    output layers; the second's), and the three literal words both programs print. -/
def headSpec (c : Dev nD) : Fin 512 → Fin 1024 → EReal :=
  Cert.Spec.head
    (fun r k => (V c main_v1 : Vec Ideal S512x1024 .f32) (ix2 r k))
    (fun r k => (V c main_v2 : Vec Ideal S1024x1024 .bf16) (ix2 r k))
    (fun r => (V c main_arg4 : Vec Ideal S1024 .f32) (ix1 r))
    (fun r k => (V c main_v3 : Vec Ideal S1024x1024 .bf16) (ix2 r k))
    (fun r => (V c main_arg6 : Vec Ideal S1024 .f32) (ix1 r))
    (fun r k => (V c main_v4 : Vec Ideal S1024x1024 .bf16) (ix2 r k))
    (fun r => (V c main_arg8 : Vec Ideal S1024 .f32) (ix1 r))
    (fun r k => (V c main_v5 : Vec Ideal S1024x1024 .bf16) (ix2 r k))
    (fun r => (V c main_arg10 : Vec Ideal S1024 .f32) (ix1 r))
    (fun r k => (V c main_v6 : Vec Ideal S1024x1024 .bf16) (ix2 r k))
    (fun r => (V c main_arg12 : Vec Ideal S1024 .f32) (ix1 r))
    (fun r k => (V c main_v7 : Vec Ideal S1024x1024 .bf16) (ix2 r k))
    (fun r => (V c main_arg14 : Vec Ideal S1024 .f32) (ix1 r))
    (fun r k => (V c main_v8 : Vec Ideal S1024x1024 .bf16) (ix2 r k))
    (fun r => (V c main_arg16 : Vec Ideal S1024 .f32) (ix1 r))
    (Ideal.ofBits .f32 0x3D000000#32) (Ideal.ofBits .f32 0xFF800000#32) (Ideal.ofBits .f32 0x00000000#32)

/-- The result array's contents: the head at (row, column). -/
def G1 (c : Dev nD) : Buf (Elt Ideal) ((c : Thread nD τ).loc main_v9) := fun y => headSpec V c (y 0) (y 1)

/-- The stored value of the input blocks, at (i, o), is the head of the argument arrays: the stored value is the
    specification's head of whatever was loaded, and what was loaded are the arrays. -/
theorem headPay_blocks_apply (c : Dev nD) (i : Fin 512) (o : Fin 1024) :
    headPay (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0) (iblk1 V c 8 t1_0) (iblk1 V c 9 t1_0) (iblk1 V c 10 t1_0) (iblk1 V c 11 t1_0) (iblk1 V c 12 t1_0) (iblk1 V c 13 t1_0) (iblk1 V c 14 t1_0) (ix2 i o) = headSpec V c i o := by
  refine (HeadValue.head_eq (iblk1 V c 0 t1_0) (iblk1 V c 3 t1_0) (iblk1 V c 4 t1_0) (iblk1 V c 5 t1_0) (iblk1 V c 6 t1_0) (iblk1 V c 7 t1_0) (iblk1 V c 8 t1_0) (iblk1 V c 1 t1_0) (iblk1 V c 2 t1_0) (iblk1 V c 9 t1_0) (iblk1 V c 10 t1_0) (iblk1 V c 11 t1_0) (iblk1 V c 12 t1_0) (iblk1 V c 13 t1_0) (iblk1 V c 14 t1_0) i o).trans ?_
  unfold headSpec
  simp only [iblk1_0_apply, iblk1_1_apply, iblk1_2_apply, iblk1_3_apply, iblk1_4_apply, iblk1_5_apply, iblk1_6_apply, iblk1_7_apply, iblk1_8_apply, iblk1_9_apply, iblk1_10_apply, iblk1_11_apply, iblk1_12_apply, iblk1_13_apply, iblk1_14_apply]

/-- The one write-back, at the one point, writes the head: the output's buffer after the body is the stored value of
    the blocks, and the result array's block there, read through zero offsets, is the array. -/
theorem flushed1_eq (c : Dev nD) (t : Fin cfg1.N) (hf : (cfg1.win 15).flush t = true) :
    (dat1 V c).flushed 15 t = ((cfg1.win 15).blk t).view.read (Elt Ideal) (G1 V c) := by
  obtain rfl : t = t1_0 := fin_N1 t
  show (cfg1.win 15).cut (grid1.coords t1_0) ((dat1 V c).after 15 t1_0) = _
  rw [after1_15, out1_15_eq]
  have hz : (fun a => win1_15.index t1_0 a * main_v9.ty.shape.size a) = fun _ => 0 := funext fun a => by fin_cases a <;> decide +kernel
  refine Eq.trans ?_ (Memref.read_access_unit_zero (Elt Ideal) main_v9 hz (fun a => by rw [congrFun hz a]; simp) (G1 V c)).symm
  funext y
  obtain ⟨i, o, rfl⟩ : ∃ (i : Fin 512) (o : Fin 1024), y = ix2 i o := ⟨y 0, y 1, eq_ix2 y⟩
  exact headPay_blocks_apply V c i o

/-- So the result array ends holding the head: the one point's block covers it. -/
theorem final1 (c : Dev nD) : (dat1 V c).arrAt 15 cfg1.N = G1 V c :=
  (dat1 V c).arrAt_eq_of_cover 15 (G1 V c) (flushed1_eq V c) fun y =>
    ⟨t1_0, flush1_15 t1_0, by
      show y ∈ ((View.whole main_v9).slice (win1_15.rect t1_0)).set
      rw [View.set_slice_whole, Rect.mem_set_unit]
      intro a
      have h0 : (y 0 : Nat) < 512 := (y 0).isLt
      have h1 : (y 1 : Nat) < 1024 := (y 1).isLt
      match a with
      | ⟨0, _⟩ =>
        show win1_15.index t1_0 0 * win1_15.size 0 ≤ (y 0 : Nat) ∧ (y 0 : Nat) < win1_15.index t1_0 0 * win1_15.size 0 + win1_15.xsize (grid1.coords t1_0) 0
        rw [show win1_15.index t1_0 0 * win1_15.size 0 = 0 from by decide +kernel, show win1_15.xsize (grid1.coords t1_0) 0 = 512 from by decide +kernel]; omega
      | ⟨1, _⟩ =>
        show win1_15.index t1_0 1 * win1_15.size 1 ≤ (y 1 : Nat) ∧ (y 1 : Nat) < win1_15.index t1_0 1 * win1_15.size 1 + win1_15.xsize (grid1.coords t1_0) 1
        rw [show win1_15.index t1_0 1 * win1_15.size 1 = 0 from by decide +kernel, show win1_15.xsize (grid1.coords t1_0) 1 = 1024 from by decide +kernel]; omega⟩

end Cert.KernelIdeal.Fr

end
-- ==== Proof.KI.Bounds.lean ====
/-
  What the two regions read at their boundaries, and the program's result as the specification.
  Before the first region the flattened input is the reshape of the first argument and the other two arrays are as
  launched.  Before the second region the first region's output array is what its run left, each 16-bit weight array
  is the launched 32-bit weight (a format change is the identity on the extended reals), and the biases are as
  launched.  Hence the result array ends at the specification's head of the first linear layer of the arguments.
-/
import proofs.«157159_j31490700214886_2_alg».proof.Proof.KI.Run
import proofs.«157159_j31490700214886_2_alg».proof.Proof.KI.KerOut
import proofs.«157159_j31490700214886_2_alg».proof.Proof.KI.R0Value
import proofs.«157159_j31490700214886_2_alg».proof.Proof.KI.R1Value
import proofs.«157159_j31490700214886_2_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-! ## Before the first region -/

/-- The flattened input is the reshape of the first argument. -/
theorem Vr1_v0 (c : Dev nD) : (Vr1 m ρ c main_v0 : S512x50176.Idx → EReal)
    = shapeCast S512x50176 (m ((c : Thread nD τ).loc main_arg0)) shapeCasts_S512x1024x7x7_S512x50176 := by
  show StableHlo.after hostOps0 (U0 m ρ c) (Proc.devRef .tc main_v0) = _
  after_results
  rfl

/-- The first weight is as launched. -/
theorem Vr1_arg1 (c : Dev nD) : Vr1 m ρ c main_arg1 = m ((c : Thread nD τ).loc main_arg1) :=
  StableHlo.after_of_writes_sub hostOps0 _ hostOps0_writes (by decide : main_arg1 ∉ hostOps0_W)

/-- The first bias is as launched. -/
theorem Vr1_arg2 (c : Dev nD) : Vr1 m ρ c main_arg2 = m ((c : Thread nD τ).loc main_arg2) :=
  StableHlo.after_of_writes_sub hostOps0 _ hostOps0_writes (by decide : main_arg2 ∉ hostOps0_W)

/-! ## Before the second region -/

/-- An argument array is as launched before the second region's conversions. -/
theorem U2_arg (c : Dev nD) (b : Ref sig .tc) (h2 : ∀ w, Pipeline.arrRef spec0 w ≠ b) (h0 : b ∉ hostOps0_W) :
    U2 m ρ c (Proc.devRef .tc b) = m ((c : Thread nD τ).loc b) :=
  (U2_of_ne m ρ c b h2).trans (StableHlo.after_of_writes_sub hostOps0 _ hostOps0_writes h0)

/-- The first region's output array is what its run left. -/
theorem Vr3_v1 (c : Dev nD) : Vr3 m ρ c main_v1 = (dat0 (Vr1 m ρ) c).arrAt 3 cfg0.N :=
  (StableHlo.after_of_writes_sub hostOps1 _ hostOps1_writes (by decide : main_v1 ∉ hostOps1_W)).trans (U2_arr m ρ c 3)

/-- The 16-bit copy of weight 3 is the launched weight: the format change is the identity on the extended reals. -/
theorem Vr3_v2 (c : Dev nD) : (Vr3 m ρ c main_v2 : S1024x1024.Idx → EReal) = m ((c : Thread nD τ).loc main_arg3) := by
  show StableHlo.after hostOps1 (U2 m ρ c) (Proc.devRef .tc main_v2) = _
  after_results
  exact U2_arg m ρ c main_arg3 (by decide) (by decide)

/-- The 16-bit copy of weight 5 is the launched weight: the format change is the identity on the extended reals. -/
theorem Vr3_v3 (c : Dev nD) : (Vr3 m ρ c main_v3 : S1024x1024.Idx → EReal) = m ((c : Thread nD τ).loc main_arg5) := by
  show StableHlo.after hostOps1 (U2 m ρ c) (Proc.devRef .tc main_v3) = _
  after_results
  exact U2_arg m ρ c main_arg5 (by decide) (by decide)

/-- The 16-bit copy of weight 7 is the launched weight: the format change is the identity on the extended reals. -/
theorem Vr3_v4 (c : Dev nD) : (Vr3 m ρ c main_v4 : S1024x1024.Idx → EReal) = m ((c : Thread nD τ).loc main_arg7) := by
  show StableHlo.after hostOps1 (U2 m ρ c) (Proc.devRef .tc main_v4) = _
  after_results
  exact U2_arg m ρ c main_arg7 (by decide) (by decide)

/-- The 16-bit copy of weight 9 is the launched weight: the format change is the identity on the extended reals. -/
theorem Vr3_v5 (c : Dev nD) : (Vr3 m ρ c main_v5 : S1024x1024.Idx → EReal) = m ((c : Thread nD τ).loc main_arg9) := by
  show StableHlo.after hostOps1 (U2 m ρ c) (Proc.devRef .tc main_v5) = _
  after_results
  exact U2_arg m ρ c main_arg9 (by decide) (by decide)

/-- The 16-bit copy of weight 11 is the launched weight: the format change is the identity on the extended reals. -/
theorem Vr3_v6 (c : Dev nD) : (Vr3 m ρ c main_v6 : S1024x1024.Idx → EReal) = m ((c : Thread nD τ).loc main_arg11) := by
  show StableHlo.after hostOps1 (U2 m ρ c) (Proc.devRef .tc main_v6) = _
  after_results
  exact U2_arg m ρ c main_arg11 (by decide) (by decide)

/-- The 16-bit copy of weight 13 is the launched weight: the format change is the identity on the extended reals. -/
theorem Vr3_v7 (c : Dev nD) : (Vr3 m ρ c main_v7 : S1024x1024.Idx → EReal) = m ((c : Thread nD τ).loc main_arg13) := by
  show StableHlo.after hostOps1 (U2 m ρ c) (Proc.devRef .tc main_v7) = _
  after_results
  exact U2_arg m ρ c main_arg13 (by decide) (by decide)

/-- The 16-bit copy of weight 15 is the launched weight: the format change is the identity on the extended reals. -/
theorem Vr3_v8 (c : Dev nD) : (Vr3 m ρ c main_v8 : S1024x1024.Idx → EReal) = m ((c : Thread nD τ).loc main_arg15) := by
  show StableHlo.after hostOps1 (U2 m ρ c) (Proc.devRef .tc main_v8) = _
  after_results
  exact U2_arg m ρ c main_arg15 (by decide) (by decide)

/-- Bias 4 is as launched. -/
theorem Vr3_arg4 (c : Dev nD) : Vr3 m ρ c main_arg4 = m ((c : Thread nD τ).loc main_arg4) :=
  (StableHlo.after_of_writes_sub hostOps1 _ hostOps1_writes (by decide : main_arg4 ∉ hostOps1_W)).trans
    (U2_arg m ρ c main_arg4 (by decide) (by decide))

/-- Bias 6 is as launched. -/
theorem Vr3_arg6 (c : Dev nD) : Vr3 m ρ c main_arg6 = m ((c : Thread nD τ).loc main_arg6) :=
  (StableHlo.after_of_writes_sub hostOps1 _ hostOps1_writes (by decide : main_arg6 ∉ hostOps1_W)).trans
    (U2_arg m ρ c main_arg6 (by decide) (by decide))

/-- Bias 8 is as launched. -/
theorem Vr3_arg8 (c : Dev nD) : Vr3 m ρ c main_arg8 = m ((c : Thread nD τ).loc main_arg8) :=
  (StableHlo.after_of_writes_sub hostOps1 _ hostOps1_writes (by decide : main_arg8 ∉ hostOps1_W)).trans
    (U2_arg m ρ c main_arg8 (by decide) (by decide))

/-- Bias 10 is as launched. -/
theorem Vr3_arg10 (c : Dev nD) : Vr3 m ρ c main_arg10 = m ((c : Thread nD τ).loc main_arg10) :=
  (StableHlo.after_of_writes_sub hostOps1 _ hostOps1_writes (by decide : main_arg10 ∉ hostOps1_W)).trans
    (U2_arg m ρ c main_arg10 (by decide) (by decide))

/-- Bias 12 is as launched. -/
theorem Vr3_arg12 (c : Dev nD) : Vr3 m ρ c main_arg12 = m ((c : Thread nD τ).loc main_arg12) :=
  (StableHlo.after_of_writes_sub hostOps1 _ hostOps1_writes (by decide : main_arg12 ∉ hostOps1_W)).trans
    (U2_arg m ρ c main_arg12 (by decide) (by decide))

/-- Bias 14 is as launched. -/
theorem Vr3_arg14 (c : Dev nD) : Vr3 m ρ c main_arg14 = m ((c : Thread nD τ).loc main_arg14) :=
  (StableHlo.after_of_writes_sub hostOps1 _ hostOps1_writes (by decide : main_arg14 ∉ hostOps1_W)).trans
    (U2_arg m ρ c main_arg14 (by decide) (by decide))

/-- Bias 16 is as launched. -/
theorem Vr3_arg16 (c : Dev nD) : Vr3 m ρ c main_arg16 = m ((c : Thread nD τ).loc main_arg16) :=
  (StableHlo.after_of_writes_sub hostOps1 _ hostOps1_writes (by decide : main_arg16 ∉ hostOps1_W)).trans
    (U2_arg m ρ c main_arg16 (by decide) (by decide))

/-! ## The result -/

/-- What the second region reads of the first region's output: the first linear layer of the launched arrays. -/
theorem v1_read (c : Dev nD) :
    (fun r k => (Vr3 m ρ c main_v1 : Vec Ideal S512x1024 .f32) (ix2 r k)) = (Cert.Spec.lin (fun r k => (shapeCast S512x50176 (m ((c : Thread nD τ).loc main_arg0)) shapeCasts_S512x1024x7x7_S512x50176 : S512x50176.Idx → EReal) (ix2 r k))
      (fun r k => m ((c : Thread nD τ).loc main_arg1) (ix2 r k)) (fun r => m ((c : Thread nD τ).loc main_arg2) (ix1 r))) := by
  rw [Vr3_v1, final0 (Vr1 m ρ) c]
  funext r k
  show Cert.Spec.lin (fun r k => (Vr1 m ρ c main_v0 : Vec Ideal S512x50176 .f32) (ix2 r k))
    (fun r k => (Vr1 m ρ c main_arg1 : Vec Ideal S1024x50176 .f32) (ix2 r k)) (fun r => (Vr1 m ρ c main_arg2 : Vec Ideal S1024 .f32) (ix1 r)) r k = _
  rw [Vr1_v0, Vr1_arg1, Vr1_arg2]

/-- The result array ends at the specification of the launched arrays. -/
theorem ker_out (c : Dev nD) :
    U4 m ρ c (Proc.devRef .tc main_v9) = kerOut m c := by
  refine (U4_arr m ρ c 15).trans ((final1 (Vr3 m ρ) c).trans ?_)
  funext y
  show Cert.Spec.head
    (fun r k => (Vr3 m ρ c main_v1 : Vec Ideal S512x1024 .f32) (ix2 r k))
    (fun r k => (Vr3 m ρ c main_v2 : Vec Ideal S1024x1024 .bf16) (ix2 r k))
    (fun r => (Vr3 m ρ c main_arg4 : Vec Ideal S1024 .f32) (ix1 r))
    (fun r k => (Vr3 m ρ c main_v3 : Vec Ideal S1024x1024 .bf16) (ix2 r k))
    (fun r => (Vr3 m ρ c main_arg6 : Vec Ideal S1024 .f32) (ix1 r))
    (fun r k => (Vr3 m ρ c main_v4 : Vec Ideal S1024x1024 .bf16) (ix2 r k))
    (fun r => (Vr3 m ρ c main_arg8 : Vec Ideal S1024 .f32) (ix1 r))
    (fun r k => (Vr3 m ρ c main_v5 : Vec Ideal S1024x1024 .bf16) (ix2 r k))
    (fun r => (Vr3 m ρ c main_arg10 : Vec Ideal S1024 .f32) (ix1 r))
    (fun r k => (Vr3 m ρ c main_v6 : Vec Ideal S1024x1024 .bf16) (ix2 r k))
    (fun r => (Vr3 m ρ c main_arg12 : Vec Ideal S1024 .f32) (ix1 r))
    (fun r k => (Vr3 m ρ c main_v7 : Vec Ideal S1024x1024 .bf16) (ix2 r k))
    (fun r => (Vr3 m ρ c main_arg14 : Vec Ideal S1024 .f32) (ix1 r))
    (fun r k => (Vr3 m ρ c main_v8 : Vec Ideal S1024x1024 .bf16) (ix2 r k))
    (fun r => (Vr3 m ρ c main_arg16 : Vec Ideal S1024 .f32) (ix1 r))
    (Ideal.ofBits .f32 0x3D000000#32) (Ideal.ofBits .f32 0xFF800000#32) (Ideal.ofBits .f32 0x00000000#32) (y 0) (y 1) = _
  rw [v1_read m ρ c, Vr3_v2, Vr3_v3, Vr3_v4, Vr3_v5, Vr3_v6, Vr3_v7, Vr3_v8, Vr3_arg4, Vr3_arg6, Vr3_arg8, Vr3_arg10, Vr3_arg12, Vr3_arg14, Vr3_arg16]
  rfl

end Cert.KernelIdeal.Fr

end
-- ==== Proof.KI.Final.lean ====
/-
  The idealized kernel program's run, with its result named: every weakly fair execution terminates, the result array
  ends at the specification of the launch memory's argument arrays, and the argument arrays end as launched.
-/
import proofs.«157159_j31490700214886_2_alg».proof.Proof.KI.Bounds

set_option maxRecDepth 16384

noncomputable section

namespace Cert.KernelIdeal.Fr

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run_spec : θ_run (defs (F := Ideal)) (onTc (τ := τ) (main (F := Ideal))) ⟨m, fun _ => 0, ρ⟩ (fun r => ∀ c : Dev nD,
      r.2.mem ((c.tc : Thread nD τ).loc main_v9) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_v9 (by decide))).trans (ker_out m ρ c),
    (h c _ (mem_uc main_arg0 (by decide))).trans (U4_main_arg0 m ρ c),
    (h c _ (mem_uc main_arg1 (by decide))).trans (U4_main_arg1 m ρ c),
    (h c _ (mem_uc main_arg2 (by decide))).trans (U4_main_arg2 m ρ c),
    (h c _ (mem_uc main_arg3 (by decide))).trans (U4_main_arg3 m ρ c),
    (h c _ (mem_uc main_arg4 (by decide))).trans (U4_main_arg4 m ρ c),
    (h c _ (mem_uc main_arg5 (by decide))).trans (U4_main_arg5 m ρ c),
    (h c _ (mem_uc main_arg6 (by decide))).trans (U4_main_arg6 m ρ c),
    (h c _ (mem_uc main_arg7 (by decide))).trans (U4_main_arg7 m ρ c),
    (h c _ (mem_uc main_arg8 (by decide))).trans (U4_main_arg8 m ρ c),
    (h c _ (mem_uc main_arg9 (by decide))).trans (U4_main_arg9 m ρ c),
    (h c _ (mem_uc main_arg10 (by decide))).trans (U4_main_arg10 m ρ c),
    (h c _ (mem_uc main_arg11 (by decide))).trans (U4_main_arg11 m ρ c),
    (h c _ (mem_uc main_arg12 (by decide))).trans (U4_main_arg12 m ρ c),
    (h c _ (mem_uc main_arg13 (by decide))).trans (U4_main_arg13 m ρ c),
    (h c _ (mem_uc main_arg14 (by decide))).trans (U4_main_arg14 m ρ c),
    (h c _ (mem_uc main_arg15 (by decide))).trans (U4_main_arg15 m ρ c),
    (h c _ (mem_uc main_arg16 (by decide))).trans (U4_main_arg16 m ρ c)⟩) (run_all (F := Ideal) m ρ)

end Cert.KernelIdeal.Fr

end
-- ==== Proof.RefValue.lean ====
/-
  The reference program's result, read as a pure function of its seventeen argument arrays over the extended reals,
  equals the specification's head applied to the first linear layer.

  The file has three parts.
  * Each host operation read at an index over literal coordinates: a matrix product is the sum over the contraction
    coordinate of the products of the operands' entries; a transpose swaps the two coordinates; a broadcast of a vector
    along the rows (or of a per-row value along the columns, or of a scalar) reads the source entry; a maximum-reduce over
    the columns is the fold of max over the row from the start value (the operation is commutative and associative); a
    sum-reduce from the zero constant is the row's sum (0 + s = s).
  * Each stage of the computation (a linear layer, the scaled logits, the row maximum, the shifted exponentials, the
    normalisation, the weighted sum of the rows, the relu) as the specification's function of the previous stage, and the
    attention block and the whole head assembled from their stages by substituting stage after stage.
  * The program's own stages: every named intermediate value is one of the stage forms above applied to earlier named
    values, so the final value is the specification at every (row, column).
-/
import proofs.«157159_j31490700214886_2_alg».proof.Proof.RefRead
import proofs.«157159_j31490700214886_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.ShloMosaic.StableHlo

/-! ## The host operations read at an index -/

/-- A [512, 50176] by [50176, 1024] product read at (p, q): the sum over the contraction coordinate. -/
theorem dot_fc1 (X : FVec Ideal S512x50176 .f32) (Y : FVec Ideal S50176x1024 .f32) (p : Fin 512) (q : Fin 1024) :
    Host.dotGeneral (F := Ideal) dot_S512x50176_S50176x1024_S512x1024_1_0_0_1_n_n none X Y (ix2 p q) = ∑ k : Fin 50176, X (ix2 p k) * Y (ix2 k q) := by
  simp only [Host.dotGeneral]
  rw [Ideal.dotGeneral_apply, ← Equiv.sum_comp (ValueIdx.contrEquiv1 dot_S512x50176_S50176x1024_S512x1024_1_0_0_1_n_n 50176 rfl rfl).symm]
  refine Finset.sum_congr rfl fun k _ => ?_
  have hk := ValueIdx.contrEquiv1_symm_val dot_S512x50176_S50176x1024_S512x1024_1_0_0_1_n_n 50176 rfl rfl k
  have l0 : ∀ (i : S512x1024.Idx) (c : dot_S512x50176_S50176x1024_S512x1024_1_0_0_1_n_n.contr.Idx), (dot_S512x50176_S50176x1024_S512x1024_1_0_0_1_n_n.lhsIdx i c 0).val = (i 0).val := fun i c => by
    unfold DotDims.lhsIdx
    rw [dif_neg (show ¬(0 : Fin S512x50176.rank) ∈ dot_S512x50176_S50176x1024_S512x1024_1_0_0_1_n_n.lhsBatch by decide), dif_pos (show (0 : Fin S512x50176.rank) ∈ dot_S512x50176_S50176x1024_S512x1024_1_0_0_1_n_n.lhsNonContracting by decide)]
    rfl
  have l1 : ∀ (i : S512x1024.Idx) (c : dot_S512x50176_S50176x1024_S512x1024_1_0_0_1_n_n.contr.Idx), (dot_S512x50176_S50176x1024_S512x1024_1_0_0_1_n_n.lhsIdx i c 1).val = (c ⟨0, by decide⟩).val := fun i c =>
    dot_S512x50176_S50176x1024_S512x1024_1_0_0_1_n_n.lhsIdx_val_of_single rfl i c
  have r0 : ∀ (i : S512x1024.Idx) (c : dot_S512x50176_S50176x1024_S512x1024_1_0_0_1_n_n.contr.Idx), (dot_S512x50176_S50176x1024_S512x1024_1_0_0_1_n_n.rhsIdx i c 0).val = (c ⟨0, by decide⟩).val := fun i c =>
    dot_S512x50176_S50176x1024_S512x1024_1_0_0_1_n_n.rhsIdx_val_of_single rfl i c
  have r1 : ∀ (i : S512x1024.Idx) (c : dot_S512x50176_S50176x1024_S512x1024_1_0_0_1_n_n.contr.Idx), (dot_S512x50176_S50176x1024_S512x1024_1_0_0_1_n_n.rhsIdx i c 1).val = (i 1).val := fun i c => by
    unfold DotDims.rhsIdx
    rw [dif_neg (show ¬(1 : Fin S50176x1024.rank) ∈ dot_S512x50176_S50176x1024_S512x1024_1_0_0_1_n_n.rhsBatch by decide), dif_pos (show (1 : Fin S50176x1024.rank) ∈ dot_S512x50176_S50176x1024_S512x1024_1_0_0_1_n_n.rhsNonContracting by decide)]
    rfl
  have el : dot_S512x50176_S50176x1024_S512x1024_1_0_0_1_n_n.lhsIdx (ix2 p q) ((ValueIdx.contrEquiv1 dot_S512x50176_S50176x1024_S512x1024_1_0_0_1_n_n 50176 rfl rfl).symm k) = ix2 p k := funext fun a => Fin.ext (by
    match a with
    | ⟨0, _⟩ => exact l0 _ _
    | ⟨1, _⟩ => exact (l1 _ _).trans hk)
  have er : dot_S512x50176_S50176x1024_S512x1024_1_0_0_1_n_n.rhsIdx (ix2 p q) ((ValueIdx.contrEquiv1 dot_S512x50176_S50176x1024_S512x1024_1_0_0_1_n_n 50176 rfl rfl).symm k) = ix2 k q := funext fun a => Fin.ext (by
    match a with
    | ⟨0, _⟩ => exact (r0 _ _).trans hk
    | ⟨1, _⟩ => exact r1 _ _)
  rw [el, er]

/-- A [512, 1024] by [1024, 1024] product read at (p, q): the sum over the contraction coordinate. -/
theorem dot_sq (X : FVec Ideal S512x1024 .f32) (Y : FVec Ideal S1024x1024 .f32) (p : Fin 512) (q : Fin 1024) :
    Host.dotGeneral (F := Ideal) dot_S512x1024_S1024x1024_S512x1024_1_0_0_1_n_n none X Y (ix2 p q) = ∑ k : Fin 1024, X (ix2 p k) * Y (ix2 k q) := by
  simp only [Host.dotGeneral]
  rw [Ideal.dotGeneral_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have l0 : ∀ (i : S512x1024.Idx) (c : dot_S512x1024_S1024x1024_S512x1024_1_0_0_1_n_n.contr.Idx), (dot_S512x1024_S1024x1024_S512x1024_1_0_0_1_n_n.lhsIdx i c 0).val = (i 0).val := fun i c => by
    unfold DotDims.lhsIdx
    rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
    rfl
  have l1 : ∀ (i : S512x1024.Idx) (c : dot_S512x1024_S1024x1024_S512x1024_1_0_0_1_n_n.contr.Idx), (dot_S512x1024_S1024x1024_S512x1024_1_0_0_1_n_n.lhsIdx i c 1).val = (c ⟨0, by decide⟩).val := fun i c =>
    dot_S512x1024_S1024x1024_S512x1024_1_0_0_1_n_n.lhsIdx_val_of_single rfl i c
  have r0 : ∀ (i : S512x1024.Idx) (c : dot_S512x1024_S1024x1024_S512x1024_1_0_0_1_n_n.contr.Idx), (dot_S512x1024_S1024x1024_S512x1024_1_0_0_1_n_n.rhsIdx i c 0).val = (c ⟨0, by decide⟩).val := fun i c =>
    dot_S512x1024_S1024x1024_S512x1024_1_0_0_1_n_n.rhsIdx_val_of_single rfl i c
  have r1 : ∀ (i : S512x1024.Idx) (c : dot_S512x1024_S1024x1024_S512x1024_1_0_0_1_n_n.contr.Idx), (dot_S512x1024_S1024x1024_S512x1024_1_0_0_1_n_n.rhsIdx i c 1).val = (i 1).val := fun i c => by
    unfold DotDims.rhsIdx
    rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
    rfl
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact l0 _ _
    | ⟨1, _⟩ => exact (l1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (r0 _ _).trans hk
    | ⟨1, _⟩ => exact r1 _ _)
  rw [el, er]

/-- A [512, 1024] by [1024, 512] product read at (p, q): the sum over the contraction coordinate. -/
theorem dot_qk (X : FVec Ideal S512x1024 .f32) (Y : FVec Ideal S1024x512 .f32) (p : Fin 512) (q : Fin 512) :
    Host.dotGeneral (F := Ideal) dot_S512x1024_S1024x512_S512x512_1_0_0_1_n_n none X Y (ix2 p q) = ∑ k : Fin 1024, X (ix2 p k) * Y (ix2 k q) := by
  simp only [Host.dotGeneral]
  rw [Ideal.dotGeneral_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have l0 : ∀ (i : S512x512.Idx) (c : dot_S512x1024_S1024x512_S512x512_1_0_0_1_n_n.contr.Idx), (dot_S512x1024_S1024x512_S512x512_1_0_0_1_n_n.lhsIdx i c 0).val = (i 0).val := fun i c => by
    unfold DotDims.lhsIdx
    rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
    rfl
  have l1 : ∀ (i : S512x512.Idx) (c : dot_S512x1024_S1024x512_S512x512_1_0_0_1_n_n.contr.Idx), (dot_S512x1024_S1024x512_S512x512_1_0_0_1_n_n.lhsIdx i c 1).val = (c ⟨0, by decide⟩).val := fun i c =>
    dot_S512x1024_S1024x512_S512x512_1_0_0_1_n_n.lhsIdx_val_of_single rfl i c
  have r0 : ∀ (i : S512x512.Idx) (c : dot_S512x1024_S1024x512_S512x512_1_0_0_1_n_n.contr.Idx), (dot_S512x1024_S1024x512_S512x512_1_0_0_1_n_n.rhsIdx i c 0).val = (c ⟨0, by decide⟩).val := fun i c =>
    dot_S512x1024_S1024x512_S512x512_1_0_0_1_n_n.rhsIdx_val_of_single rfl i c
  have r1 : ∀ (i : S512x512.Idx) (c : dot_S512x1024_S1024x512_S512x512_1_0_0_1_n_n.contr.Idx), (dot_S512x1024_S1024x512_S512x512_1_0_0_1_n_n.rhsIdx i c 1).val = (i 1).val := fun i c => by
    unfold DotDims.rhsIdx
    rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
    rfl
  have el : dot_S512x1024_S1024x512_S512x512_1_0_0_1_n_n.lhsIdx (ix2 p q) ((ValueIdx.contrEquiv1 dot_S512x1024_S1024x512_S512x512_1_0_0_1_n_n 1024 rfl rfl).symm k) = ix2 p k := funext fun a => Fin.ext (by
    match a with
    | ⟨0, _⟩ => exact l0 _ _
    | ⟨1, _⟩ => exact (l1 _ _).trans hk)
  have er : dot_S512x1024_S1024x512_S512x512_1_0_0_1_n_n.rhsIdx (ix2 p q) ((ValueIdx.contrEquiv1 dot_S512x1024_S1024x512_S512x512_1_0_0_1_n_n 1024 rfl rfl).symm k) = ix2 k q := funext fun a => Fin.ext (by
    match a with
    | ⟨0, _⟩ => exact (r0 _ _).trans hk
    | ⟨1, _⟩ => exact r1 _ _)
  rw [el, er]

/-- A [512, 512] by [512, 1024] product read at (p, q): the sum over the contraction coordinate. -/
theorem dot_pv (X : FVec Ideal S512x512 .f32) (Y : FVec Ideal S512x1024 .f32) (p : Fin 512) (q : Fin 1024) :
    Host.dotGeneral (F := Ideal) dot_S512x512_S512x1024_S512x1024_1_0_0_1_n_n none X Y (ix2 p q) = ∑ k : Fin 512, X (ix2 p k) * Y (ix2 k q) := by
  simp only [Host.dotGeneral]
  rw [Ideal.dotGeneral_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have l0 : ∀ (i : S512x1024.Idx) (c : dot_S512x512_S512x1024_S512x1024_1_0_0_1_n_n.contr.Idx), (dot_S512x512_S512x1024_S512x1024_1_0_0_1_n_n.lhsIdx i c 0).val = (i 0).val := fun i c => by
    unfold DotDims.lhsIdx
    rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
    rfl
  have l1 : ∀ (i : S512x1024.Idx) (c : dot_S512x512_S512x1024_S512x1024_1_0_0_1_n_n.contr.Idx), (dot_S512x512_S512x1024_S512x1024_1_0_0_1_n_n.lhsIdx i c 1).val = (c ⟨0, by decide⟩).val := fun i c =>
    dot_S512x512_S512x1024_S512x1024_1_0_0_1_n_n.lhsIdx_val_of_single rfl i c
  have r0 : ∀ (i : S512x1024.Idx) (c : dot_S512x512_S512x1024_S512x1024_1_0_0_1_n_n.contr.Idx), (dot_S512x512_S512x1024_S512x1024_1_0_0_1_n_n.rhsIdx i c 0).val = (c ⟨0, by decide⟩).val := fun i c =>
    dot_S512x512_S512x1024_S512x1024_1_0_0_1_n_n.rhsIdx_val_of_single rfl i c
  have r1 : ∀ (i : S512x1024.Idx) (c : dot_S512x512_S512x1024_S512x1024_1_0_0_1_n_n.contr.Idx), (dot_S512x512_S512x1024_S512x1024_1_0_0_1_n_n.rhsIdx i c 1).val = (i 1).val := fun i c => by
    unfold DotDims.rhsIdx
    rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
    rfl
  have el : dot_S512x512_S512x1024_S512x1024_1_0_0_1_n_n.lhsIdx (ix2 p q) ((ValueIdx.contrEquiv1 dot_S512x512_S512x1024_S512x1024_1_0_0_1_n_n 512 rfl rfl).symm k) = ix2 p k := funext fun a => Fin.ext (by
    match a with
    | ⟨0, _⟩ => exact l0 _ _
    | ⟨1, _⟩ => exact (l1 _ _).trans hk)
  have er : dot_S512x512_S512x1024_S512x1024_1_0_0_1_n_n.rhsIdx (ix2 p q) ((ValueIdx.contrEquiv1 dot_S512x512_S512x1024_S512x1024_1_0_0_1_n_n 512 rfl rfl).symm k) = ix2 k q := funext fun a => Fin.ext (by
    match a with
    | ⟨0, _⟩ => exact (r0 _ _).trans hk
    | ⟨1, _⟩ => exact r1 _ _)
  rw [el, er]

/-- A transposed [1024, 50176] matrix read at (k, q) is the matrix at (q, k). -/
theorem transpose_fc1 (W : FVec Ideal S1024x50176 .f32) (k : Fin 50176) (q : Fin 1024) :
    transpose S50176x1024 [1, 0] W transposes_S1024x50176_S50176x1024_1_0 (ix2 k q) = W (ix2 q k) :=
  transpose_apply [1, 0] W transposes_S1024x50176_S50176x1024_1_0 (ix2 k q) (ix2 q k) (fun b => match b with
    | ⟨0, _⟩ => rfl
    | ⟨1, _⟩ => rfl)

/-- A transposed [1024, 1024] matrix read at (k, q) is the matrix at (q, k). -/
theorem transpose_sq (W : FVec Ideal S1024x1024 .f32) (k q : Fin 1024) :
    transpose S1024x1024 [1, 0] W transposes_S1024x1024_S1024x1024_1_0 (ix2 k q) = W (ix2 q k) :=
  transpose_apply [1, 0] W transposes_S1024x1024_S1024x1024_1_0 (ix2 k q) (ix2 q k) (fun b => match b with
    | ⟨0, _⟩ => rfl
    | ⟨1, _⟩ => rfl)

/-- A transposed [512, 1024] matrix read at (k, q) is the matrix at (q, k). -/
theorem transpose_qk (W : FVec Ideal S512x1024 .f32) (k : Fin 1024) (q : Fin 512) :
    transpose S1024x512 [1, 0] W transposes_S512x1024_S1024x512_1_0 (ix2 k q) = W (ix2 q k) :=
  transpose_apply [1, 0] W transposes_S512x1024_S1024x512_1_0 (ix2 k q) (ix2 q k) (fun b => match b with
    | ⟨0, _⟩ => rfl
    | ⟨1, _⟩ => rfl)

/-- A bias vector broadcast along the rows, read at (p, q), is its entry q. -/
theorem bias_apply (B : FVec Ideal S1024 .f32) (p : Fin 512) (q : Fin 1024) :
    broadcastInDim S512x1024 ![0, 1] bcast_S1x1024_S512x1024_0_1 (broadcastInDim S1x1024 ![1] bcast_S1024_S1x1024_1 B) (ix2 p q)
      = B (ix1 q) := by
  refine (broadcastInDim_apply _ bcast_S1x1024_S512x1024_0_1 _ (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])).trans ?_
  exact broadcastInDim_apply _ bcast_S1024_S1x1024_1 B (ix2 (0 : Fin 1) q) (ix1 q) (fun a => match a with
    | ⟨0, _⟩ => by show q.val = if (1024 : Nat) = 1 then 0 else q.val; rw [if_neg (by decide)])

/-- A per-row vector broadcast along the columns, read at (p, q), is its entry p. -/
theorem col_apply (R : FVec Ideal S512 .f32) (p q : Fin 512) :
    broadcastInDim S512x512 ![0, 1] bcast_S512x1_S512x512_0_1 (broadcastInDim S512x1 ![0] bcast_S512_S512x1_0 R) (ix2 p q)
      = R (ix1 p) := by
  refine (broadcastInDim_apply _ bcast_S512x1_S512x512_0_1 _ (ix2 p q) (ix2 p (0 : Fin 1)) (fun a => match a with
    | ⟨0, _⟩ => by show p.val = if (512 : Nat) = 1 then 0 else p.val; rw [if_neg (by decide)]
    | ⟨1, _⟩ => by show 0 = if (1 : Nat) = 1 then 0 else q.val; rw [if_pos rfl])).trans ?_
  exact broadcastInDim_apply _ bcast_S512_S512x1_0 R (ix2 p (0 : Fin 1)) (ix1 p) (fun a => match a with
    | ⟨0, _⟩ => by show p.val = if (512 : Nat) = 1 then 0 else p.val; rw [if_neg (by decide)])

/-- A scalar constant broadcast to [512, 512] is that constant at every index. -/
theorem splat_512x512 (w : BitVec 32) (i : S512x512.Idx) :
    broadcastInDim S512x512 ![] bcast_S_S512x512 (constant (F := Ideal) S_ .f32 w) i = Ideal.ofBits .f32 w :=
  broadcastInDim_apply _ bcast_S_S512x512 (constant (F := Ideal) S_ .f32 w) i (fun a => a.elim0) (fun a => a.elim0)

/-- A scalar constant broadcast to [512] is that constant at every index. -/
theorem splat_512 (w : BitVec 32) (i : S512.Idx) :
    broadcastInDim S512 ![] bcast_S_S512 (constant (F := Ideal) S_ .f32 w) i = Ideal.ofBits .f32 w :=
  broadcastInDim_apply _ bcast_S_S512 (constant (F := Ideal) S_ .f32 w) i (fun a => a.elim0) (fun a => a.elim0)

/-- A scalar constant broadcast to [512, 1024] is that constant at every index. -/
theorem splat_512x1024 (w : BitVec 32) (i : S512x1024.Idx) :
    broadcastInDim S512x1024 ![] bcast_S_S512x1024 (constant (F := Ideal) S_ .f32 w) i = Ideal.ofBits .f32 w :=
  broadcastInDim_apply _ bcast_S_S512x1024 (constant (F := Ideal) S_ .f32 w) i (fun a => a.elim0) (fun a => a.elim0)

/-- Row p with the column coordinate k put back is (p, k). -/
theorem lift_row (h : S512x512.Reduces [1] S512) (p : Fin 512) (k : Fin (S512x512.size 1)) :
    h.lift (ix1 p) k = ix2 p (⟨k.val, k.isLt⟩ : Fin 512) :=
  funext fun a => Fin.ext (by match a with | ⟨0, _⟩ => rfl | ⟨1, _⟩ => rfl)

/-- A maximum-reduce over the columns from a constant start, read at row p, is the fold of max over the row. -/
theorem rowmax_apply (S : FVec Ideal S512x512 .f32) (w : BitVec 32) (p : Fin 512) :
    Host.reduce FloatOps.maximumf S (constant (F := Ideal) S_ .f32 w) reducesTo_S512x512_S512_d1 h_S_ (ix1 p)
      = (Finset.univ : Finset (Fin 512)).fold max (Ideal.ofBits .f32 w) (fun j => S (ix2 p j)) := by
  have h : S512x512.Reduces [1] S512 := by decide
  rw [Host.reduce_eq_fold_single FloatOps.maximumf S _ reducesTo_S512x512_S512_d1 h h_S_]
  have hf : (S ∘ h.lift (ix1 p)) = fun j : Fin 512 => S (ix2 p j) := funext fun k => congrArg S (lift_row h p k)
  exact congrArg (fun f => Finset.fold max (Ideal.ofBits .f32 w) f (Finset.univ : Finset (Fin 512))) hf

/-- A sum-reduce over the columns from the zero constant, read at row p, is the sum over the row. -/
theorem rowsum_apply (E : FVec Ideal S512x512 .f32) (p : Fin 512) :
    Host.reduceAdd (F := Ideal) E (constant (F := Ideal) S_ .f32 0x00000000#32) reducesTo_S512x512_S512_d1 h_S_ (ix1 p)
      = ∑ j : Fin 512, E (ix2 p j) := by
  have h : S512x512.Reduces [1] S512 := by decide
  simp only [Host.reduceAdd, Ideal.hostReduceAdd_def]
  rw [Ideal.hostReduceAdd_single reducesTo_S512x512_S512_d1 h]
  show Ideal.ofBits .f32 0x00000000#32 + _ = _
  rw [Ideal.ofBits_zero_f32, zero_add]
  exact Finset.sum_congr rfl fun k _ => congrArg E (lift_row h p k)

/-! ## The stages as the specification's functions -/

/-- The first linear layer (product with the transposed weights, plus the bias broadcast along the rows) at (p, q). -/
theorem lin_fc1 (X : FVec Ideal S512x50176 .f32) (W : FVec Ideal S1024x50176 .f32) (B : FVec Ideal S1024 .f32)
    (p : Fin 512) (q : Fin 1024) :
    addf (Host.dotGeneral (F := Ideal) dot_S512x50176_S50176x1024_S512x1024_1_0_0_1_n_n none X
        (transpose S50176x1024 [1, 0] W transposes_S1024x50176_S50176x1024_1_0))
      (broadcastInDim S512x1024 ![0, 1] bcast_S1x1024_S512x1024_0_1 (broadcastInDim S1x1024 ![1] bcast_S1024_S1x1024_1 B)) (ix2 p q)
      = Cert.Spec.lin (fun r k => X (ix2 r k)) (fun r k => W (ix2 r k)) (fun r => B (ix1 r)) p q := by
  rw [addf_apply]
  unfold Cert.Spec.lin
  exact congrArg₂ (· + ·)
    ((dot_fc1 X _ p q).trans (Finset.sum_congr rfl fun k _ => congrArg (X (ix2 p k) * ·) (transpose_fc1 W k q)))
    (bias_apply B p q)

/-- A [1024 → 1024] linear layer (product with the transposed weights, plus the bias broadcast along the rows) at (p, q). -/
theorem lin_op (X : FVec Ideal S512x1024 .f32) (W : FVec Ideal S1024x1024 .f32) (B : FVec Ideal S1024 .f32)
    (p : Fin 512) (q : Fin 1024) :
    addf (Host.dotGeneral (F := Ideal) dot_S512x1024_S1024x1024_S512x1024_1_0_0_1_n_n none X
        (transpose S1024x1024 [1, 0] W transposes_S1024x1024_S1024x1024_1_0))
      (broadcastInDim S512x1024 ![0, 1] bcast_S1x1024_S512x1024_0_1 (broadcastInDim S1x1024 ![1] bcast_S1024_S1x1024_1 B)) (ix2 p q)
      = Cert.Spec.lin (fun r k => X (ix2 r k)) (fun r k => W (ix2 r k)) (fun r => B (ix1 r)) p q := by
  rw [addf_apply]
  unfold Cert.Spec.lin
  exact congrArg₂ (· + ·)
    ((dot_sq X _ p q).trans (Finset.sum_congr rfl fun k _ => congrArg (X (ix2 p k) * ·) (transpose_sq W k q)))
    (bias_apply B p q)

/-- The scaled logits (queries times transposed keys, times the broadcast scale) at (p, q). -/
theorem logits_op (Q K : FVec Ideal S512x1024 .f32) (w : BitVec 32) (p q : Fin 512) :
    mulf (Host.dotGeneral (F := Ideal) dot_S512x1024_S1024x512_S512x512_1_0_0_1_n_n none Q
        (transpose S1024x512 [1, 0] K transposes_S512x1024_S1024x512_1_0))
      (broadcastInDim S512x512 ![] bcast_S_S512x512 (constant (F := Ideal) S_ .f32 w)) (ix2 p q)
      = Cert.Spec.logits (fun r d => Q (ix2 r d)) (fun r d => K (ix2 r d)) (Ideal.ofBits .f32 w) p q := by
  rw [mulf_apply]
  unfold Cert.Spec.logits
  exact congrArg₂ (· * ·)
    ((dot_qk Q _ p q).trans (Finset.sum_congr rfl fun k _ => congrArg (Q (ix2 p k) * ·) (transpose_qk K k q)))
    (splat_512x512 w (ix2 p q))

/-- The row maximum (the maximum-reduce over the columns joined once more with its start value) at row p. -/
theorem rowmax_op (S : FVec Ideal S512x512 .f32) (w : BitVec 32) (p : Fin 512) :
    maximumf (broadcastInDim S512 ![] bcast_S_S512 (constant (F := Ideal) S_ .f32 w))
      (Host.reduce FloatOps.maximumf S (constant (F := Ideal) S_ .f32 w) reducesTo_S512x512_S512_d1 h_S_) (ix1 p)
      = Cert.Spec.rowMax (fun r j => S (ix2 r j)) (Ideal.ofBits .f32 w) p := by
  rw [maximumf_apply]
  unfold Cert.Spec.rowMax
  exact congrArg₂ max (splat_512 w (ix1 p)) (rowmax_apply S w p)

/-- The exponential of an entry minus its row's broadcast value, at (p, q). -/
theorem exp_op (S : FVec Ideal S512x512 .f32) (M : FVec Ideal S512 .f32) (p q : Fin 512) :
    Host.exp (F := Ideal) (subf S (broadcastInDim S512x512 ![0, 1] bcast_S512x1_S512x512_0_1
        (broadcastInDim S512x1 ![0] bcast_S512_S512x1_0 M))) (ix2 p q)
      = Ideal.exp (S (ix2 p q) - M (ix1 p)) := by
  show Ideal.exp (S (ix2 p q) - _) = _
  exact congrArg (fun m => Ideal.exp (S (ix2 p q) - m)) (col_apply M p q)

/-- An entry over its row's sum (the sum-reduce over the columns from zero, broadcast back), at (p, q). -/
theorem softmax_op (E : FVec Ideal S512x512 .f32) (p q : Fin 512) :
    Host.divf (F := Ideal) E (broadcastInDim S512x512 ![0, 1] bcast_S512x1_S512x512_0_1
        (broadcastInDim S512x1 ![0] bcast_S512_S512x1_0
          (Host.reduceAdd (F := Ideal) E (constant (F := Ideal) S_ .f32 0x00000000#32) reducesTo_S512x512_S512_d1 h_S_))) (ix2 p q)
      = Ideal.div (E (ix2 p q)) (∑ j : Fin 512, E (ix2 p j)) := by
  show Ideal.div (E (ix2 p q)) _ = _
  exact congrArg (Ideal.div (E (ix2 p q))) ((col_apply _ p q).trans (rowsum_apply E p))

/-- The attention-weighted sum of the rows (weights times values) at (p, q). -/
theorem mix_op (P : FVec Ideal S512x512 .f32) (X : FVec Ideal S512x1024 .f32) (p : Fin 512) (q : Fin 1024) :
    Host.dotGeneral (F := Ideal) dot_S512x512_S512x1024_S512x1024_1_0_0_1_n_n none P X (ix2 p q)
      = Cert.Spec.mix (fun r j => P (ix2 r j)) (fun r d => X (ix2 r d)) p q := by
  unfold Cert.Spec.mix
  exact dot_pv P X p q

/-- The relu (the maximum with the broadcast zero constant) at (p, q). -/
theorem relu_op (Y : FVec Ideal S512x1024 .f32) (w : BitVec 32) (p : Fin 512) (q : Fin 1024) :
    maximumf Y (broadcastInDim S512x1024 ![] bcast_S_S512x1024 (constant (F := Ideal) S_ .f32 w)) (ix2 p q)
      = max (Y (ix2 p q)) (Ideal.ofBits .f32 w) := by
  rw [maximumf_apply]
  exact congrArg (max (Y (ix2 p q))) (splat_512x1024 w (ix2 p q))

/-- One attention block assembled from its stages: each stage is the specification's function of the previous ones. -/
theorem attn_of_stages (x q k mx o : Fin 512 → Fin 1024 → EReal) (s e pr : Fin 512 → Fin 512 → EReal) (m : Fin 512 → EReal)
    (w1 : Fin 1024 → Fin 1024 → EReal) (b1 : Fin 1024 → EReal) (w2 : Fin 1024 → Fin 1024 → EReal) (b2 : Fin 1024 → EReal)
    (cw : Fin 1024 → Fin 1024 → EReal) (cb : Fin 1024 → EReal) (c ninf : EReal)
    (hq : ∀ i d, q i d = Cert.Spec.lin x w1 b1 i d) (hk : ∀ i d, k i d = Cert.Spec.lin x w2 b2 i d)
    (hs : ∀ i j, s i j = Cert.Spec.logits q k c i j)
    (hm : ∀ i, m i = Cert.Spec.rowMax s ninf i)
    (he : ∀ i j, e i j = Ideal.exp (s i j - m i))
    (hp : ∀ i j, pr i j = Ideal.div (e i j) (∑ j' : Fin 512, e i j'))
    (hmx : ∀ i d, mx i d = Cert.Spec.mix pr x i d)
    (ho : ∀ i d, o i d = Cert.Spec.lin mx cw cb i d) :
    ∀ i d, o i d = Cert.Spec.attn x w1 b1 w2 b2 cw cb c ninf i d := by
  obtain rfl : q = Cert.Spec.lin x w1 b1 := funext fun i => funext fun d => hq i d
  obtain rfl : k = Cert.Spec.lin x w2 b2 := funext fun i => funext fun d => hk i d
  obtain rfl : s = Cert.Spec.logits _ _ c := funext fun i => funext fun j => hs i j
  obtain rfl : m = Cert.Spec.rowMax _ ninf := funext fun i => hm i
  obtain rfl : e = Cert.Spec.expRow _ ninf := funext fun i => funext fun j => he i j
  obtain rfl : pr = Cert.Spec.softmax _ ninf := funext fun i => funext fun j => hp i j
  obtain rfl : mx = Cert.Spec.mix _ x := funext fun i => funext fun d => hmx i d
  exact ho

/-- Everything after the first projection assembled from its stages. -/
theorem head_of_stages (x r1 h h2 r2 out : Fin 512 → Fin 1024 → EReal)
    (fc2w : Fin 1024 → Fin 1024 → EReal) (fc2b : Fin 1024 → EReal)
    (a1w1 : Fin 1024 → Fin 1024 → EReal) (a1b1 : Fin 1024 → EReal)
    (a1w2 : Fin 1024 → Fin 1024 → EReal) (a1b2 : Fin 1024 → EReal)
    (a1cw : Fin 1024 → Fin 1024 → EReal) (a1cb : Fin 1024 → EReal)
    (a2w1 : Fin 1024 → Fin 1024 → EReal) (a2b1 : Fin 1024 → EReal)
    (a2w2 : Fin 1024 → Fin 1024 → EReal) (a2b2 : Fin 1024 → EReal)
    (a2cw : Fin 1024 → Fin 1024 → EReal) (a2cb : Fin 1024 → EReal) (c ninf zero : EReal)
    (hr1 : ∀ i o, r1 i o = Cert.Spec.attn x a1w1 a1b1 a1w2 a1b2 a1cw a1cb c ninf i o)
    (hh : ∀ i o, h i o = max (x i o + r1 i o) zero)
    (hh2 : ∀ i o, h2 i o = Cert.Spec.lin h fc2w fc2b i o)
    (hr2 : ∀ i o, r2 i o = Cert.Spec.attn h2 a2w1 a2b1 a2w2 a2b2 a2cw a2cb c ninf i o)
    (hout : ∀ i o, out i o = max ((h2 i o + r2 i o) + x i o) zero) :
    ∀ i o, out i o = Cert.Spec.head x fc2w fc2b a1w1 a1b1 a1w2 a1b2 a1cw a1cb a2w1 a2b1 a2w2 a2b2 a2cw a2cb c ninf zero i o := by
  obtain rfl : r1 = Cert.Spec.attn x a1w1 a1b1 a1w2 a1b2 a1cw a1cb c ninf := funext fun i => funext fun o => hr1 i o
  obtain rfl : h = fun i o => max (x i o + Cert.Spec.attn x a1w1 a1b1 a1w2 a1b2 a1cw a1cb c ninf i o) zero :=
    funext fun i => funext fun o => hh i o
  obtain rfl : h2 = Cert.Spec.lin _ fc2w fc2b := funext fun i => funext fun o => hh2 i o
  obtain rfl : r2 = Cert.Spec.attn _ a2w1 a2b1 a2w2 a2b2 a2cw a2cb c ninf := funext fun i => funext fun o => hr2 i o
  exact hout

/-! ## The program's stages -/

section Program

variable (a0 : (⟨S512x1024x7x7, .f32⟩ : BufTy).Contents (Elt Ideal))
    (a1 : (⟨S1024x50176, .f32⟩ : BufTy).Contents (Elt Ideal))
    (a2 : (⟨S1024, .f32⟩ : BufTy).Contents (Elt Ideal))
    (a3 : (⟨S1024x1024, .f32⟩ : BufTy).Contents (Elt Ideal))
    (a4 : (⟨S1024, .f32⟩ : BufTy).Contents (Elt Ideal))
    (a5 : (⟨S1024x1024, .f32⟩ : BufTy).Contents (Elt Ideal))
    (a6 : (⟨S1024, .f32⟩ : BufTy).Contents (Elt Ideal))
    (a7 : (⟨S1024x1024, .f32⟩ : BufTy).Contents (Elt Ideal))
    (a8 : (⟨S1024, .f32⟩ : BufTy).Contents (Elt Ideal))
    (a9 : (⟨S1024x1024, .f32⟩ : BufTy).Contents (Elt Ideal))
    (a10 : (⟨S1024, .f32⟩ : BufTy).Contents (Elt Ideal))
    (a11 : (⟨S1024x1024, .f32⟩ : BufTy).Contents (Elt Ideal))
    (a12 : (⟨S1024, .f32⟩ : BufTy).Contents (Elt Ideal))
    (a13 : (⟨S1024x1024, .f32⟩ : BufTy).Contents (Elt Ideal))
    (a14 : (⟨S1024, .f32⟩ : BufTy).Contents (Elt Ideal))
    (a15 : (⟨S1024x1024, .f32⟩ : BufTy).Contents (Elt Ideal))
    (a16 : (⟨S1024, .f32⟩ : BufTy).Contents (Elt Ideal))

include a0 a1 a2 a3 a4 a5 a6 a7 a8 a9 a10 a11 a12 a13 a14 a15 a16

/-- The first projection is a linear layer of the reshaped input. -/
theorem fc1_eq (p : Fin 512) (d : Fin 1024) :
    Read.val_main_v5 (F := Ideal) a0 a1 a2 (ix2 p d) = Cert.Spec.lin (fun r k => Read.val_main_v0 (F := Ideal) a0 (ix2 r k)) (fun r k => a1 (ix2 r k)) (fun r => a2 (ix1 r)) p d := by
  unfold Read.val_main_v5 Read.val_main_v2 Read.val_main_v4 Read.val_main_v3 Read.val_main_v1
  exact lin_fc1 _ _ _ p d

/-- Attention block 1: the queries are a linear layer of the block's input. -/
theorem q1 (p : Fin 512) (d : Fin 1024) :
    Read.val_main_v10 (F := Ideal) a0 a1 a2 a5 a6 (ix2 p d) = Cert.Spec.lin (fun r k => Read.val_main_v5 (F := Ideal) a0 a1 a2 (ix2 r k)) (fun r k => a5 (ix2 r k)) (fun r => a6 (ix1 r)) p d := by
  unfold Read.val_main_v10 Read.val_main_v7 Read.val_main_v9 Read.val_main_v8 Read.val_main_v6
  exact lin_op _ _ _ p d

/-- Attention block 1: the keys are a linear layer of the block's input. -/
theorem k1 (p : Fin 512) (d : Fin 1024) :
    Read.val_main_v15 (F := Ideal) a0 a1 a2 a7 a8 (ix2 p d) = Cert.Spec.lin (fun r k => Read.val_main_v5 (F := Ideal) a0 a1 a2 (ix2 r k)) (fun r k => a7 (ix2 r k)) (fun r => a8 (ix1 r)) p d := by
  unfold Read.val_main_v15 Read.val_main_v12 Read.val_main_v14 Read.val_main_v13 Read.val_main_v11
  exact lin_op _ _ _ p d

/-- Attention block 1: the scaled logits of the queries and keys. -/
theorem s1 (p j : Fin 512) :
    Read.val_main_v19 (F := Ideal) a0 a1 a2 a5 a6 a7 a8 (ix2 p j) = Cert.Spec.logits (fun r k => Read.val_main_v10 (F := Ideal) a0 a1 a2 a5 a6 (ix2 r k)) (fun r k => Read.val_main_v15 (F := Ideal) a0 a1 a2 a7 a8 (ix2 r k)) (Ideal.ofBits .f32 0x3D000000#32) p j := by
  unfold Read.val_main_v19 Read.val_main_v17 Read.val_main_v16 Read.val_main_v18 Read.val_main_cst
  exact logits_op _ _ _ p j

/-- Attention block 1: the row maximum of the logits. -/
theorem m1 (p : Fin 512) :
    Read.val_main_v22 (F := Ideal) a0 a1 a2 a5 a6 a7 a8 (ix1 p) = Cert.Spec.rowMax (fun r k => Read.val_main_v19 (F := Ideal) a0 a1 a2 a5 a6 a7 a8 (ix2 r k)) (Ideal.ofBits .f32 0xFF800000#32) p := by
  unfold Read.val_main_v22 Read.val_main_v21 Read.val_main_v20 Read.val_main_cst_1 Read.val_main_cst_0
  exact rowmax_op _ _ p

/-- Attention block 1: the shifted exponentials. -/
theorem e1 (p j : Fin 512) :
    Read.val_main_v26 (F := Ideal) a0 a1 a2 a5 a6 a7 a8 (ix2 p j) = Ideal.exp (Read.val_main_v19 (F := Ideal) a0 a1 a2 a5 a6 a7 a8 (ix2 p j) - Read.val_main_v22 (F := Ideal) a0 a1 a2 a5 a6 a7 a8 (ix1 p)) := by
  unfold Read.val_main_v26 Read.val_main_v25 Read.val_main_v24 Read.val_main_v23
  exact exp_op _ _ p j

/-- Attention block 1: the exponentials over their row sum. -/
theorem pr1 (p j : Fin 512) :
    Read.val_main_v30 (F := Ideal) a0 a1 a2 a5 a6 a7 a8 (ix2 p j) = Ideal.div (Read.val_main_v26 (F := Ideal) a0 a1 a2 a5 a6 a7 a8 (ix2 p j)) (∑ j' : Fin 512, Read.val_main_v26 (F := Ideal) a0 a1 a2 a5 a6 a7 a8 (ix2 p j')) := by
  unfold Read.val_main_v30 Read.val_main_v29 Read.val_main_v28 Read.val_main_v27 Read.val_main_cst_2
  exact softmax_op _ p j

/-- Attention block 1: the attention-weighted sum of the input's rows. -/
theorem mx1 (p : Fin 512) (d : Fin 1024) :
    Read.val_main_v31 (F := Ideal) a0 a1 a2 a5 a6 a7 a8 (ix2 p d) = Cert.Spec.mix (fun r k => Read.val_main_v30 (F := Ideal) a0 a1 a2 a5 a6 a7 a8 (ix2 r k)) (fun r k => Read.val_main_v5 (F := Ideal) a0 a1 a2 (ix2 r k)) p d := by
  unfold Read.val_main_v31
  exact mix_op _ _ p d

/-- Attention block 1: the output projection is a linear layer of the weighted sum. -/
theorem o1 (p : Fin 512) (d : Fin 1024) :
    Read.val_main_v36 (F := Ideal) a0 a1 a2 a5 a6 a7 a8 a9 a10 (ix2 p d) = Cert.Spec.lin (fun r k => Read.val_main_v31 (F := Ideal) a0 a1 a2 a5 a6 a7 a8 (ix2 r k)) (fun r k => a9 (ix2 r k)) (fun r => a10 (ix1 r)) p d := by
  unfold Read.val_main_v36 Read.val_main_v33 Read.val_main_v35 Read.val_main_v34 Read.val_main_v32
  exact lin_op _ _ _ p d

/-- Attention block 1 is the specification's attention of the block's input. -/
theorem attn1 (p : Fin 512) (d : Fin 1024) :
    Read.val_main_v36 (F := Ideal) a0 a1 a2 a5 a6 a7 a8 a9 a10 (ix2 p d)
      = Cert.Spec.attn (fun r k => Read.val_main_v5 (F := Ideal) a0 a1 a2 (ix2 r k)) (fun r k => a5 (ix2 r k)) (fun r => a6 (ix1 r)) (fun r k => a7 (ix2 r k)) (fun r => a8 (ix1 r)) (fun r k => a9 (ix2 r k)) (fun r => a10 (ix1 r)) (Ideal.ofBits .f32 0x3D000000#32) (Ideal.ofBits .f32 0xFF800000#32) p d :=
  attn_of_stages (fun r k => Read.val_main_v5 (F := Ideal) a0 a1 a2 (ix2 r k)) (fun r k => Read.val_main_v10 (F := Ideal) a0 a1 a2 a5 a6 (ix2 r k)) (fun r k => Read.val_main_v15 (F := Ideal) a0 a1 a2 a7 a8 (ix2 r k)) (fun r k => Read.val_main_v31 (F := Ideal) a0 a1 a2 a5 a6 a7 a8 (ix2 r k)) (fun r k => Read.val_main_v36 (F := Ideal) a0 a1 a2 a5 a6 a7 a8 a9 a10 (ix2 r k))
    (fun r k => Read.val_main_v19 (F := Ideal) a0 a1 a2 a5 a6 a7 a8 (ix2 r k)) (fun r k => Read.val_main_v26 (F := Ideal) a0 a1 a2 a5 a6 a7 a8 (ix2 r k)) (fun r k => Read.val_main_v30 (F := Ideal) a0 a1 a2 a5 a6 a7 a8 (ix2 r k)) (fun r => Read.val_main_v22 (F := Ideal) a0 a1 a2 a5 a6 a7 a8 (ix1 r))
    (fun r k => a5 (ix2 r k)) (fun r => a6 (ix1 r)) (fun r k => a7 (ix2 r k)) (fun r => a8 (ix1 r)) (fun r k => a9 (ix2 r k)) (fun r => a10 (ix1 r)) (Ideal.ofBits .f32 0x3D000000#32) (Ideal.ofBits .f32 0xFF800000#32)
    (q1 a0 a1 a2 a3 a4 a5 a6 a7 a8 a9 a10 a11 a12 a13 a14 a15 a16) (k1 a0 a1 a2 a3 a4 a5 a6 a7 a8 a9 a10 a11 a12 a13 a14 a15 a16) (s1 a0 a1 a2 a3 a4 a5 a6 a7 a8 a9 a10 a11 a12 a13 a14 a15 a16) (m1 a0 a1 a2 a3 a4 a5 a6 a7 a8 a9 a10 a11 a12 a13 a14 a15 a16) (e1 a0 a1 a2 a3 a4 a5 a6 a7 a8 a9 a10 a11 a12 a13 a14 a15 a16) (pr1 a0 a1 a2 a3 a4 a5 a6 a7 a8 a9 a10 a11 a12 a13 a14 a15 a16) (mx1 a0 a1 a2 a3 a4 a5 a6 a7 a8 a9 a10 a11 a12 a13 a14 a15 a16) (o1 a0 a1 a2 a3 a4 a5 a6 a7 a8 a9 a10 a11 a12 a13 a14 a15 a16) p d

/-- The first residual sum and relu. -/
theorem h_eq (p : Fin 512) (d : Fin 1024) :
    Read.val_main_v38 (F := Ideal) a0 a1 a2 a5 a6 a7 a8 a9 a10 (ix2 p d) = max (Read.val_main_v5 (F := Ideal) a0 a1 a2 (ix2 p d) + Read.val_main_v36 (F := Ideal) a0 a1 a2 a5 a6 a7 a8 a9 a10 (ix2 p d)) (Ideal.ofBits .f32 0x00000000#32) := by
  unfold Read.val_main_v38 Read.val_main_v37 Read.val_main_call0_v0 Read.val_main_call0_cst
  exact relu_op _ _ p d

/-- The second linear layer. -/
theorem fc2_eq (p : Fin 512) (d : Fin 1024) :
    Read.val_main_v43 (F := Ideal) a0 a1 a2 a3 a4 a5 a6 a7 a8 a9 a10 (ix2 p d) = Cert.Spec.lin (fun r k => Read.val_main_v38 (F := Ideal) a0 a1 a2 a5 a6 a7 a8 a9 a10 (ix2 r k)) (fun r k => a3 (ix2 r k)) (fun r => a4 (ix1 r)) p d := by
  unfold Read.val_main_v43 Read.val_main_v40 Read.val_main_v42 Read.val_main_v41 Read.val_main_v39
  exact lin_op _ _ _ p d

/-- Attention block 2: the queries are a linear layer of the block's input. -/
theorem q2 (p : Fin 512) (d : Fin 1024) :
    Read.val_main_v48 (F := Ideal) a0 a1 a2 a3 a4 a5 a6 a7 a8 a9 a10 a11 a12 (ix2 p d) = Cert.Spec.lin (fun r k => Read.val_main_v43 (F := Ideal) a0 a1 a2 a3 a4 a5 a6 a7 a8 a9 a10 (ix2 r k)) (fun r k => a11 (ix2 r k)) (fun r => a12 (ix1 r)) p d := by
  unfold Read.val_main_v48 Read.val_main_v45 Read.val_main_v47 Read.val_main_v46 Read.val_main_v44
  exact lin_op _ _ _ p d

/-- Attention block 2: the keys are a linear layer of the block's input. -/
theorem k2 (p : Fin 512) (d : Fin 1024) :
    Read.val_main_v53 (F := Ideal) a0 a1 a2 a3 a4 a5 a6 a7 a8 a9 a10 a13 a14 (ix2 p d) = Cert.Spec.lin (fun r k => Read.val_main_v43 (F := Ideal) a0 a1 a2 a3 a4 a5 a6 a7 a8 a9 a10 (ix2 r k)) (fun r k => a13 (ix2 r k)) (fun r => a14 (ix1 r)) p d := by
  unfold Read.val_main_v53 Read.val_main_v50 Read.val_main_v52 Read.val_main_v51 Read.val_main_v49
  exact lin_op _ _ _ p d

/-- Attention block 2: the scaled logits of the queries and keys. -/
theorem s2 (p j : Fin 512) :
    Read.val_main_v57 (F := Ideal) a0 a1 a2 a3 a4 a5 a6 a7 a8 a9 a10 a11 a12 a13 a14 (ix2 p j) = Cert.Spec.logits (fun r k => Read.val_main_v48 (F := Ideal) a0 a1 a2 a3 a4 a5 a6 a7 a8 a9 a10 a11 a12 (ix2 r k)) (fun r k => Read.val_main_v53 (F := Ideal) a0 a1 a2 a3 a4 a5 a6 a7 a8 a9 a10 a13 a14 (ix2 r k)) (Ideal.ofBits .f32 0x3D000000#32) p j := by
  unfold Read.val_main_v57 Read.val_main_v55 Read.val_main_v54 Read.val_main_v56 Read.val_main_cst_3
  exact logits_op _ _ _ p j

/-- Attention block 2: the row maximum of the logits. -/
theorem m2 (p : Fin 512) :
    Read.val_main_v60 (F := Ideal) a0 a1 a2 a3 a4 a5 a6 a7 a8 a9 a10 a11 a12 a13 a14 (ix1 p) = Cert.Spec.rowMax (fun r k => Read.val_main_v57 (F := Ideal) a0 a1 a2 a3 a4 a5 a6 a7 a8 a9 a10 a11 a12 a13 a14 (ix2 r k)) (Ideal.ofBits .f32 0xFF800000#32) p := by
  unfold Read.val_main_v60 Read.val_main_v59 Read.val_main_v58 Read.val_main_cst_5 Read.val_main_cst_4
  exact rowmax_op _ _ p

/-- Attention block 2: the shifted exponentials. -/
theorem e2 (p j : Fin 512) :
    Read.val_main_v64 (F := Ideal) a0 a1 a2 a3 a4 a5 a6 a7 a8 a9 a10 a11 a12 a13 a14 (ix2 p j) = Ideal.exp (Read.val_main_v57 (F := Ideal) a0 a1 a2 a3 a4 a5 a6 a7 a8 a9 a10 a11 a12 a13 a14 (ix2 p j) - Read.val_main_v60 (F := Ideal) a0 a1 a2 a3 a4 a5 a6 a7 a8 a9 a10 a11 a12 a13 a14 (ix1 p)) := by
  unfold Read.val_main_v64 Read.val_main_v63 Read.val_main_v62 Read.val_main_v61
  exact exp_op _ _ p j

/-- Attention block 2: the exponentials over their row sum. -/
theorem pr2 (p j : Fin 512) :
    Read.val_main_v68 (F := Ideal) a0 a1 a2 a3 a4 a5 a6 a7 a8 a9 a10 a11 a12 a13 a14 (ix2 p j) = Ideal.div (Read.val_main_v64 (F := Ideal) a0 a1 a2 a3 a4 a5 a6 a7 a8 a9 a10 a11 a12 a13 a14 (ix2 p j)) (∑ j' : Fin 512, Read.val_main_v64 (F := Ideal) a0 a1 a2 a3 a4 a5 a6 a7 a8 a9 a10 a11 a12 a13 a14 (ix2 p j')) := by
  unfold Read.val_main_v68 Read.val_main_v67 Read.val_main_v66 Read.val_main_v65 Read.val_main_cst_6
  exact softmax_op _ p j

/-- Attention block 2: the attention-weighted sum of the input's rows. -/
theorem mx2 (p : Fin 512) (d : Fin 1024) :
    Read.val_main_v69 (F := Ideal) a0 a1 a2 a3 a4 a5 a6 a7 a8 a9 a10 a11 a12 a13 a14 (ix2 p d) = Cert.Spec.mix (fun r k => Read.val_main_v68 (F := Ideal) a0 a1 a2 a3 a4 a5 a6 a7 a8 a9 a10 a11 a12 a13 a14 (ix2 r k)) (fun r k => Read.val_main_v43 (F := Ideal) a0 a1 a2 a3 a4 a5 a6 a7 a8 a9 a10 (ix2 r k)) p d := by
  unfold Read.val_main_v69
  exact mix_op _ _ p d

/-- Attention block 2: the output projection is a linear layer of the weighted sum. -/
theorem o2 (p : Fin 512) (d : Fin 1024) :
    Read.val_main_v74 (F := Ideal) a0 a1 a2 a3 a4 a5 a6 a7 a8 a9 a10 a11 a12 a13 a14 a15 a16 (ix2 p d) = Cert.Spec.lin (fun r k => Read.val_main_v69 (F := Ideal) a0 a1 a2 a3 a4 a5 a6 a7 a8 a9 a10 a11 a12 a13 a14 (ix2 r k)) (fun r k => a15 (ix2 r k)) (fun r => a16 (ix1 r)) p d := by
  unfold Read.val_main_v74 Read.val_main_v71 Read.val_main_v73 Read.val_main_v72 Read.val_main_v70
  exact lin_op _ _ _ p d

/-- Attention block 2 is the specification's attention of the block's input. -/
theorem attn2 (p : Fin 512) (d : Fin 1024) :
    Read.val_main_v74 (F := Ideal) a0 a1 a2 a3 a4 a5 a6 a7 a8 a9 a10 a11 a12 a13 a14 a15 a16 (ix2 p d)
      = Cert.Spec.attn (fun r k => Read.val_main_v43 (F := Ideal) a0 a1 a2 a3 a4 a5 a6 a7 a8 a9 a10 (ix2 r k)) (fun r k => a11 (ix2 r k)) (fun r => a12 (ix1 r)) (fun r k => a13 (ix2 r k)) (fun r => a14 (ix1 r)) (fun r k => a15 (ix2 r k)) (fun r => a16 (ix1 r)) (Ideal.ofBits .f32 0x3D000000#32) (Ideal.ofBits .f32 0xFF800000#32) p d :=
  attn_of_stages (fun r k => Read.val_main_v43 (F := Ideal) a0 a1 a2 a3 a4 a5 a6 a7 a8 a9 a10 (ix2 r k)) (fun r k => Read.val_main_v48 (F := Ideal) a0 a1 a2 a3 a4 a5 a6 a7 a8 a9 a10 a11 a12 (ix2 r k)) (fun r k => Read.val_main_v53 (F := Ideal) a0 a1 a2 a3 a4 a5 a6 a7 a8 a9 a10 a13 a14 (ix2 r k)) (fun r k => Read.val_main_v69 (F := Ideal) a0 a1 a2 a3 a4 a5 a6 a7 a8 a9 a10 a11 a12 a13 a14 (ix2 r k)) (fun r k => Read.val_main_v74 (F := Ideal) a0 a1 a2 a3 a4 a5 a6 a7 a8 a9 a10 a11 a12 a13 a14 a15 a16 (ix2 r k))
    (fun r k => Read.val_main_v57 (F := Ideal) a0 a1 a2 a3 a4 a5 a6 a7 a8 a9 a10 a11 a12 a13 a14 (ix2 r k)) (fun r k => Read.val_main_v64 (F := Ideal) a0 a1 a2 a3 a4 a5 a6 a7 a8 a9 a10 a11 a12 a13 a14 (ix2 r k)) (fun r k => Read.val_main_v68 (F := Ideal) a0 a1 a2 a3 a4 a5 a6 a7 a8 a9 a10 a11 a12 a13 a14 (ix2 r k)) (fun r => Read.val_main_v60 (F := Ideal) a0 a1 a2 a3 a4 a5 a6 a7 a8 a9 a10 a11 a12 a13 a14 (ix1 r))
    (fun r k => a11 (ix2 r k)) (fun r => a12 (ix1 r)) (fun r k => a13 (ix2 r k)) (fun r => a14 (ix1 r)) (fun r k => a15 (ix2 r k)) (fun r => a16 (ix1 r)) (Ideal.ofBits .f32 0x3D000000#32) (Ideal.ofBits .f32 0xFF800000#32)
    (q2 a0 a1 a2 a3 a4 a5 a6 a7 a8 a9 a10 a11 a12 a13 a14 a15 a16) (k2 a0 a1 a2 a3 a4 a5 a6 a7 a8 a9 a10 a11 a12 a13 a14 a15 a16) (s2 a0 a1 a2 a3 a4 a5 a6 a7 a8 a9 a10 a11 a12 a13 a14 a15 a16) (m2 a0 a1 a2 a3 a4 a5 a6 a7 a8 a9 a10 a11 a12 a13 a14 a15 a16) (e2 a0 a1 a2 a3 a4 a5 a6 a7 a8 a9 a10 a11 a12 a13 a14 a15 a16) (pr2 a0 a1 a2 a3 a4 a5 a6 a7 a8 a9 a10 a11 a12 a13 a14 a15 a16) (mx2 a0 a1 a2 a3 a4 a5 a6 a7 a8 a9 a10 a11 a12 a13 a14 a15 a16) (o2 a0 a1 a2 a3 a4 a5 a6 a7 a8 a9 a10 a11 a12 a13 a14 a15 a16) p d

/-- The last residual sums and relu. -/
theorem out_eq (p : Fin 512) (d : Fin 1024) :
    Read.val_main_v77 (F := Ideal) a0 a1 a2 a3 a4 a5 a6 a7 a8 a9 a10 a11 a12 a13 a14 a15 a16 (ix2 p d)
      = max ((Read.val_main_v43 (F := Ideal) a0 a1 a2 a3 a4 a5 a6 a7 a8 a9 a10 (ix2 p d) + Read.val_main_v74 (F := Ideal) a0 a1 a2 a3 a4 a5 a6 a7 a8 a9 a10 a11 a12 a13 a14 a15 a16 (ix2 p d)) + Read.val_main_v5 (F := Ideal) a0 a1 a2 (ix2 p d)) (Ideal.ofBits .f32 0x00000000#32) := by
  unfold Read.val_main_v77 Read.val_main_v76 Read.val_main_v75 Read.val_main_call1_v0 Read.val_main_call1_cst
  exact relu_op _ _ p d

/-- The reference program's result at (i, o) is the specification's head of the first linear layer. -/
theorem result_eq (i : Fin 512) (o : Fin 1024) :
    Read.val_main_v77 (F := Ideal) a0 a1 a2 a3 a4 a5 a6 a7 a8 a9 a10 a11 a12 a13 a14 a15 a16 (ix2 i o)
      = Cert.Spec.head
          (Cert.Spec.lin (fun r k => Read.val_main_v0 (F := Ideal) a0 (ix2 r k)) (fun r k => a1 (ix2 r k)) (fun r => a2 (ix1 r)))
          (fun r k => a3 (ix2 r k)) (fun r => a4 (ix1 r))
          (fun r k => a5 (ix2 r k)) (fun r => a6 (ix1 r))
          (fun r k => a7 (ix2 r k)) (fun r => a8 (ix1 r))
          (fun r k => a9 (ix2 r k)) (fun r => a10 (ix1 r))
          (fun r k => a11 (ix2 r k)) (fun r => a12 (ix1 r))
          (fun r k => a13 (ix2 r k)) (fun r => a14 (ix1 r))
          (fun r k => a15 (ix2 r k)) (fun r => a16 (ix1 r))
          (Ideal.ofBits .f32 0x3D000000#32) (Ideal.ofBits .f32 0xFF800000#32) (Ideal.ofBits .f32 0x00000000#32) i o := by
  have h5 : (fun r k => Read.val_main_v5 (F := Ideal) a0 a1 a2 (ix2 r k))
      = Cert.Spec.lin (fun r k => Read.val_main_v0 (F := Ideal) a0 (ix2 r k)) (fun r k => a1 (ix2 r k)) (fun r => a2 (ix1 r)) :=
    funext fun r => funext fun k => fc1_eq a0 a1 a2 a3 a4 a5 a6 a7 a8 a9 a10 a11 a12 a13 a14 a15 a16 r k
  rw [← h5]
  exact head_of_stages (fun r k => Read.val_main_v5 (F := Ideal) a0 a1 a2 (ix2 r k)) (fun r k => Read.val_main_v36 (F := Ideal) a0 a1 a2 a5 a6 a7 a8 a9 a10 (ix2 r k)) (fun r k => Read.val_main_v38 (F := Ideal) a0 a1 a2 a5 a6 a7 a8 a9 a10 (ix2 r k)) (fun r k => Read.val_main_v43 (F := Ideal) a0 a1 a2 a3 a4 a5 a6 a7 a8 a9 a10 (ix2 r k)) (fun r k => Read.val_main_v74 (F := Ideal) a0 a1 a2 a3 a4 a5 a6 a7 a8 a9 a10 a11 a12 a13 a14 a15 a16 (ix2 r k)) (fun r k => Read.val_main_v77 (F := Ideal) a0 a1 a2 a3 a4 a5 a6 a7 a8 a9 a10 a11 a12 a13 a14 a15 a16 (ix2 r k))
    (fun r k => a3 (ix2 r k)) (fun r => a4 (ix1 r))
    (fun r k => a5 (ix2 r k)) (fun r => a6 (ix1 r))
    (fun r k => a7 (ix2 r k)) (fun r => a8 (ix1 r))
    (fun r k => a9 (ix2 r k)) (fun r => a10 (ix1 r))
    (fun r k => a11 (ix2 r k)) (fun r => a12 (ix1 r))
    (fun r k => a13 (ix2 r k)) (fun r => a14 (ix1 r))
    (fun r k => a15 (ix2 r k)) (fun r => a16 (ix1 r))
    (Ideal.ofBits .f32 0x3D000000#32) (Ideal.ofBits .f32 0xFF800000#32) (Ideal.ofBits .f32 0x00000000#32)
    (attn1 a0 a1 a2 a3 a4 a5 a6 a7 a8 a9 a10 a11 a12 a13 a14 a15 a16) (h_eq a0 a1 a2 a3 a4 a5 a6 a7 a8 a9 a10 a11 a12 a13 a14 a15 a16) (fc2_eq a0 a1 a2 a3 a4 a5 a6 a7 a8 a9 a10 a11 a12 a13 a14 a15 a16) (attn2 a0 a1 a2 a3 a4 a5 a6 a7 a8 a9 a10 a11 a12 a13 a14 a15 a16) (out_eq a0 a1 a2 a3 a4 a5 a6 a7 a8 a9 a10 a11 a12 a13 a14 a15 a16) i o

end Program

end Cert.ReferenceIdeal.RefValue

end
-- ==== Proof.RefSide.lean ====
/-
  The reference program's run stated over the specification: on every core its result buffer ends at the
  specification's head of the first linear layer of the launch memory's argument arrays, read at (row, column),
  and the seventeen argument arrays end unchanged. The run's composed term is the last named stage of the program;
  that stage is the specification at every index, so the two functions are equal by extensionality after splitting
  an index into its two coordinates.
-/
import proofs.«157159_j31490700214886_2_alg».proof.Defs
import proofs.«157159_j31490700214886_2_alg».proof.Proof.RefValue
import proofs.«157159_j31490700214886_2_alg».proof.Proof.Gen.ReferenceIdeal
import proofs.«157159_j31490700214886_2_alg».proof.Proof.Gen.Pre_finite_inputs

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

/-- The reference's result on core c as the specification of the launch memory's argument arrays. -/
def refOut (m : (ℓ : Loc nD τ sig) → Buf (Elt Ideal) ℓ) (c : Dev nD) : Buf (Elt Ideal) ((c.tc : Thread nD τ).loc main_v77) :=
  fun y => Cert.Spec.head
      (Cert.Spec.lin (fun r k => Read.val_main_v0 (F := Ideal) (m ((c.tc : Thread nD τ).loc main_arg0)) (ix2 r k))
        (fun r k => (m ((c.tc : Thread nD τ).loc main_arg1)) (ix2 r k)) (fun r => (m ((c.tc : Thread nD τ).loc main_arg2)) (ix1 r)))
      (fun r k => (m ((c.tc : Thread nD τ).loc main_arg3)) (ix2 r k)) (fun r => (m ((c.tc : Thread nD τ).loc main_arg4)) (ix1 r))
      (fun r k => (m ((c.tc : Thread nD τ).loc main_arg5)) (ix2 r k)) (fun r => (m ((c.tc : Thread nD τ).loc main_arg6)) (ix1 r))
      (fun r k => (m ((c.tc : Thread nD τ).loc main_arg7)) (ix2 r k)) (fun r => (m ((c.tc : Thread nD τ).loc main_arg8)) (ix1 r))
      (fun r k => (m ((c.tc : Thread nD τ).loc main_arg9)) (ix2 r k)) (fun r => (m ((c.tc : Thread nD τ).loc main_arg10)) (ix1 r))
      (fun r k => (m ((c.tc : Thread nD τ).loc main_arg11)) (ix2 r k)) (fun r => (m ((c.tc : Thread nD τ).loc main_arg12)) (ix1 r))
      (fun r k => (m ((c.tc : Thread nD τ).loc main_arg13)) (ix2 r k)) (fun r => (m ((c.tc : Thread nD τ).loc main_arg14)) (ix1 r))
      (fun r k => (m ((c.tc : Thread nD τ).loc main_arg15)) (ix2 r k)) (fun r => (m ((c.tc : Thread nD τ).loc main_arg16)) (ix1 r))
      (Ideal.ofBits .f32 0x3D000000#32) (Ideal.ofBits .f32 0xFF800000#32) (Ideal.ofBits .f32 0x00000000#32) (y 0) (y 1)

/-- The run's composed term is the specification: it is the program's last stage, which is the specification at every
    (row, column). -/
theorem res_eq (m : (ℓ : Loc nD τ sig) → Buf (Elt Ideal) ℓ) (c : Dev nD) :
    Cert.ReferenceIdeal.Value.res_main_v77 (F := Ideal) m c = refOut m c := by
  rw [Read.val_main_v77_eq]
  funext y
  obtain ⟨i, o, rfl⟩ : ∃ (i : Fin 512) (o : Fin 1024), y = ix2 i o := ⟨y 0, y 1, eq_ix2 y⟩
  exact result_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) i o

/-- Every weakly fair execution of the reference terminates with its result at the specification of the launch
    contents and its arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v77) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c).1.trans (res_eq m c), (h c).2⟩)
    (Cert.ReferenceIdeal.Value.run (F := Ideal) m ρ)

/-- The reference runs and leaves its argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.Glue.lean ====
/-
  From launch memories that agree on the seventeen argument arrays, the two programs' results, each stated as the
  specification of its own memory's arrays, are one function: the specification reads nothing but those arrays (the
  first linear layer reads the [512, 1024, 7, 7] input through the same row-major flattening on both sides).
-/
import proofs.«157159_j31490700214886_2_alg».proof.Proof.KI.KerOut
import proofs.«157159_j31490700214886_2_alg».proof.Proof.RefSide

noncomputable section

namespace Cert.Proof.Glue

open Idealize.ShloMosaic Idealize.ShloMosaic.TcCoe Idealize.SL.Sem

/-- Memories agreeing on the argument arrays give the same specified result on every core. -/
theorem out_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RefValue.refOut m' c = Cert.KernelIdeal.Fr.kerOut m c := by
  obtain ⟨h0, h1, h2, h3, h4, h5, h6, h7, h8, h9, h10, h11, h12, h13, h14, h15, h16⟩ := h
  unfold Cert.ReferenceIdeal.RefValue.refOut Cert.KernelIdeal.Fr.kerOut
  rw [h0, h1, h2, h3, h4, h5, h6, h7, h8, h9, h10, h11, h12, h13, h14, h15, h16]
  rfl

end Cert.Proof.Glue

end
-- ==== Proof.lean ====
/-
  The two programs compute one function of their seventeen argument arrays.

  Both flatten the [512, 1024, 7, 7] input to [512, 50176] (row-major), project it with a [1024, 50176] weight matrix and a
  bias to [512, 1024], and then apply twice a single-head attention over the 512 rows with the rows themselves as values
  (queries and keys are linear layers of the rows; the logits are scaled; each row's softmax is the exponential of the
  logit minus the row maximum over the row's sum of those exponentials; the weighted sum of the rows goes through a last
  linear layer), with a residual sum and a relu after the first block, a linear layer between the blocks, and a
  residual sum with both earlier values and a relu at the end. The kernel accumulates the first projection over 28
  blocks of 1792 contraction coordinates for each half of the columns, and holds intermediate values in narrower
  formats; the reference computes each matrix product as one sum.

  At the extended reals every operation of the kernel is the reference's: a format change is the identity, and a sum
  taken block by block is the whole sum regrouped, which needs only that addition is associative and commutative, so
  no finiteness of the inputs is used. Both results are therefore stated as the same specification of the launch
  memory's arrays, over plain (row, column) coordinates.

  The five conjuncts:
  * the kernel at the bit-exact values and at the extended reals, and the reference, each run to the end and leave
    their argument arrays as launched (the three frame claims; the reference's from its run read back as a list of
    host operations, the kernels' from their two pipelined regions);
  * the kernel's idealization rewrote no operation, so there is nothing to preserve;
  * from memories that agree on the arguments, the kernel's result is the specification of its memory's arrays and the
    reference's result is the specification of its own; the specification reads only those arrays, which agree, so the
    two results are equal element by element.
-/
import proofs.«157159_j31490700214886_2_alg».proof.Defs
import proofs.«157159_j31490700214886_2_alg».proof.Proof.Gen.Kernel
import proofs.«157159_j31490700214886_2_alg».proof.Proof.Gen.KernelIdeal
import proofs.«157159_j31490700214886_2_alg».proof.Proof.Gen.ReferenceIdeal
import proofs.«157159_j31490700214886_2_alg».proof.Proof.Gen.Pre_finite_inputs
import proofs.«157159_j31490700214886_2_alg».proof.Proof.K.Run
import proofs.«157159_j31490700214886_2_alg».proof.Proof.KI.Final
import proofs.«157159_j31490700214886_2_alg».proof.Proof.RefSide
import proofs.«157159_j31490700214886_2_alg».proof.Proof.Glue

noncomputable section

namespace Cert.Proof

open Idealize.ShloMosaic Idealize.SL.Sem

/-- The kernel at the bit-exact values runs and leaves its arguments unchanged. -/
theorem frame_p : Cert.frame_Kernel := fun m ρ _ => Cert.Kernel.Fr.frame (F := Bits) m ρ

/-- The kernel at the extended reals runs and leaves its arguments unchanged. -/
theorem frame_pi : Cert.frame_KernelIdeal := fun m ρ _ => Cert.KernelIdeal.Fr.frame (F := Ideal) m ρ

/-- The reference runs and leaves its arguments unchanged. -/
theorem frame_ri : Cert.frame_ReferenceIdeal := Cert.ReferenceIdeal.RefValue.frame_ri

/-- The idealization rewrote no operation. -/
theorem preserves : Cert.preserves_Kernel_KernelIdeal := trivial

/-- From memories agreeing on the arguments both programs end at the specification of those arguments. -/
theorem algebraic : Cert.algebraic_KernelIdeal_ReferenceIdeal := by
  intro m ρ m' ρ' _ hagree
  refine ⟨fun c => Cert.KernelIdeal.Fr.kerOut m c, Cert.KernelIdeal.Fr.run_spec m ρ, ?_⟩
  exact (θ_run Cert.ReferenceIdeal.defs _ _).mono
    (fun _ h c => ⟨(h c).1.trans (Cert.Proof.Glue.out_agree m m' c (hagree c)), (h c).2⟩)
    (Cert.ReferenceIdeal.RefValue.run_spec m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
